-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x4 : Shape := ⟨2, ![256, 4]⟩
abbrev S4 : Shape := ⟨1, ![4]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S128 .f32) (main_arg6 : FVec F S256x4 .f32) (main_arg7 : FVec F S4 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x4 .f32 := Host.absf main_arg6
  let main_cst_8 : FVec F S_ .f32 := constant S_ .f32 0x7F800000#32
  let main_v25 : FVec F S256x4 .f32 := broadcastInDim S256x4 ![] bcast_S_S256x4 main_cst_8
  let main_v26 : IVec S256x4 1 := cmpf .olt main_v24 main_v25
  let main_c_9 : IVec S_ 1 := constantI S_ 1 1#1
  let main_v27 : IVec S_ 1 := (fun x v => Host.reduce IntOp.andi x v reducesTo_S256x4_S_d0_1 h_S_) main_v26 main_c_9
  let main_v28 : IVec S_ 1 := andi main_v23 main_v27
  let main_v29 : FVec F S4 .f32 := Host.absf main_arg7
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S256x4 .f32) (main_arg7 : FVec F S4 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x4 : Shape := ⟨2, ![256, 4]⟩
abbrev S4 : Shape := ⟨1, ![4]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S2000x128 : Shape := ⟨2, ![2000, 128]⟩
abbrev S650000x128 : Shape := ⟨2, ![650000, 128]⟩
abbrev S1x128 : Shape := ⟨2, ![1, 128]⟩
abbrev S600000x1 : Shape := ⟨2, ![600000, 1]⟩
abbrev S600000x128 : Shape := ⟨2, ![600000, 128]⟩
abbrev S128x4 : Shape := ⟨2, ![128, 4]⟩
abbrev S600000x4 : Shape := ⟨2, ![600000, 4]⟩
abbrev S6000x128 : Shape := ⟨2, ![6000, 128]⟩
abbrev S6000x4 : Shape := ⟨2, ![6000, 4]⟩
abbrev S1x4 : Shape := ⟨2, ![1, 4]⟩
abbrev S6000 : Shape := ⟨1, ![6000]⟩
abbrev S6000x1 : Shape := ⟨2, ![6000, 1]⟩

abbrev nBuf : Space → Nat
  | .hbm => 119
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x4, .f32⟩
  | .hbm, ⟨7, _⟩ => ⟨S4, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S50000, .i32⟩
  | .hbm, ⟨13, _⟩ => ⟨S650000, .i32⟩
  | .hbm, ⟨14, _⟩ => ⟨S650000, .i32⟩
  | .hbm, ⟨15, _⟩ => ⟨S_, .f32⟩
  | .hbm, ⟨16, _⟩ => ⟨S650000, .f32⟩
  | .hbm, ⟨17, _⟩ => ⟨S_, .f32⟩
  | .hbm, ⟨18, _⟩ => ⟨S50000, .f32⟩
  | .hbm, ⟨19, _⟩ => ⟨S650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S650000, .i32⟩
  | .hbm, ⟨31, _⟩ => ⟨S650000, .i1⟩
  | .hbm, ⟨32, _⟩ => ⟨S_, .i32⟩
  | .hbm, ⟨33, _⟩ => ⟨S650000, .i32⟩
  | .hbm, ⟨34, _⟩ => ⟨S650000, .i32⟩
  | .hbm, ⟨35, _⟩ => ⟨S650000, .i32⟩
  | .hbm, ⟨36, _⟩ => ⟨S650000x1, .i32⟩
  | .hbm, ⟨37, _⟩ => ⟨S650000, .f32⟩
  | .hbm, ⟨38, _⟩ => ⟨S_, .i32⟩
  | .hbm, ⟨39, _⟩ => ⟨S650000, .i32⟩
  | .hbm, ⟨40, _⟩ => ⟨S650000, .i1⟩
  | .hbm, ⟨41, _⟩ => ⟨S_, .i32⟩
  | .hbm, ⟨42, _⟩ => ⟨S650000, .i32⟩
  | .hbm, ⟨43, _⟩ => ⟨S650000, .i32⟩
  | .hbm, ⟨44, _⟩ => ⟨S650000, .i32⟩
  | .hbm, ⟨45, _⟩ => ⟨S650000x1, .i32⟩
  | .hbm, ⟨46, _⟩ => ⟨S650000, .f32⟩
  | .hbm, ⟨47, _⟩ => ⟨S650000, .f32⟩
  | .hbm, ⟨48, _⟩ => ⟨S50000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S650000, .i32⟩
  | .hbm, ⟨71, _⟩ => ⟨S650000, .i1⟩
  | .hbm, ⟨72, _⟩ => ⟨S_, .i32⟩
  | .hbm, ⟨73, _⟩ => ⟨S650000, .i32⟩
  | .hbm, ⟨74, _⟩ => ⟨S650000, .i32⟩
  | .hbm, ⟨75, _⟩ => ⟨S650000, .i32⟩
  | .hbm, ⟨76, _⟩ => ⟨S650000x1, .i32⟩
  | .hbm, ⟨77, _⟩ => ⟨S650000x128, .f32⟩
  | .hbm, ⟨78, _⟩ => ⟨S650000x1, .f32⟩
  | .hbm, ⟨79, _⟩ => ⟨S650000x128, .f32⟩
  | .hbm, ⟨80, _⟩ => ⟨S650000x128, .f32⟩
  | .hbm, ⟨81, _⟩ => ⟨S_, .f32⟩
  | .hbm, ⟨82, _⟩ => ⟨S50000x128, .f32⟩
  | .hbm, ⟨83, _⟩ => ⟨S650000x1, .i32⟩
  | .hbm, ⟨84, _⟩ => ⟨S50000x128, .f32⟩
  | .hbm, ⟨85, _⟩ => ⟨S1x128, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x128, .f32⟩
  | .hbm, ⟨90, _⟩ => ⟨S50000x128, .f32⟩
  | .hbm, ⟨91, _⟩ => ⟨S50000x128, .bf16⟩
  | .hbm, ⟨92, _⟩ => ⟨S1x600000, .i32⟩
  | .hbm, ⟨93, _⟩ => ⟨S600000, .i32⟩
  | .hbm, ⟨94, _⟩ => ⟨S1x600000, .i32⟩
  | .hbm, ⟨95, _⟩ => ⟨S600000, .i32⟩
  | .hbm, ⟨96, _⟩ => ⟨S_, .i32⟩
  | .hbm, ⟨97, _⟩ => ⟨S600000, .i32⟩
  | .hbm, ⟨98, _⟩ => ⟨S600000, .i1⟩
  | .hbm, ⟨99, _⟩ => ⟨S_, .i32⟩
  | .hbm, ⟨100, _⟩ => ⟨S600000, .i32⟩
  | .hbm, ⟨101, _⟩ => ⟨S600000, .i32⟩
  | .hbm, ⟨102, _⟩ => ⟨S600000, .i32⟩
  | .hbm, ⟨103, _⟩ => ⟨S600000x1, .i32⟩
  | .hbm, ⟨104, _⟩ => ⟨S600000x128, .bf16⟩
  | .hbm, ⟨105, _⟩ => ⟨S_, .i32⟩
  | .hbm, ⟨106, _⟩ => ⟨S600000, .i32⟩
  | .hbm, ⟨107, _⟩ => ⟨S600000, .i1⟩
  | .hbm, ⟨108, _⟩ => ⟨S_, .i32⟩
  | .hbm, ⟨109, _⟩ => ⟨S600000, .i32⟩
  | .hbm, ⟨110, _⟩ => ⟨S600000, .i32⟩
  | .hbm, ⟨111, _⟩ => ⟨S600000, .i32⟩
  | .hbm, ⟨112, _⟩ => ⟨S600000x1, .i32⟩
  | .hbm, ⟨113, _⟩ => ⟨S600000x128, .bf16⟩
  | .hbm, ⟨114, _⟩ => ⟨S128x4, .f32⟩
  | .hbm, ⟨115, _⟩ => ⟨S128x4, .bf16⟩
  | .hbm, ⟨116, _⟩ => ⟨S128x4, .f32⟩
  | .hbm, ⟨117, _⟩ => ⟨S128x4, .bf16⟩
  | .hbm, ⟨118, _⟩ => ⟨S600000x4, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x128, .f32⟩
  | .local _ .vmem, ⟨9, _⟩ => ⟨S2000x128, .f32⟩
  | .local _ .vmem, ⟨10, _⟩ => ⟨S6000x128, .bf16⟩
  | .local _ .vmem, ⟨11, _⟩ => ⟨S6000x128, .bf16⟩
  | .local _ .vmem, ⟨12, _⟩ => ⟨S6000x128, .bf16⟩
  | .local _ .vmem, ⟨13, _⟩ => ⟨S6000x128, .bf16⟩
  | .local _ .vmem, ⟨14, _⟩ => ⟨S128x4, .bf16⟩
  | .local _ .vmem, ⟨15, _⟩ => ⟨S128x4, .bf16⟩
  | .local _ .vmem, ⟨16, _⟩ => ⟨S4, .f32⟩
  | .local _ .vmem, ⟨17, _⟩ => ⟨S6000x4, .f32⟩
  | .local _ .vmem, ⟨18, _⟩ => ⟨S6000x4, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem5_1 : DmaSem sig := 18

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x4 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x4 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6000x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S2000x128_S2000x128 : S2000x128.ShapeCasts S2000x128
  bcast_S_S600000 : S_.BroadcastsInDim S600000 (![] : Fin 0 → Fin S600000.rank)
  bcast_S600000_S600000x1_0 : S600000.BroadcastsInDim S600000x1 (![0] : Fin 1 → Fin S600000x1.rank)
  slices_S256x4_S128x4_0_0 : S256x4.Slices ![0, 0] S128x4
  slices_S256x4_S128x4_128_0 : S256x4.Slices ![128, 0] S128x4
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S4_S4_0 : ∀ a, (![0] : Fin 1 → Nat) a + S4.size a ≤ S4.size a
  h_S4 : 0 < S4.numel
  shapeCasts_S4_S1x4 : S4.ShapeCasts S1x4
  broadcasts_S1x4_S6000x4 : S1x4.Broadcasts S6000x4
  reduces_S6000x4_S6000 : S6000x4.Reduces [1] S6000
  shapeCasts_S6000_S6000x1 : S6000.ShapeCasts S6000x1
  broadcasts_S6000x1_S6000x4 : S6000x1.Broadcasts S6000x4
  inb_S6000x4_S6000x4_0_0 : ∀ a, (![0, 0] : Fin 2 → Nat) a + S6000x4.size a ≤ S6000x4.size a
  h_S6000x4 : 0 < S6000x4.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  gather_S50000x128_S600000x1_S600000x128_1_0_n_n_0_1_1128_wf : GatherDims.WF S50000x128 S600000x1 S600000x128 [1] [0] [] [0] [] 1 ![1, 128]
  dot_S6000x128_S128x4_S6000x4_1_0_0_1_n_n_wf : DotDims.WF S6000x128 S128x4 S6000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x128.size a ≤ S600000x128.size a
  hwx2_0 : ∀ i : grid2.Coords, EltTy.bits .bf16 = 32 ∨ (Rect.block (s := S600000x128) S6000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6000x128.size a ≤ S600000x128.size a
  hwx2_1 : ∀ i : grid2.Coords, EltTy.bits .bf16 = 32 ∨ (Rect.block (s := S600000x128) S6000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x4.size a ≤ S128x4.size a
  hwx2_2 : ∀ i : grid2.Coords, EltTy.bits .bf16 = 32 ∨ (Rect.block (s := S128x4) S128x4.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x4.size a ≤ S128x4.size a
  hwx2_3 : ∀ i : grid2.Coords, EltTy.bits .bf16 = 32 ∨ (Rect.block (s := S128x4) S128x4.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4.size a ≤ S4.size a
  hwx2_4 : ∀ i : grid2.Coords, EltTy.bits .f32 = 32 ∨ (Rect.block (s := S4) S4.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6000x4.size a ≤ S600000x4.size a
  hwx2_5 : ∀ i : grid2.Coords, EltTy.bits .f32 = 32 ∨ (Rect.block (s := S600000x4) S6000x4.size (cc2_transform_5 i) (hinb2_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x4_S6000x4_1_0_0_1_n_n : DotDims S6000x128 S128x4 S6000x4 where
  lhsContracting := [1]
  rhsContracting := [0]
  lhsNonContracting := [0]
  rhsNonContracting := [1]
  lhsBatch := []
  rhsBatch := []
  wf := dot_S6000x128_S128x4_S6000x4_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S6000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S6000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S128x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v87) S128x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S4.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S6000x4.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S256x4 : Shape := ⟨2, ![256, 4]⟩
abbrev S4 : Shape := ⟨1, ![4]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S600000x1 : Shape := ⟨2, ![600000, 1]⟩
abbrev S600000x128 : Shape := ⟨2, ![600000, 128]⟩
abbrev S600000x256 : Shape := ⟨2, ![600000, 256]⟩
abbrev S600000x4 : Shape := ⟨2, ![600000, 4]⟩
abbrev S1x4 : Shape := ⟨2, ![1, 4]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S256x4, .f32⟩
  | 7 => ⟨S4, .f32⟩
  | 8 => ⟨S50000x128, .f32⟩
  | 9 => ⟨S1x600000, .i32⟩
  | 10 => ⟨S600000, .i32⟩
  | 11 => ⟨S1x600000, .i32⟩
  | 12 => ⟨S600000, .i32⟩
  | 13 => ⟨S50000, .i32⟩
  | 14 => ⟨S650000, .i32⟩
  | 15 => ⟨S650000, .i32⟩
  | 16 => ⟨S_, .f32⟩
  | 17 => ⟨S650000, .f32⟩
  | 18 => ⟨S_, .f32⟩
  | 19 => ⟨S50000, .f32⟩
  | 20 => ⟨S650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S650000, .i32⟩
  | 32 => ⟨S650000, .i1⟩
  | 33 => ⟨S_, .i32⟩
  | 34 => ⟨S650000, .i32⟩
  | 35 => ⟨S650000, .i32⟩
  | 36 => ⟨S650000, .i32⟩
  | 37 => ⟨S650000x1, .i32⟩
  | 38 => ⟨S650000, .f32⟩
  | 39 => ⟨S_, .i32⟩
  | 40 => ⟨S650000, .i32⟩
  | 41 => ⟨S650000, .i1⟩
  | 42 => ⟨S_, .i32⟩
  | 43 => ⟨S650000, .i32⟩
  | 44 => ⟨S650000, .i32⟩
  | 45 => ⟨S650000, .i32⟩
  | 46 => ⟨S650000x1, .i32⟩
  | 47 => ⟨S650000, .f32⟩
  | 48 => ⟨S650000, .f32⟩
  | 49 => ⟨S_, .i32⟩
  | 50 => ⟨S650000, .i32⟩
  | 51 => ⟨S650000, .i1⟩
  | 52 => ⟨S_, .i32⟩
  | 53 => ⟨S650000, .i32⟩
  | 54 => ⟨S650000, .i32⟩
  | 55 => ⟨S650000, .i32⟩
  | 56 => ⟨S650000x1, .i32⟩
  | 57 => ⟨S650000x128, .f32⟩
  | 58 => ⟨S650000x1, .f32⟩
  | 59 => ⟨S650000x128, .f32⟩
  | 60 => ⟨S650000x128, .f32⟩
  | 61 => ⟨S_, .f32⟩
  | 62 => ⟨S50000x128, .f32⟩
  | 63 => ⟨S650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S1x600000, .i32⟩
  | 73 => ⟨S600000, .i32⟩
  | 74 => ⟨S1x600000, .i32⟩
  | 75 => ⟨S600000, .i32⟩
  | 76 => ⟨S50000, .i32⟩
  | 77 => ⟨S650000, .i32⟩
  | 78 => ⟨S650000, .i32⟩
  | 79 => ⟨S_, .f32⟩
  | 80 => ⟨S650000, .f32⟩
  | 81 => ⟨S_, .f32⟩
  | 82 => ⟨S50000, .f32⟩
  | 83 => ⟨S650000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S650000, .i32⟩
  | 95 => ⟨S650000, .i1⟩
  | 96 => ⟨S_, .i32⟩
  | 97 => ⟨S650000, .i32⟩
  | 98 => ⟨S650000, .i32⟩
  | 99 => ⟨S650000, .i32⟩
  | 100 => ⟨S650000x1, .i32⟩
  | 101 => ⟨S650000, .f32⟩
  | 102 => ⟨S_, .i32⟩
  | 103 => ⟨S650000, .i32⟩
  | 104 => ⟨S650000, .i1⟩
  | 105 => ⟨S_, .i32⟩
  | 106 => ⟨S650000, .i32⟩
  | 107 => ⟨S650000, .i32⟩
  | 108 => ⟨S650000, .i32⟩
  | 109 => ⟨S650000x1, .i32⟩
  | 110 => ⟨S650000, .f32⟩
  | 111 => ⟨S650000, .f32⟩
  | 112 => ⟨S_, .i32⟩
  | 113 => ⟨S650000, .i32⟩
  | 114 => ⟨S650000, .i1⟩
  | 115 => ⟨S_, .i32⟩
  | 116 => ⟨S650000, .i32⟩
  | 117 => ⟨S650000, .i32⟩
  | 118 => ⟨S650000, .i32⟩
  | 119 => ⟨S650000x1, .i32⟩
  | 120 => ⟨S650000x128, .f32⟩
  | 121 => ⟨S650000x1, .f32⟩
  | 122 => ⟨S650000x128, .f32⟩
  | 123 => ⟨S650000x128, .f32⟩
  | 124 => ⟨S_, .f32⟩
  | 125 => ⟨S50000x128, .f32⟩
  | 126 => ⟨S650000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S1x600000, .i32⟩
  | 7 => ⟨S600000, .i32⟩
  | 8 => ⟨S_, .i32⟩
  | 9 => ⟨S600000, .i32⟩
  | 10 => ⟨S600000, .i1⟩
  | 11 => ⟨S_, .i32⟩
  | 12 => ⟨S600000, .i32⟩
  | 13 => ⟨S600000, .i32⟩
  | 14 => ⟨S600000, .i32⟩
  | 15 => ⟨S600000x1, .i32⟩
  | 16 => ⟨S600000x128, .f32⟩
  | 17 => ⟨S1x600000, .i32⟩
  | 18 => ⟨S600000, .i32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S600000x256, .f32⟩
  | 29 => ⟨S600000x4, .f32⟩
  | 30 => ⟨S1x4, .f32⟩
  | 31 => ⟨S600000x4, .f32⟩
  | 32 => ⟨S600000x4, .f32⟩
  | 33 => ⟨S_, .f32⟩
  | 34 => ⟨S600000, .f32⟩
  | 35 => ⟨S_, .f32⟩
  | 36 => ⟨S600000, .f32⟩
  | 37 => ⟨S600000, .f32⟩
  | 38 => ⟨S600000x1, .f32⟩
  | 39 => ⟨S600000x4, .f32⟩
  | 40 => ⟨S600000x4, .f32⟩
  | 41 => ⟨S600000x4, .f32⟩
  | 42 => ⟨S_, .f32⟩
  | 43 => ⟨S600000, .f32⟩
  | 44 => ⟨S600000x1, .f32⟩
  | 45 => ⟨S600000x1, .f32⟩
  | 46 => ⟨S600000x4, .f32⟩
  | 47 => ⟨S600000x4, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_20 : Ref sig .tc := ⟨.hbm, 136, rfl⟩
abbrev main_v98 : Ref sig .tc := ⟨.hbm, 137, rfl⟩
abbrev main_v99 : Ref sig .tc := ⟨.hbm, 138, rfl⟩
abbrev main_c_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_22 : Ref sig .tc := ⟨.hbm, 147, rfl⟩
abbrev main_v107 : Ref sig .tc := ⟨.hbm, 148, rfl⟩
abbrev main_v108 : Ref sig .tc := ⟨.hbm, 149, rfl⟩
abbrev main_c_23 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call4_cst : Ref sig .tc := ⟨.hbm, 161, rfl⟩
abbrev main_call4_v0 : Ref sig .tc := ⟨.hbm, 162, rfl⟩
abbrev main_call4_cst_0 : Ref sig .tc := ⟨.hbm, 163, rfl⟩
abbrev main_call4_v1 : Ref sig .tc := ⟨.hbm, 164, rfl⟩
abbrev main_call4_v2 : Ref sig .tc := ⟨.hbm, 165, rfl⟩
abbrev main_call4_v3 : Ref sig .tc := ⟨.hbm, 166, rfl⟩
abbrev main_call4_v4 : Ref sig .tc := ⟨.hbm, 167, rfl⟩
abbrev main_call4_v5 : Ref sig .tc := ⟨.hbm, 168, rfl⟩
abbrev main_call4_v6 : Ref sig .tc := ⟨.hbm, 169, rfl⟩
abbrev main_call4_cst_1 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_v119 : Ref sig .tc := ⟨.hbm, 175, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x256_d1 : Shape.Concatenates [S600000x128, S600000x128] S600000x256 1
  bcast_S4_S1x4_1 : S4.BroadcastsInDim S1x4 (![1] : Fin 1 → Fin S1x4.rank)
  bcast_S1x4_S600000x4_0_1 : S1x4.BroadcastsInDim S600000x4 (![0, 1] : Fin 2 → Fin S600000x4.rank)
  reducesTo_S600000x4_S600000_d1 : S600000x4.ReducesTo [1] S600000
  h_S_ : 0 < S_.numel
  bcast_S600000x1_S600000x4_0_1 : S600000x1.BroadcastsInDim S600000x4 (![0, 1] : Fin 2 → Fin S600000x4.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  gather_S50000x128_S600000x1_S600000x128_1_0_n_n_0_1_1128_wf : GatherDims.WF S50000x128 S600000x1 S600000x128 [1] [0] [] [0] [] 1 ![1, 128]
  dot_S600000x256_S256x4_S600000x4_1_0_0_1_n_n_wf : DotDims.WF S600000x256 S256x4 S600000x4 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x256_S256x4_S600000x4_1_0_0_1_n_n : DotDims S600000x256 S256x4 S600000x4 where
  lhsContracting := [1]
  rhsContracting := [0]
  lhsNonContracting := [0]
  rhsNonContracting := [1]
  lhsBatch := []
  rhsBatch := []
  wf := dot_S600000x256_S256x4_S600000x4_1_0_0_1_n_n_wf

class Facts : Prop extends Facts₀ where

variable [Facts]
-- ==== Proof.KRun.lean ====
/-
  The idealized kernel program's run, with its result named.

  The program is ten segments: stretches of host operations and three grid regions.  Every weakly fair execution
  passes through the segment boundaries with every unscoped buffer at the contents the fold of the segments
  gives it; at the last boundary the result buffer is therefore at the last fold's value, and each argument
  array is as launched.  This is the launch of the segments with the result buffer read beside the arguments.
-/
import proofs.«103492_j72215580115747_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the eight argument arrays end as launched. -/
theorem run : θ_run defs (onTc (τ := τ) (main (F := F))) ⟨m, fun _ => 0, ρ⟩ (fun r => ∀ c : Dev nD,
      r.2.mem ((c.tc : Thread nD τ).loc main_v88) = W10 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v88 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.KRun

end
-- ==== Proof.RRun.lean ====
/-
  The reference program's run.

  The reference is a straight line of 168 host operations (the operations of the functions it calls standing in
  their calls' places).  The line is cut here into six stretches that follow the computation: the first graph
  layer (the degree normalisation, the product with the first weight, the gather, the scatter-add and the bias);
  the rectifier and the product with the second weight; the second layer's gather, scatter-add and bias (the
  normalisation computed again); the second rectifier; the two gathers of the node features at the edges' end
  points; and the classifier (concatenation, product, bias, log-softmax).  Every weakly fair execution terminates
  with each buffer at the fold of the stretches over the launch contents, the arguments unchanged.
-/
import proofs.«103492_j72215580115747_2_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The program's 168 operations, in order. -/
abbrev ops : List (HloOp τ sig (Elt F)) :=
  [ binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    unary main_arg1 main_v3 ((extractStridedSlice S1x600000 ![1, 0] · slices_S2x600000_S1x600000_1_0) : (⟨S2x600000, .i32⟩ : BufTy).Contents (Elt F) → (⟨S1x600000, .i32⟩ : BufTy).Contents (Elt F)),
    reshape main_v3 main_v4 rfl shapeCasts_S1x600000_S600000,
    nullary main_v5 (iotaInDim S50000 32 0),
    binary main_v2 main_v5 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v4 main_v5 main_v7 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v8 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S650000x1 ![0] bcast_S650000_S650000x1_0 : (⟨S650000, .i32⟩ : BufTy).Contents (Elt F) → (⟨S650000x1, .i32⟩ : BufTy).Contents (Elt F)),
    ternary main_v9 main_v10 main_v8 main_v11 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S650000 ![] bcast_S_S650000 : (⟨S_, .i32⟩ : BufTy).Contents (Elt F) → (⟨S650000, .i32⟩ : BufTy).Contents (Elt F)),
    binary main_v6 main_v16 main_v17 (cmpi .slt : (⟨S650000, .i32⟩ : BufTy).Contents (Elt F) → (⟨S650000, .i32⟩ : BufTy).Contents (Elt F) → (⟨S650000, .i1⟩ : BufTy).Contents (Elt F)),
    nullary main_c_3 (constantI S_ 32 50000#32),
    unary main_c_3 main_v18 (broadcastInDim S650000 ![] bcast_S_S650000 : (⟨S_, .i32⟩ : BufTy).Contents (Elt F) → (⟨S650000, .i32⟩ : BufTy).Contents (Elt F)),
    binary main_v6 main_v18 main_v19 (addi : (⟨S650000, .i32⟩ : BufTy).Contents (Elt F) → (⟨S650000, .i32⟩ : BufTy).Contents (Elt F) → (⟨S650000, .i32⟩ : BufTy).Contents (Elt F)),
    ternary main_v17 main_v19 main_v6 main_v20 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v20 main_v21 (broadcastInDim S650000x1 ![0] bcast_S650000_S650000x1_0 : (⟨S650000, .i32⟩ : BufTy).Contents (Elt F) → (⟨S650000x1, .i32⟩ : BufTy).Contents (Elt F)),
    binary main_v15 main_v21 main_v22 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_4 (constantI S_ 32 0#32),
    unary main_c_4 main_v23 (broadcastInDim S650000 ![] bcast_S_S650000 : (⟨S_, .i32⟩ : BufTy).Contents (Elt F) → (⟨S650000, .i32⟩ : BufTy).Contents (Elt F)),
    binary main_v7 main_v23 main_v24 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v25 (broadcastInDim S650000 ![] bcast_S_S650000 : (⟨S_, .i32⟩ : BufTy).Contents (Elt F) → (⟨S650000, .i32⟩ : BufTy).Contents (Elt F)),
    binary main_v7 main_v25 main_v26 (addi : (⟨S650000, .i32⟩ : BufTy).Contents (Elt F) → (⟨S650000, .i32⟩ : BufTy).Contents (Elt F) → (⟨S650000, .i32⟩ : BufTy).Contents (Elt F)),
    ternary main_v24 main_v26 main_v7 main_v27 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v27 main_v28 (broadcastInDim S650000x1 ![0] bcast_S650000_S650000x1_0 : (⟨S650000, .i32⟩ : BufTy).Contents (Elt F) → (⟨S650000x1, .i32⟩ : BufTy).Contents (Elt F)),
    binary main_v15 main_v28 main_v29 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v22 main_v29 main_v30 (mulf : (⟨S650000, .f32⟩ : BufTy).Contents (Elt F) → (⟨S650000, .f32⟩ : BufTy).Contents (Elt F) → (⟨S650000, .f32⟩ : BufTy).Contents (Elt F)),
    nullary main_c_6 (constantI S_ 32 0#32),
    unary main_c_6 main_v31 (broadcastInDim S650000 ![] bcast_S_S650000 : (⟨S_, .i32⟩ : BufTy).Contents (Elt F) → (⟨S650000, .i32⟩ : BufTy).Contents (Elt F)),
    binary main_v6 main_v31 main_v32 (cmpi .slt : (⟨S650000, .i32⟩ : BufTy).Contents (Elt F) → (⟨S650000, .i32⟩ : BufTy).Contents (Elt F) → (⟨S650000, .i1⟩ : BufTy).Contents (Elt F)),
    nullary main_c_7 (constantI S_ 32 50000#32),
    unary main_c_7 main_v33 (broadcastInDim S650000 ![] bcast_S_S650000 : (⟨S_, .i32⟩ : BufTy).Contents (Elt F) → (⟨S650000, .i32⟩ : BufTy).Contents (Elt F)),
    binary main_v6 main_v33 main_v34 (addi : (⟨S650000, .i32⟩ : BufTy).Contents (Elt F) → (⟨S650000, .i32⟩ : BufTy).Contents (Elt F) → (⟨S650000, .i32⟩ : BufTy).Contents (Elt F)),
    ternary main_v32 main_v34 main_v6 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v35 main_v36 (broadcastInDim S650000x1 ![0] bcast_S650000_S650000x1_0 : (⟨S650000, .i32⟩ : BufTy).Contents (Elt F) → (⟨S650000x1, .i32⟩ : BufTy).Contents (Elt F)),
    binary main_v0 main_v36 main_v37 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v30 main_v38 (broadcastInDim S650000x1 ![0] bcast_S650000_S650000x1_0 : (⟨S650000, .f32⟩ : BufTy).Contents (Elt F) → (⟨S650000x1, .f32⟩ : BufTy).Contents (Elt F)),
    unary main_v38 main_v39 (broadcastInDim S650000x128 ![0, 1] bcast_S650000x1_S650000x128_0_1 : (⟨S650000x1, .f32⟩ : BufTy).Contents (Elt F) → (⟨S650000x128, .f32⟩ : BufTy).Contents (Elt F)),
    binary main_v37 main_v39 main_v40 (mulf : (⟨S650000x128, .f32⟩ : BufTy).Contents (Elt F) → (⟨S650000x128, .f32⟩ : BufTy).Contents (Elt F) → (⟨S650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S650000x1 ![0] bcast_S650000_S650000x1_0 : (⟨S650000, .i32⟩ : BufTy).Contents (Elt F) → (⟨S650000x1, .i32⟩ : BufTy).Contents (Elt F)),
    ternary main_v41 main_v42 main_v40 main_v43 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg1 main_v49 ((extractStridedSlice S1x600000 ![0, 0] · slices_S2x600000_S1x600000_0_0) : (⟨S2x600000, .i32⟩ : BufTy).Contents (Elt F) → (⟨S1x600000, .i32⟩ : BufTy).Contents (Elt F)),
    reshape main_v49 main_v50 rfl shapeCasts_S1x600000_S600000,
    unary main_arg1 main_v51 ((extractStridedSlice S1x600000 ![1, 0] · slices_S2x600000_S1x600000_1_0) : (⟨S2x600000, .i32⟩ : BufTy).Contents (Elt F) → (⟨S1x600000, .i32⟩ : BufTy).Contents (Elt F)),
    reshape main_v51 main_v52 rfl shapeCasts_S1x600000_S600000,
    nullary main_v53 (iotaInDim S50000 32 0),
    binary main_v50 main_v53 main_v54 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v52 main_v53 main_v55 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst_9 (constant S_ .f32 0x3F800000#32),
    unary main_cst_9 main_v56 (broadcastInDim S650000 ![] bcast_S_S650000 : (⟨S_, .f32⟩ : BufTy).Contents (Elt F) → (⟨S650000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    unary main_v55 main_v58 (broadcastInDim S650000x1 ![0] bcast_S650000_S650000x1_0 : (⟨S650000, .i32⟩ : BufTy).Contents (Elt F) → (⟨S650000x1, .i32⟩ : BufTy).Contents (Elt F)),
    ternary main_v57 main_v58 main_v56 main_v59 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_11 (constant S_ .f32 0x00000000#32),
    unary main_cst_11 main_v60 (broadcastInDim S50000 ![] bcast_S_S50000 : (⟨S_, .f32⟩ : BufTy).Contents (Elt F) → (⟨S50000, .f32⟩ : BufTy).Contents (Elt F)),
    binary main_v59 main_v60 main_v61 (cmpf .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v61) (TRef.of (T := ⟨S50000, .f32⟩) main_v62) (TRef.of (T := ⟨S50000, .f32⟩) main_call2_v1) (TRef.of (T := ⟨S50000, .f32⟩) main_v63) select,
    nullary main_c_13 (constantI S_ 32 0#32),
    unary main_c_13 main_v64 (broadcastInDim S650000 ![] bcast_S_S650000 : (⟨S_, .i32⟩ : BufTy).Contents (Elt F) → (⟨S650000, .i32⟩ : BufTy).Contents (Elt F)),
    binary main_v54 main_v64 main_v65 (cmpi .slt : (⟨S650000, .i32⟩ : BufTy).Contents (Elt F) → (⟨S650000, .i32⟩ : BufTy).Contents (Elt F) → (⟨S650000, .i1⟩ : BufTy).Contents (Elt F)),
    nullary main_c_14 (constantI S_ 32 50000#32),
    unary main_c_14 main_v66 (broadcastInDim S650000 ![] bcast_S_S650000 : (⟨S_, .i32⟩ : BufTy).Contents (Elt F) → (⟨S650000, .i32⟩ : BufTy).Contents (Elt F)),
    binary main_v54 main_v66 main_v67 (addi : (⟨S650000, .i32⟩ : BufTy).Contents (Elt F) → (⟨S650000, .i32⟩ : BufTy).Contents (Elt F) → (⟨S650000, .i32⟩ : BufTy).Contents (Elt F)),
    ternary main_v65 main_v67 main_v54 main_v68 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v68 main_v69 (broadcastInDim S650000x1 ![0] bcast_S650000_S650000x1_0 : (⟨S650000, .i32⟩ : BufTy).Contents (Elt F) → (⟨S650000x1, .i32⟩ : BufTy).Contents (Elt F)),
    binary main_v63 main_v69 main_v70 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_15 (constantI S_ 32 0#32),
    unary main_c_15 main_v71 (broadcastInDim S650000 ![] bcast_S_S650000 : (⟨S_, .i32⟩ : BufTy).Contents (Elt F) → (⟨S650000, .i32⟩ : BufTy).Contents (Elt F)),
    binary main_v55 main_v71 main_v72 (cmpi .slt : (⟨S650000, .i32⟩ : BufTy).Contents (Elt F) → (⟨S650000, .i32⟩ : BufTy).Contents (Elt F) → (⟨S650000, .i1⟩ : BufTy).Contents (Elt F)),
    nullary main_c_16 (constantI S_ 32 50000#32),
    unary main_c_16 main_v73 (broadcastInDim S650000 ![] bcast_S_S650000 : (⟨S_, .i32⟩ : BufTy).Contents (Elt F) → (⟨S650000, .i32⟩ : BufTy).Contents (Elt F)),
    binary main_v55 main_v73 main_v74 (addi : (⟨S650000, .i32⟩ : BufTy).Contents (Elt F) → (⟨S650000, .i32⟩ : BufTy).Contents (Elt F) → (⟨S650000, .i32⟩ : BufTy).Contents (Elt F)),
    ternary main_v72 main_v74 main_v55 main_v75 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v75 main_v76 (broadcastInDim S650000x1 ![0] bcast_S650000_S650000x1_0 : (⟨S650000, .i32⟩ : BufTy).Contents (Elt F) → (⟨S650000x1, .i32⟩ : BufTy).Contents (Elt F)),
    binary main_v63 main_v76 main_v77 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v70 main_v77 main_v78 (mulf : (⟨S650000, .f32⟩ : BufTy).Contents (Elt F) → (⟨S650000, .f32⟩ : BufTy).Contents (Elt F) → (⟨S650000, .f32⟩ : BufTy).Contents (Elt F)),
    nullary main_c_17 (constantI S_ 32 0#32),
    unary main_c_17 main_v79 (broadcastInDim S650000 ![] bcast_S_S650000 : (⟨S_, .i32⟩ : BufTy).Contents (Elt F) → (⟨S650000, .i32⟩ : BufTy).Contents (Elt F)),
    binary main_v54 main_v79 main_v80 (cmpi .slt : (⟨S650000, .i32⟩ : BufTy).Contents (Elt F) → (⟨S650000, .i32⟩ : BufTy).Contents (Elt F) → (⟨S650000, .i1⟩ : BufTy).Contents (Elt F)),
    nullary main_c_18 (constantI S_ 32 50000#32),
    unary main_c_18 main_v81 (broadcastInDim S650000 ![] bcast_S_S650000 : (⟨S_, .i32⟩ : BufTy).Contents (Elt F) → (⟨S650000, .i32⟩ : BufTy).Contents (Elt F)),
    binary main_v54 main_v81 main_v82 (addi : (⟨S650000, .i32⟩ : BufTy).Contents (Elt F) → (⟨S650000, .i32⟩ : BufTy).Contents (Elt F) → (⟨S650000, .i32⟩ : BufTy).Contents (Elt F)),
    ternary main_v80 main_v82 main_v54 main_v83 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v83 main_v84 (broadcastInDim S650000x1 ![0] bcast_S650000_S650000x1_0 : (⟨S650000, .i32⟩ : BufTy).Contents (Elt F) → (⟨S650000x1, .i32⟩ : BufTy).Contents (Elt F)),
    binary main_v48 main_v84 main_v85 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v78 main_v86 (broadcastInDim S650000x1 ![0] bcast_S650000_S650000x1_0 : (⟨S650000, .f32⟩ : BufTy).Contents (Elt F) → (⟨S650000x1, .f32⟩ : BufTy).Contents (Elt F)),
    unary main_v86 main_v87 (broadcastInDim S650000x128 ![0, 1] bcast_S650000x1_S650000x128_0_1 : (⟨S650000x1, .f32⟩ : BufTy).Contents (Elt F) → (⟨S650000x128, .f32⟩ : BufTy).Contents (Elt F)),
    binary main_v85 main_v87 main_v88 (mulf : (⟨S650000x128, .f32⟩ : BufTy).Contents (Elt F) → (⟨S650000x128, .f32⟩ : BufTy).Contents (Elt F) → (⟨S650000x128, .f32⟩ : BufTy).Contents (Elt F)),
    nullary main_cst_19 (constant S_ .f32 0x00000000#32),
    unary main_cst_19 main_v89 (broadcastInDim S50000x128 ![] bcast_S_S50000x128 : (⟨S_, .f32⟩ : BufTy).Contents (Elt F) → (⟨S50000x128, .f32⟩ : BufTy).Contents (Elt F)),
    unary main_v55 main_v90 (broadcastInDim S650000x1 ![0] bcast_S650000_S650000x1_0 : (⟨S650000, .i32⟩ : BufTy).Contents (Elt F) → (⟨S650000x1, .i32⟩ : BufTy).Contents (Elt F)),
    ternary main_v89 main_v90 main_v88 main_v91 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg5 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v94) (TRef.of (T := ⟨S50000x128, .f32⟩) main_call3_v0) (TRef.of (T := ⟨S50000x128, .f32⟩) main_v95) maximumf,
    unary main_arg1 main_v96 ((extractStridedSlice S1x600000 ![0, 0] · slices_S2x600000_S1x600000_0_0) : (⟨S2x600000, .i32⟩ : BufTy).Contents (Elt F) → (⟨S1x600000, .i32⟩ : BufTy).Contents (Elt F)),
    reshape main_v96 main_v97 rfl shapeCasts_S1x600000_S600000,
    nullary main_c_20 (constantI S_ 32 0#32),
    unary main_c_20 main_v98 (broadcastInDim S600000 ![] bcast_S_S600000 : (⟨S_, .i32⟩ : BufTy).Contents (Elt F) → (⟨S600000, .i32⟩ : BufTy).Contents (Elt F)),
    binary main_v97 main_v98 main_v99 (cmpi .slt : (⟨S600000, .i32⟩ : BufTy).Contents (Elt F) → (⟨S600000, .i32⟩ : BufTy).Contents (Elt F) → (⟨S600000, .i1⟩ : BufTy).Contents (Elt F)),
    nullary main_c_21 (constantI S_ 32 50000#32),
    unary main_c_21 main_v100 (broadcastInDim S600000 ![] bcast_S_S600000 : (⟨S_, .i32⟩ : BufTy).Contents (Elt F) → (⟨S600000, .i32⟩ : BufTy).Contents (Elt F)),
    binary main_v97 main_v100 main_v101 (addi : (⟨S600000, .i32⟩ : BufTy).Contents (Elt F) → (⟨S600000, .i32⟩ : BufTy).Contents (Elt F) → (⟨S600000, .i32⟩ : BufTy).Contents (Elt F)),
    ternary main_v99 main_v101 main_v97 main_v102 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v102 main_v103 (broadcastInDim S600000x1 ![0] bcast_S600000_S600000x1_0 : (⟨S600000, .i32⟩ : BufTy).Contents (Elt F) → (⟨S600000x1, .i32⟩ : BufTy).Contents (Elt F)),
    binary main_v95 main_v103 main_v104 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg1 main_v105 ((extractStridedSlice S1x600000 ![1, 0] · slices_S2x600000_S1x600000_1_0) : (⟨S2x600000, .i32⟩ : BufTy).Contents (Elt F) → (⟨S1x600000, .i32⟩ : BufTy).Contents (Elt F)),
    reshape main_v105 main_v106 rfl shapeCasts_S1x600000_S600000,
    nullary main_c_22 (constantI S_ 32 0#32),
    unary main_c_22 main_v107 (broadcastInDim S600000 ![] bcast_S_S600000 : (⟨S_, .i32⟩ : BufTy).Contents (Elt F) → (⟨S600000, .i32⟩ : BufTy).Contents (Elt F)),
    binary main_v106 main_v107 main_v108 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v109 (broadcastInDim S600000 ![] bcast_S_S600000 : (⟨S_, .i32⟩ : BufTy).Contents (Elt F) → (⟨S600000, .i32⟩ : BufTy).Contents (Elt F)),
    binary main_v106 main_v109 main_v110 (addi : (⟨S600000, .i32⟩ : BufTy).Contents (Elt F) → (⟨S600000, .i32⟩ : BufTy).Contents (Elt F) → (⟨S600000, .i32⟩ : BufTy).Contents (Elt F)),
    ternary main_v108 main_v110 main_v106 main_v111 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v111 main_v112 (broadcastInDim S600000x1 ![0] bcast_S600000_S600000x1_0 : (⟨S600000, .i32⟩ : BufTy).Contents (Elt F) → (⟨S600000x1, .i32⟩ : BufTy).Contents (Elt F)),
    binary main_v95 main_v112 main_v113 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v104 main_v113 main_v114 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    binary main_v114 main_arg6 main_v115 ((fun l r => Host.dotGeneral dot_S600000x256_S256x4_S600000x4_1_0_0_1_n_n none l r) : (⟨S600000x256, .f32⟩ : BufTy).Contents (Elt F) → (⟨S256x4, .f32⟩ : BufTy).Contents (Elt F) → (⟨S600000x4, .f32⟩ : BufTy).Contents (Elt F)),
    unary main_arg7 main_v116 (broadcastInDim S1x4 ![1] bcast_S4_S1x4_1 : (⟨S4, .f32⟩ : BufTy).Contents (Elt F) → (⟨S1x4, .f32⟩ : BufTy).Contents (Elt F)),
    unary main_v116 main_v117 (broadcastInDim S600000x4 ![0, 1] bcast_S1x4_S600000x4_0_1 : (⟨S1x4, .f32⟩ : BufTy).Contents (Elt F) → (⟨S600000x4, .f32⟩ : BufTy).Contents (Elt F)),
    binary main_v115 main_v117 main_v118 (addf : (⟨S600000x4, .f32⟩ : BufTy).Contents (Elt F) → (⟨S600000x4, .f32⟩ : BufTy).Contents (Elt F) → (⟨S600000x4, .f32⟩ : BufTy).Contents (Elt F)),
    TRef.nullary (TRef.of (T := ⟨S_, .f32⟩) main_call4_cst) (constant S_ .f32 0xFF800000#32),
    TRef.binary (TRef.of (T := ⟨S600000x4, .f32⟩) main_v118) (TRef.of (T := ⟨S_, .f32⟩) main_call4_cst) (TRef.of (T := ⟨S600000, .f32⟩) main_call4_v0) (fun x v => Host.reduce FloatOps.maximumf x v reducesTo_S600000x4_S600000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S600000, .f32⟩) main_call4_v1) (broadcastInDim S600000 ![] bcast_S_S600000),
    TRef.binary (TRef.of (T := ⟨S600000, .f32⟩) main_call4_v1) (TRef.of (T := ⟨S600000, .f32⟩) main_call4_v0) (TRef.of (T := ⟨S600000, .f32⟩) main_call4_v2) maximumf,
    TRef.unary (TRef.of (T := ⟨S600000, .f32⟩) main_call4_v2) (TRef.of (T := ⟨S600000x1, .f32⟩) main_call4_v3) (broadcastInDim S600000x1 ![0] bcast_S600000_S600000x1_0),
    TRef.unary (TRef.of (T := ⟨S600000x1, .f32⟩) main_call4_v3) (TRef.of (T := ⟨S600000x4, .f32⟩) main_call4_v4) (broadcastInDim S600000x4 ![0, 1] bcast_S600000x1_S600000x4_0_1),
    TRef.binary (TRef.of (T := ⟨S600000x4, .f32⟩) main_v118) (TRef.of (T := ⟨S600000x4, .f32⟩) main_call4_v4) (TRef.of (T := ⟨S600000x4, .f32⟩) main_call4_v5) subf,
    TRef.unary (TRef.of (T := ⟨S600000x4, .f32⟩) main_call4_v5) (TRef.of (T := ⟨S600000x4, .f32⟩) main_call4_v6) Host.exp,
    TRef.nullary (TRef.of (T := ⟨S_, .f32⟩) main_call4_cst_1) (constant S_ .f32 0x00000000#32),
    TRef.binary (TRef.of (T := ⟨S600000x4, .f32⟩) main_call4_v6) (TRef.of (T := ⟨S_, .f32⟩) main_call4_cst_1) (TRef.of (T := ⟨S600000, .f32⟩) main_call4_v7) (fun x v => Host.reduceAdd x v reducesTo_S600000x4_S600000_d1 h_S_),
    TRef.unary (TRef.of (T := ⟨S600000, .f32⟩) main_call4_v7) (TRef.of (T := ⟨S600000x1, .f32⟩) main_call4_v8) (broadcastInDim S600000x1 ![0] bcast_S600000_S600000x1_0),
    TRef.unary (TRef.of (T := ⟨S600000x1, .f32⟩) main_call4_v8) (TRef.of (T := ⟨S600000x1, .f32⟩) main_call4_v9) Host.log,
    TRef.unary (TRef.of (T := ⟨S600000x1, .f32⟩) main_call4_v9) (TRef.of (T := ⟨S600000x4, .f32⟩) main_call4_v10) (broadcastInDim S600000x4 ![0, 1] bcast_S600000x1_S600000x4_0_1),
    TRef.binary (TRef.of (T := ⟨S600000x4, .f32⟩) main_call4_v5) (TRef.of (T := ⟨S600000x4, .f32⟩) main_call4_v10) (TRef.of (T := ⟨S600000x4, .f32⟩) main_v119) subf ]

/-- The first layer: from the arguments to the first layer's output before the rectifier. -/
abbrev opsA : List (HloOp τ sig (Elt F)) :=
  [ binary main_arg0 main_arg2 main_v0 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg1 main_v1 ((extractStridedSlice S1x600000 ![0, 0] · slices_S2x600000_S1x600000_0_0) : (⟨S2x600000, .i32⟩ : BufTy).Contents (Elt F) → (⟨S1x600000, .i32⟩ : BufTy).Contents (Elt F)),
    reshape main_v1 main_v2 rfl shapeCasts_S1x600000_S600000,
    unary main_arg1 main_v3 ((extractStridedSlice S1x600000 ![1, 0] · slices_S2x600000_S1x600000_1_0) : (⟨S2x600000, .i32⟩ : BufTy).Contents (Elt F) → (⟨S1x600000, .i32⟩ : BufTy).Contents (Elt F)),
    reshape main_v3 main_v4 rfl shapeCasts_S1x600000_S600000,
    nullary main_v5 (iotaInDim S50000 32 0),
    binary main_v2 main_v5 main_v6 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v4 main_v5 main_v7 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst (constant S_ .f32 0x3F800000#32),
    unary main_cst main_v8 (broadcastInDim S650000 ![] bcast_S_S650000 : (⟨S_, .f32⟩ : BufTy).Contents (Elt F) → (⟨S650000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S650000x1 ![0] bcast_S650000_S650000x1_0 : (⟨S650000, .i32⟩ : BufTy).Contents (Elt F) → (⟨S650000x1, .i32⟩ : BufTy).Contents (Elt F)),
    ternary main_v9 main_v10 main_v8 main_v11 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select,
    nullary main_c (constantI S_ 32 0#32),
    unary main_c main_v16 (broadcastInDim S650000 ![] bcast_S_S650000 : (⟨S_, .i32⟩ : BufTy).Contents (Elt F) → (⟨S650000, .i32⟩ : BufTy).Contents (Elt F)),
    binary main_v6 main_v16 main_v17 (cmpi .slt : (⟨S650000, .i32⟩ : BufTy).Contents (Elt F) → (⟨S650000, .i32⟩ : BufTy).Contents (Elt F) → (⟨S650000, .i1⟩ : BufTy).Contents (Elt F)),
    nullary main_c_3 (constantI S_ 32 50000#32),
    unary main_c_3 main_v18 (broadcastInDim S650000 ![] bcast_S_S650000 : (⟨S_, .i32⟩ : BufTy).Contents (Elt F) → (⟨S650000, .i32⟩ : BufTy).Contents (Elt F)),
    binary main_v6 main_v18 main_v19 (addi : (⟨S650000, .i32⟩ : BufTy).Contents (Elt F) → (⟨S650000, .i32⟩ : BufTy).Contents (Elt F) → (⟨S650000, .i32⟩ : BufTy).Contents (Elt F)),
    ternary main_v17 main_v19 main_v6 main_v20 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v20 main_v21 (broadcastInDim S650000x1 ![0] bcast_S650000_S650000x1_0 : (⟨S650000, .i32⟩ : BufTy).Contents (Elt F) → (⟨S650000x1, .i32⟩ : BufTy).Contents (Elt F)),
    binary main_v15 main_v21 main_v22 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_4 (constantI S_ 32 0#32),
    unary main_c_4 main_v23 (broadcastInDim S650000 ![] bcast_S_S650000 : (⟨S_, .i32⟩ : BufTy).Contents (Elt F) → (⟨S650000, .i32⟩ : BufTy).Contents (Elt F)),
    binary main_v7 main_v23 main_v24 (cmpi .slt : (⟨S650000, .i32⟩ : BufTy).Contents (Elt F) → (⟨S650000, .i32⟩ : BufTy).Contents (Elt F) → (⟨S650000, .i1⟩ : BufTy).Contents (Elt F)),
    nullary main_c_5 (constantI S_ 32 50000#32),
    unary main_c_5 main_v25 (broadcastInDim S650000 ![] bcast_S_S650000 : (⟨S_, .i32⟩ : BufTy).Contents (Elt F) → (⟨S650000, .i32⟩ : BufTy).Contents (Elt F)),
    binary main_v7 main_v25 main_v26 (addi : (⟨S650000, .i32⟩ : BufTy).Contents (Elt F) → (⟨S650000, .i32⟩ : BufTy).Contents (Elt F) → (⟨S650000, .i32⟩ : BufTy).Contents (Elt F)),
    ternary main_v24 main_v26 main_v7 main_v27 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v27 main_v28 (broadcastInDim S650000x1 ![0] bcast_S650000_S650000x1_0 : (⟨S650000, .i32⟩ : BufTy).Contents (Elt F) → (⟨S650000x1, .i32⟩ : BufTy).Contents (Elt F)),
    binary main_v15 main_v28 main_v29 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v22 main_v29 main_v30 (mulf : (⟨S650000, .f32⟩ : BufTy).Contents (Elt F) → (⟨S650000, .f32⟩ : BufTy).Contents (Elt F) → (⟨S650000, .f32⟩ : BufTy).Contents (Elt F)),
    nullary main_c_6 (constantI S_ 32 0#32),
    unary main_c_6 main_v31 (broadcastInDim S650000 ![] bcast_S_S650000 : (⟨S_, .i32⟩ : BufTy).Contents (Elt F) → (⟨S650000, .i32⟩ : BufTy).Contents (Elt F)),
    binary main_v6 main_v31 main_v32 (cmpi .slt : (⟨S650000, .i32⟩ : BufTy).Contents (Elt F) → (⟨S650000, .i32⟩ : BufTy).Contents (Elt F) → (⟨S650000, .i1⟩ : BufTy).Contents (Elt F)),
    nullary main_c_7 (constantI S_ 32 50000#32),
    unary main_c_7 main_v33 (broadcastInDim S650000 ![] bcast_S_S650000 : (⟨S_, .i32⟩ : BufTy).Contents (Elt F) → (⟨S650000, .i32⟩ : BufTy).Contents (Elt F)),
    binary main_v6 main_v33 main_v34 (addi : (⟨S650000, .i32⟩ : BufTy).Contents (Elt F) → (⟨S650000, .i32⟩ : BufTy).Contents (Elt F) → (⟨S650000, .i32⟩ : BufTy).Contents (Elt F)),
    ternary main_v32 main_v34 main_v6 main_v35 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v35 main_v36 (broadcastInDim S650000x1 ![0] bcast_S650000_S650000x1_0 : (⟨S650000, .i32⟩ : BufTy).Contents (Elt F) → (⟨S650000x1, .i32⟩ : BufTy).Contents (Elt F)),
    binary main_v0 main_v36 main_v37 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v30 main_v38 (broadcastInDim S650000x1 ![0] bcast_S650000_S650000x1_0 : (⟨S650000, .f32⟩ : BufTy).Contents (Elt F) → (⟨S650000x1, .f32⟩ : BufTy).Contents (Elt F)),
    unary main_v38 main_v39 (broadcastInDim S650000x128 ![0, 1] bcast_S650000x1_S650000x128_0_1 : (⟨S650000x1, .f32⟩ : BufTy).Contents (Elt F) → (⟨S650000x128, .f32⟩ : BufTy).Contents (Elt F)),
    binary main_v37 main_v39 main_v40 (mulf : (⟨S650000x128, .f32⟩ : BufTy).Contents (Elt F) → (⟨S650000x128, .f32⟩ : BufTy).Contents (Elt F) → (⟨S650000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S650000x1 ![0] bcast_S650000_S650000x1_0 : (⟨S650000, .i32⟩ : BufTy).Contents (Elt F) → (⟨S650000x1, .i32⟩ : BufTy).Contents (Elt F)),
    ternary main_v41 main_v42 main_v40 main_v43 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)) ]

/-- The rectifier and the product with the second weight. -/
abbrev opsB : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The second layer: the normalisation again, the gather, the scatter-add and the bias. -/
abbrev opsC : List (HloOp τ sig (Elt F)) :=
  [ unary main_arg1 main_v49 ((extractStridedSlice S1x600000 ![0, 0] · slices_S2x600000_S1x600000_0_0) : (⟨S2x600000, .i32⟩ : BufTy).Contents (Elt F) → (⟨S1x600000, .i32⟩ : BufTy).Contents (Elt F)),
    reshape main_v49 main_v50 rfl shapeCasts_S1x600000_S600000,
    unary main_arg1 main_v51 ((extractStridedSlice S1x600000 ![1, 0] · slices_S2x600000_S1x600000_1_0) : (⟨S2x600000, .i32⟩ : BufTy).Contents (Elt F) → (⟨S1x600000, .i32⟩ : BufTy).Contents (Elt F)),
    reshape main_v51 main_v52 rfl shapeCasts_S1x600000_S600000,
    nullary main_v53 (iotaInDim S50000 32 0),
    binary main_v50 main_v53 main_v54 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    binary main_v52 main_v53 main_v55 ((fun a b => concatenate S650000 0 [⟨S600000, a⟩, ⟨S50000, b⟩] concatenates_S600000_S50000_S650000_d0) : (⟨S600000, .i32⟩ : BufTy).Contents (Elt F) → (⟨S50000, .i32⟩ : BufTy).Contents (Elt F) → (⟨S650000, .i32⟩ : BufTy).Contents (Elt F)),
    nullary main_cst_9 (constant S_ .f32 0x3F800000#32),
    unary main_cst_9 main_v56 (broadcastInDim S650000 ![] bcast_S_S650000 : (⟨S_, .f32⟩ : BufTy).Contents (Elt F) → (⟨S650000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    unary main_v55 main_v58 (broadcastInDim S650000x1 ![0] bcast_S650000_S650000x1_0 : (⟨S650000, .i32⟩ : BufTy).Contents (Elt F) → (⟨S650000x1, .i32⟩ : BufTy).Contents (Elt F)),
    ternary main_v57 main_v58 main_v56 main_v59 ((fun x i u => Host.scatterAdd scatter_S50000_S650000x1_S650000_n_0_0_1 x i u) : (⟨S50000, .f32⟩ : BufTy).Contents (Elt F) → (⟨S650000x1, .i32⟩ : BufTy).Contents (Elt F) → (⟨S650000, .f32⟩ : BufTy).Contents (Elt F) → (⟨S50000, .f32⟩ : BufTy).Contents (Elt F)),
    nullary main_cst_11 (constant S_ .f32 0x00000000#32),
    unary main_cst_11 main_v60 (broadcastInDim S50000 ![] bcast_S_S50000 : (⟨S_, .f32⟩ : BufTy).Contents (Elt F) → (⟨S50000, .f32⟩ : BufTy).Contents (Elt F)),
    binary main_v59 main_v60 main_v61 (cmpf .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v61) (TRef.of (T := ⟨S50000, .f32⟩) main_v62) (TRef.of (T := ⟨S50000, .f32⟩) main_call2_v1) (TRef.of (T := ⟨S50000, .f32⟩) main_v63) select,
    nullary main_c_13 (constantI S_ 32 0#32),
    unary main_c_13 main_v64 (broadcastInDim S650000 ![] bcast_S_S650000 : (⟨S_, .i32⟩ : BufTy).Contents (Elt F) → (⟨S650000, .i32⟩ : BufTy).Contents (Elt F)),
    binary main_v54 main_v64 main_v65 (cmpi .slt : (⟨S650000, .i32⟩ : BufTy).Contents (Elt F) → (⟨S650000, .i32⟩ : BufTy).Contents (Elt F) → (⟨S650000, .i1⟩ : BufTy).Contents (Elt F)),
    nullary main_c_14 (constantI S_ 32 50000#32),
    unary main_c_14 main_v66 (broadcastInDim S650000 ![] bcast_S_S650000 : (⟨S_, .i32⟩ : BufTy).Contents (Elt F) → (⟨S650000, .i32⟩ : BufTy).Contents (Elt F)),
    binary main_v54 main_v66 main_v67 (addi : (⟨S650000, .i32⟩ : BufTy).Contents (Elt F) → (⟨S650000, .i32⟩ : BufTy).Contents (Elt F) → (⟨S650000, .i32⟩ : BufTy).Contents (Elt F)),
    ternary main_v65 main_v67 main_v54 main_v68 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v68 main_v69 (broadcastInDim S650000x1 ![0] bcast_S650000_S650000x1_0 : (⟨S650000, .i32⟩ : BufTy).Contents (Elt F) → (⟨S650000x1, .i32⟩ : BufTy).Contents (Elt F)),
    binary main_v63 main_v69 main_v70 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    nullary main_c_15 (constantI S_ 32 0#32),
    unary main_c_15 main_v71 (broadcastInDim S650000 ![] bcast_S_S650000 : (⟨S_, .i32⟩ : BufTy).Contents (Elt F) → (⟨S650000, .i32⟩ : BufTy).Contents (Elt F)),
    binary main_v55 main_v71 main_v72 (cmpi .slt : (⟨S650000, .i32⟩ : BufTy).Contents (Elt F) → (⟨S650000, .i32⟩ : BufTy).Contents (Elt F) → (⟨S650000, .i1⟩ : BufTy).Contents (Elt F)),
    nullary main_c_16 (constantI S_ 32 50000#32),
    unary main_c_16 main_v73 (broadcastInDim S650000 ![] bcast_S_S650000 : (⟨S_, .i32⟩ : BufTy).Contents (Elt F) → (⟨S650000, .i32⟩ : BufTy).Contents (Elt F)),
    binary main_v55 main_v73 main_v74 (addi : (⟨S650000, .i32⟩ : BufTy).Contents (Elt F) → (⟨S650000, .i32⟩ : BufTy).Contents (Elt F) → (⟨S650000, .i32⟩ : BufTy).Contents (Elt F)),
    ternary main_v72 main_v74 main_v55 main_v75 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v75 main_v76 (broadcastInDim S650000x1 ![0] bcast_S650000_S650000x1_0 : (⟨S650000, .i32⟩ : BufTy).Contents (Elt F) → (⟨S650000x1, .i32⟩ : BufTy).Contents (Elt F)),
    binary main_v63 main_v76 main_v77 ((fun x i => Host.gather gather_S50000_S650000x1_S650000_n_0_n_n_0_1_1 x i) : (⟨S50000, .f32⟩ : BufTy).Contents (Elt F) → (⟨S650000x1, .i32⟩ : BufTy).Contents (Elt F) → (⟨S650000, .f32⟩ : BufTy).Contents (Elt F)),
    binary main_v70 main_v77 main_v78 (mulf : (⟨S650000, .f32⟩ : BufTy).Contents (Elt F) → (⟨S650000, .f32⟩ : BufTy).Contents (Elt F) → (⟨S650000, .f32⟩ : BufTy).Contents (Elt F)),
    nullary main_c_17 (constantI S_ 32 0#32),
    unary main_c_17 main_v79 (broadcastInDim S650000 ![] bcast_S_S650000 : (⟨S_, .i32⟩ : BufTy).Contents (Elt F) → (⟨S650000, .i32⟩ : BufTy).Contents (Elt F)),
    binary main_v54 main_v79 main_v80 (cmpi .slt : (⟨S650000, .i32⟩ : BufTy).Contents (Elt F) → (⟨S650000, .i32⟩ : BufTy).Contents (Elt F) → (⟨S650000, .i1⟩ : BufTy).Contents (Elt F)),
    nullary main_c_18 (constantI S_ 32 50000#32),
    unary main_c_18 main_v81 (broadcastInDim S650000 ![] bcast_S_S650000 : (⟨S_, .i32⟩ : BufTy).Contents (Elt F) → (⟨S650000, .i32⟩ : BufTy).Contents (Elt F)),
    binary main_v54 main_v81 main_v82 (addi : (⟨S650000, .i32⟩ : BufTy).Contents (Elt F) → (⟨S650000, .i32⟩ : BufTy).Contents (Elt F) → (⟨S650000, .i32⟩ : BufTy).Contents (Elt F)),
    ternary main_v80 main_v82 main_v54 main_v83 (select : (⟨S650000, .i1⟩ : BufTy).Contents (Elt F) → (⟨S650000, .i32⟩ : BufTy).Contents (Elt F) → (⟨S650000, .i32⟩ : BufTy).Contents (Elt F) → (⟨S650000, .i32⟩ : BufTy).Contents (Elt F)),
    unary main_v83 main_v84 (broadcastInDim S650000x1 ![0] bcast_S650000_S650000x1_0 : (⟨S650000, .i32⟩ : BufTy).Contents (Elt F) → (⟨S650000x1, .i32⟩ : BufTy).Contents (Elt F)),
    binary main_v48 main_v84 main_v85 ((fun x i => Host.gather gather_S50000x128_S650000x1_S650000x128_1_0_n_n_0_1_1128 x i) : (⟨S50000x128, .f32⟩ : BufTy).Contents (Elt F) → (⟨S650000x1, .i32⟩ : BufTy).Contents (Elt F) → (⟨S650000x128, .f32⟩ : BufTy).Contents (Elt F)),
    unary main_v78 main_v86 (broadcastInDim S650000x1 ![0] bcast_S650000_S650000x1_0 : (⟨S650000, .f32⟩ : BufTy).Contents (Elt F) → (⟨S650000x1, .f32⟩ : BufTy).Contents (Elt F)),
    unary main_v86 main_v87 (broadcastInDim S650000x128 ![0, 1] bcast_S650000x1_S650000x128_0_1 : (⟨S650000x1, .f32⟩ : BufTy).Contents (Elt F) → (⟨S650000x128, .f32⟩ : BufTy).Contents (Elt F)),
    binary main_v85 main_v87 main_v88 (mulf : (⟨S650000x128, .f32⟩ : BufTy).Contents (Elt F) → (⟨S650000x128, .f32⟩ : BufTy).Contents (Elt F) → (⟨S650000x128, .f32⟩ : BufTy).Contents (Elt F)),
    nullary main_cst_19 (constant S_ .f32 0x00000000#32),
    unary main_cst_19 main_v89 (broadcastInDim S50000x128 ![] bcast_S_S50000x128 : (⟨S_, .f32⟩ : BufTy).Contents (Elt F) → (⟨S50000x128, .f32⟩ : BufTy).Contents (Elt F)),
    unary main_v55 main_v90 (broadcastInDim S650000x1 ![0] bcast_S650000_S650000x1_0 : (⟨S650000, .i32⟩ : BufTy).Contents (Elt F) → (⟨S650000x1, .i32⟩ : BufTy).Contents (Elt F)),
    ternary main_v89 main_v90 main_v88 main_v91 ((fun x i u => Host.scatterAdd scatter_S50000x128_S650000x1_S650000x128_1_0_0_1 x i u) : (⟨S50000x128, .f32⟩ : BufTy).Contents (Elt F) → (⟨S650000x1, .i32⟩ : BufTy).Contents (Elt F) → (⟨S650000x128, .f32⟩ : BufTy).Contents (Elt F) → (⟨S50000x128, .f32⟩ : BufTy).Contents (Elt F)),
    unary main_arg5 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v91 main_v93 main_v94 (addf : (⟨S50000x128, .f32⟩ : BufTy).Contents (Elt F) → (⟨S50000x128, .f32⟩ : BufTy).Contents (Elt F) → (⟨S50000x128, .f32⟩ : BufTy).Contents (Elt F)) ]

/-- The second rectifier. -/
abbrev opsD : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v94) (TRef.of (T := ⟨S50000x128, .f32⟩) main_call3_v0) (TRef.of (T := ⟨S50000x128, .f32⟩) main_v95) maximumf ]

/-- The node features gathered at the edges' two end points. -/
abbrev opsE : List (HloOp τ sig (Elt F)) :=
  [ unary main_arg1 main_v96 ((extractStridedSlice S1x600000 ![0, 0] · slices_S2x600000_S1x600000_0_0) : (⟨S2x600000, .i32⟩ : BufTy).Contents (Elt F) → (⟨S1x600000, .i32⟩ : BufTy).Contents (Elt F)),
    reshape main_v96 main_v97 rfl shapeCasts_S1x600000_S600000,
    nullary main_c_20 (constantI S_ 32 0#32),
    unary main_c_20 main_v98 (broadcastInDim S600000 ![] bcast_S_S600000 : (⟨S_, .i32⟩ : BufTy).Contents (Elt F) → (⟨S600000, .i32⟩ : BufTy).Contents (Elt F)),
    binary main_v97 main_v98 main_v99 (cmpi .slt : (⟨S600000, .i32⟩ : BufTy).Contents (Elt F) → (⟨S600000, .i32⟩ : BufTy).Contents (Elt F) → (⟨S600000, .i1⟩ : BufTy).Contents (Elt F)),
    nullary main_c_21 (constantI S_ 32 50000#32),
    unary main_c_21 main_v100 (broadcastInDim S600000 ![] bcast_S_S600000 : (⟨S_, .i32⟩ : BufTy).Contents (Elt F) → (⟨S600000, .i32⟩ : BufTy).Contents (Elt F)),
    binary main_v97 main_v100 main_v101 (addi : (⟨S600000, .i32⟩ : BufTy).Contents (Elt F) → (⟨S600000, .i32⟩ : BufTy).Contents (Elt F) → (⟨S600000, .i32⟩ : BufTy).Contents (Elt F)),
    ternary main_v99 main_v101 main_v97 main_v102 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v102 main_v103 (broadcastInDim S600000x1 ![0] bcast_S600000_S600000x1_0 : (⟨S600000, .i32⟩ : BufTy).Contents (Elt F) → (⟨S600000x1, .i32⟩ : BufTy).Contents (Elt F)),
    binary main_v95 main_v103 main_v104 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    unary main_arg1 main_v105 ((extractStridedSlice S1x600000 ![1, 0] · slices_S2x600000_S1x600000_1_0) : (⟨S2x600000, .i32⟩ : BufTy).Contents (Elt F) → (⟨S1x600000, .i32⟩ : BufTy).Contents (Elt F)),
    reshape main_v105 main_v106 rfl shapeCasts_S1x600000_S600000,
    nullary main_c_22 (constantI S_ 32 0#32),
    unary main_c_22 main_v107 (broadcastInDim S600000 ![] bcast_S_S600000 : (⟨S_, .i32⟩ : BufTy).Contents (Elt F) → (⟨S600000, .i32⟩ : BufTy).Contents (Elt F)),
    binary main_v106 main_v107 main_v108 (cmpi .slt : (⟨S600000, .i32⟩ : BufTy).Contents (Elt F) → (⟨S600000, .i32⟩ : BufTy).Contents (Elt F) → (⟨S600000, .i1⟩ : BufTy).Contents (Elt F)),
    nullary main_c_23 (constantI S_ 32 50000#32),
    unary main_c_23 main_v109 (broadcastInDim S600000 ![] bcast_S_S600000 : (⟨S_, .i32⟩ : BufTy).Contents (Elt F) → (⟨S600000, .i32⟩ : BufTy).Contents (Elt F)),
    binary main_v106 main_v109 main_v110 (addi : (⟨S600000, .i32⟩ : BufTy).Contents (Elt F) → (⟨S600000, .i32⟩ : BufTy).Contents (Elt F) → (⟨S600000, .i32⟩ : BufTy).Contents (Elt F)),
    ternary main_v108 main_v110 main_v106 main_v111 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v111 main_v112 (broadcastInDim S600000x1 ![0] bcast_S600000_S600000x1_0 : (⟨S600000, .i32⟩ : BufTy).Contents (Elt F) → (⟨S600000x1, .i32⟩ : BufTy).Contents (Elt F)),
    binary main_v95 main_v112 main_v113 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- The classifier: concatenation, product with the weight, bias, log-softmax over the four classes. -/
abbrev opsT : List (HloOp τ sig (Elt F)) :=
  [ binary main_v104 main_v113 main_v114 ((fun a b => concatenate S600000x256 1 [⟨S600000x128, a⟩, ⟨S600000x128, b⟩] concatenates_S600000x128_S600000x128_S600000x256_d1) : (⟨S600000x128, .f32⟩ : BufTy).Contents (Elt F) → (⟨S600000x128, .f32⟩ : BufTy).Contents (Elt F) → (⟨S600000x256, .f32⟩ : BufTy).Contents (Elt F)),
    binary main_v114 main_arg6 main_v115 ((fun l r => Host.dotGeneral dot_S600000x256_S256x4_S600000x4_1_0_0_1_n_n none l r) : (⟨S600000x256, .f32⟩ : BufTy).Contents (Elt F) → (⟨S256x4, .f32⟩ : BufTy).Contents (Elt F) → (⟨S600000x4, .f32⟩ : BufTy).Contents (Elt F)),
    unary main_arg7 main_v116 (broadcastInDim S1x4 ![1] bcast_S4_S1x4_1 : (⟨S4, .f32⟩ : BufTy).Contents (Elt F) → (⟨S1x4, .f32⟩ : BufTy).Contents (Elt F)),
    unary main_v116 main_v117 (broadcastInDim S600000x4 ![0, 1] bcast_S1x4_S600000x4_0_1 : (⟨S1x4, .f32⟩ : BufTy).Contents (Elt F) → (⟨S600000x4, .f32⟩ : BufTy).Contents (Elt F)),
    binary main_v115 main_v117 main_v118 (addf : (⟨S600000x4, .f32⟩ : BufTy).Contents (Elt F) → (⟨S600000x4, .f32⟩ : BufTy).Contents (Elt F) → (⟨S600000x4, .f32⟩ : BufTy).Contents (Elt F)),
    TRef.nullary (TRef.of (T := ⟨S_, .f32⟩) main_call4_cst) (constant S_ .f32 0xFF800000#32),
    TRef.binary (TRef.of (T := ⟨S600000x4, .f32⟩) main_v118) (TRef.of (T := ⟨S_, .f32⟩) main_call4_cst) (TRef.of (T := ⟨S600000, .f32⟩) main_call4_v0) (fun x v => Host.reduce FloatOps.maximumf x v reducesTo_S600000x4_S600000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S600000, .f32⟩) main_call4_v1) (broadcastInDim S600000 ![] bcast_S_S600000),
    TRef.binary (TRef.of (T := ⟨S600000, .f32⟩) main_call4_v1) (TRef.of (T := ⟨S600000, .f32⟩) main_call4_v0) (TRef.of (T := ⟨S600000, .f32⟩) main_call4_v2) maximumf,
    TRef.unary (TRef.of (T := ⟨S600000, .f32⟩) main_call4_v2) (TRef.of (T := ⟨S600000x1, .f32⟩) main_call4_v3) (broadcastInDim S600000x1 ![0] bcast_S600000_S600000x1_0),
    TRef.unary (TRef.of (T := ⟨S600000x1, .f32⟩) main_call4_v3) (TRef.of (T := ⟨S600000x4, .f32⟩) main_call4_v4) (broadcastInDim S600000x4 ![0, 1] bcast_S600000x1_S600000x4_0_1),
    TRef.binary (TRef.of (T := ⟨S600000x4, .f32⟩) main_v118) (TRef.of (T := ⟨S600000x4, .f32⟩) main_call4_v4) (TRef.of (T := ⟨S600000x4, .f32⟩) main_call4_v5) subf,
    TRef.unary (TRef.of (T := ⟨S600000x4, .f32⟩) main_call4_v5) (TRef.of (T := ⟨S600000x4, .f32⟩) main_call4_v6) Host.exp,
    TRef.nullary (TRef.of (T := ⟨S_, .f32⟩) main_call4_cst_1) (constant S_ .f32 0x00000000#32),
    TRef.binary (TRef.of (T := ⟨S600000x4, .f32⟩) main_call4_v6) (TRef.of (T := ⟨S_, .f32⟩) main_call4_cst_1) (TRef.of (T := ⟨S600000, .f32⟩) main_call4_v7) (fun x v => Host.reduceAdd x v reducesTo_S600000x4_S600000_d1 h_S_),
    TRef.unary (TRef.of (T := ⟨S600000, .f32⟩) main_call4_v7) (TRef.of (T := ⟨S600000x1, .f32⟩) main_call4_v8) (broadcastInDim S600000x1 ![0] bcast_S600000_S600000x1_0),
    TRef.unary (TRef.of (T := ⟨S600000x1, .f32⟩) main_call4_v8) (TRef.of (T := ⟨S600000x1, .f32⟩) main_call4_v9) Host.log,
    TRef.unary (TRef.of (T := ⟨S600000x1, .f32⟩) main_call4_v9) (TRef.of (T := ⟨S600000x4, .f32⟩) main_call4_v10) (broadcastInDim S600000x4 ![0, 1] bcast_S600000x1_S600000x4_0_1),
    TRef.binary (TRef.of (T := ⟨S600000x4, .f32⟩) main_call4_v5) (TRef.of (T := ⟨S600000x4, .f32⟩) main_call4_v10) (TRef.of (T := ⟨S600000x4, .f32⟩) main_v119) subf ]

/-- The line is its six stretches, one after the other. -/
theorem ops_eq : (ops : List (HloOp τ sig (Elt F))) = opsA ++ (opsB ++ (opsC ++ (opsD ++ (opsE ++ opsT)))) := rfl

/-- Running two stretches one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The whole line's fold is the stretches' folds composed. -/
theorem after_ops (V : Valuation τ sig (Elt F)) :
    after ops V = after opsT (after opsE (after opsD (after opsC (after opsB (after opsA V))))) := by
  rw [ops_eq]; simp only [after_append]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
set_option maxHeartbeats 67200000 in
/-- On every device, from any memory with zero counters: every weakly fair execution terminates with the result
    at the composed folds of the six stretches over the launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119)
        = after opsT (after opsE (after opsD (after opsC (after opsB (after opsA (launchContents m c)))))) (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v119).trans (congrFun (after_ops (launchContents m c)) _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RRun

end
-- ==== Proof.ChainBase.lean ====
/-
  The kernel program and the reference side by side: vocabulary.

  Both programs apply the same host operations to the same arguments — the edge lists with the self-loops
  appended, the degrees by a scatter-add of ones, the inverse square roots, the normalisation of every edge, and
  per layer a row gather, a product with the normalisation, a scatter-add and the bias.  They differ only where
  the kernel program runs a grid region: the two matrix products and the classifier.  The comparison walks both
  programs from the launch: the kernel's buffer contents at each segment boundary against the reference's
  contents after the matching stretch of its operations.
-/
import proofs.«103492_j72215580115747_2_alg».proof.Proof.Gen.KernelIdeal.Frame
import proofs.«103492_j72215580115747_2_alg».proof.Proof.RRun
import Idealize.ShloMosaic.PureOps.Ideal

set_option maxRecDepth 16384

noncomputable section

namespace Cert.Chain

open Idealize.ShloMosaic Idealize.ShloMosaic.TcCoe Idealize.ShloMosaic.StableHlo Idealize.SL.Sem

/-- A concatenation of two pieces, with the pieces as arguments of their own. -/
def cat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concat2_eq {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ x y h := rfl

/-- Every operation's result read at a buffer, in one pass: at its own result buffer it is its function's value,
    at any other buffer what was there before; a two-piece concatenation is opened so that its pieces are read too. -/
macro "results_simp" : tactic =>
  `(tactic| (simp (disch := decide) only [after_cons, after_nil, concat2_eq,
      nullary_result', unary_result', binary_result', ternary_result', quaternary_result', reshape_result',
      nullary_result_ne', unary_result_ne', binary_result_ne', ternary_result_ne', quaternary_result_ne', reshape_result_ne']))

set_option hygiene false in
/-- The same pass for the kernel program's boundaries: in addition, a buffer that a grid region does not write
    (the edge lists, the normalisation, an argument) is carried across the region unchanged.  It speaks of the
    launch memory `m`, the generator states `ρ` and the core `c` of the statement it is used in. -/
macro "fold_simp" : tactic =>
  `(tactic| (simp (disch := decide) only [after_cons, after_nil, concat2_eq,
      nullary_result', unary_result', binary_result', ternary_result', quaternary_result', reshape_result',
      nullary_result_ne', unary_result_ne', binary_result_ne', ternary_result_ne', quaternary_result_ne', reshape_result_ne',
      Cert.KernelIdeal.Gen.W4_of_ne m ρ c Cert.KernelIdeal.main_v5 (by decide),
      Cert.KernelIdeal.Gen.W4_of_ne m ρ c Cert.KernelIdeal.main_v6 (by decide),
      Cert.KernelIdeal.Gen.W4_of_ne m ρ c Cert.KernelIdeal.main_v29 (by decide),
      Cert.KernelIdeal.Gen.W4_of_ne m ρ c Cert.KernelIdeal.main_arg1 (by decide),
      Cert.KernelIdeal.Gen.W4_of_ne m ρ c Cert.KernelIdeal.main_arg3 (by decide),
      Cert.KernelIdeal.Gen.W4_of_ne m ρ c Cert.KernelIdeal.main_arg4 (by decide),
      Cert.KernelIdeal.Gen.W4_of_ne m ρ c Cert.KernelIdeal.main_arg5 (by decide),
      Cert.KernelIdeal.Gen.W4_of_ne m ρ c Cert.KernelIdeal.main_arg6 (by decide),
      Cert.KernelIdeal.Gen.W4_of_ne m ρ c Cert.KernelIdeal.main_arg7 (by decide),
      Cert.KernelIdeal.Gen.W6_of_ne m ρ c Cert.KernelIdeal.main_v5 (by decide),
      Cert.KernelIdeal.Gen.W6_of_ne m ρ c Cert.KernelIdeal.main_v6 (by decide),
      Cert.KernelIdeal.Gen.W6_of_ne m ρ c Cert.KernelIdeal.main_v29 (by decide),
      Cert.KernelIdeal.Gen.W6_of_ne m ρ c Cert.KernelIdeal.main_arg0 (by decide),
      Cert.KernelIdeal.Gen.W6_of_ne m ρ c Cert.KernelIdeal.main_arg1 (by decide),
      Cert.KernelIdeal.Gen.W6_of_ne m ρ c Cert.KernelIdeal.main_arg2 (by decide),
      Cert.KernelIdeal.Gen.W6_of_ne m ρ c Cert.KernelIdeal.main_arg3 (by decide),
      Cert.KernelIdeal.Gen.W6_of_ne m ρ c Cert.KernelIdeal.main_arg5 (by decide),
      Cert.KernelIdeal.Gen.W6_of_ne m ρ c Cert.KernelIdeal.main_arg6 (by decide),
      Cert.KernelIdeal.Gen.W6_of_ne m ρ c Cert.KernelIdeal.main_arg7 (by decide)]))

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The reference's buffer contents after each of its first five stretches, from the launch contents. -/
abbrev RA (c : Dev Cert.KernelIdeal.nD) : Valuation Cert.ReferenceIdeal.τ Cert.ReferenceIdeal.sig (Elt Ideal) := after (Cert.ReferenceIdeal.RRun.opsA (F := Ideal)) (launchContents m' c)
abbrev RB (c : Dev Cert.KernelIdeal.nD) : Valuation Cert.ReferenceIdeal.τ Cert.ReferenceIdeal.sig (Elt Ideal) := after (Cert.ReferenceIdeal.RRun.opsB (F := Ideal)) (RA m' c)
abbrev RC (c : Dev Cert.KernelIdeal.nD) : Valuation Cert.ReferenceIdeal.τ Cert.ReferenceIdeal.sig (Elt Ideal) := after (Cert.ReferenceIdeal.RRun.opsC (F := Ideal)) (RB m' c)
abbrev RD (c : Dev Cert.KernelIdeal.nD) : Valuation Cert.ReferenceIdeal.τ Cert.ReferenceIdeal.sig (Elt Ideal) := after (Cert.ReferenceIdeal.RRun.opsD (F := Ideal)) (RC m' c)
abbrev RE (c : Dev Cert.KernelIdeal.nD) : Valuation Cert.ReferenceIdeal.τ Cert.ReferenceIdeal.sig (Elt Ideal) := after (Cert.ReferenceIdeal.RRun.opsE (F := Ideal)) (RD m' c)

/-- The two launch memories hold the same eight argument arrays on core `c`. -/
structure Agree (c : Dev Cert.KernelIdeal.nD) : Prop where
  a0 : launchContents m' c (Proc.devRef .tc Cert.ReferenceIdeal.main_arg0) = Cert.KernelIdeal.Gen.W0 m ρ c (Proc.devRef .tc Cert.KernelIdeal.main_arg0)
  a1 : launchContents m' c (Proc.devRef .tc Cert.ReferenceIdeal.main_arg1) = Cert.KernelIdeal.Gen.W0 m ρ c (Proc.devRef .tc Cert.KernelIdeal.main_arg1)
  a2 : launchContents m' c (Proc.devRef .tc Cert.ReferenceIdeal.main_arg2) = Cert.KernelIdeal.Gen.W0 m ρ c (Proc.devRef .tc Cert.KernelIdeal.main_arg2)
  a3 : launchContents m' c (Proc.devRef .tc Cert.ReferenceIdeal.main_arg3) = Cert.KernelIdeal.Gen.W0 m ρ c (Proc.devRef .tc Cert.KernelIdeal.main_arg3)
  a4 : launchContents m' c (Proc.devRef .tc Cert.ReferenceIdeal.main_arg4) = Cert.KernelIdeal.Gen.W0 m ρ c (Proc.devRef .tc Cert.KernelIdeal.main_arg4)
  a5 : launchContents m' c (Proc.devRef .tc Cert.ReferenceIdeal.main_arg5) = Cert.KernelIdeal.Gen.W0 m ρ c (Proc.devRef .tc Cert.KernelIdeal.main_arg5)
  a6 : launchContents m' c (Proc.devRef .tc Cert.ReferenceIdeal.main_arg6) = Cert.KernelIdeal.Gen.W0 m ρ c (Proc.devRef .tc Cert.KernelIdeal.main_arg6)
  a7 : launchContents m' c (Proc.devRef .tc Cert.ReferenceIdeal.main_arg7) = Cert.KernelIdeal.Gen.W0 m ρ c (Proc.devRef .tc Cert.KernelIdeal.main_arg7)

end Cert.Chain

end
-- ==== Proof.LibHostLayout.lean ====
/-
  Host layout operations read at one entry.

  A host program moves arrays between shapes without computing anything: it broadcasts a scalar, a vector or a
  one-column / one-row matrix to a larger shape, reshapes a vector into a one-row matrix, cuts a band of rows out of
  a matrix, and lays matrices side by side along the columns. Each such operation, read at ONE index of its result,
  is its operand read at one index; the lemmas below name that index for rank 1 and rank 2 shapes of arbitrary
  extents, with the indices written by their coordinates. On an operand axis of extent one a broadcast reads
  coordinate 0, which is also the only coordinate there is, so the statements hold at extent one too. Nothing here
  enumerates an index type: every proof is coordinate arithmetic.
-/
import Idealize.ShloMosaic.PureOps.Ideal
import Idealize.ShloMosaic.Lib.ValueIdx
import Idealize.ShloMosaic.Lib.Pipeline.Value

namespace Cert.HostLayout

open Idealize.ShloMosaic Idealize.ShloMosaic.ValueIdx

variable {α : Type}

/-- A coordinate below an extent is itself, and is 0 when the extent is one. -/
theorem val_eq_ite {n : Nat} (k : Fin n) : k.val = if n = 1 then 0 else k.val := by
  have := k.isLt
  split <;> omega

/-! ## Broadcasts -/

/-- A scalar broadcast to any shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- A vector of N entries made a column [N, 1]: entry (n, 0) is entry n. -/
theorem bcast_col_apply {N : Nat} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ ![0] h x (ix2 n z) = x (ix1 n) := by
  refine broadcastInDim_apply ![0] h x (ix2 n z) (ix1 n) ?_
  intro a
  match a with
  | ⟨0, _⟩ => exact val_eq_ite n

/-- A column [N, 1] repeated along C columns: entry (n, q) is the column's entry (n, 0). -/
theorem bcast_rows_apply {N C : Nat} (h : (⟨2, ![N, 1]⟩ : Shape).BroadcastsInDim ⟨2, ![N, C]⟩ (![0, 1] : Fin 2 → Fin 2))
    (x : (⟨2, ![N, 1]⟩ : Shape).Idx → α) (n : Fin N) (q : Fin C) :
    broadcastInDim ⟨2, ![N, C]⟩ ![0, 1] h x (ix2 n q) = x (ix2 n (0 : Fin 1)) := by
  refine broadcastInDim_apply ![0, 1] h x (ix2 n q) (ix2 n (0 : Fin 1)) ?_
  intro a
  match a with
  | ⟨0, _⟩ => exact val_eq_ite n
  | ⟨1, _⟩ => exact (if_pos rfl).symm

/-- A vector of C entries made a row [1, C]: entry (0, q) is entry q. -/
theorem bcast_rowvec_apply {C : Nat} (h : (⟨1, ![C]⟩ : Shape).BroadcastsInDim ⟨2, ![1, C]⟩ (![1] : Fin 1 → Fin 2))
    (x : (⟨1, ![C]⟩ : Shape).Idx → α) (z : Fin 1) (q : Fin C) :
    broadcastInDim ⟨2, ![1, C]⟩ ![1] h x (ix2 z q) = x (ix1 q) := by
  refine broadcastInDim_apply ![1] h x (ix2 z q) (ix1 q) ?_
  intro a
  match a with
  | ⟨0, _⟩ => exact val_eq_ite q

/-- A row [1, C] repeated down R rows: entry (r, q) is the row's entry (0, q). -/
theorem bcast_cols_apply {R C : Nat} (h : (⟨2, ![1, C]⟩ : Shape).BroadcastsInDim ⟨2, ![R, C]⟩ (![0, 1] : Fin 2 → Fin 2))
    (x : (⟨2, ![1, C]⟩ : Shape).Idx → α) (r : Fin R) (q : Fin C) :
    broadcastInDim ⟨2, ![R, C]⟩ ![0, 1] h x (ix2 r q) = x (ix2 (0 : Fin 1) q) := by
  refine broadcastInDim_apply ![0, 1] h x (ix2 r q) (ix2 (0 : Fin 1) q) ?_
  intro a
  match a with
  | ⟨0, _⟩ => exact (if_pos rfl).symm
  | ⟨1, _⟩ => exact val_eq_ite q

/-! ## A reshape and a slice -/

/-- A vector of C entries reshaped to a row [1, C]: the row-major positions of (0, q) and of q agree. -/
theorem reshape_rowvec_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  obtain rfl : z = 0 := Subsingleton.elim _ _
  show q.val = 0 * C + q.val
  omega

/-- A band of K1 rows of a [K, C] matrix starting at row `off`: entry (k, q) of the band is entry (off + k, q). -/
theorem slice_rows_apply {K K1 C : Nat} (off : Nat) (h : (⟨2, ![K, C]⟩ : Shape).Slices ![off, 0] ⟨2, ![K1, C]⟩)
    (x : (⟨2, ![K, C]⟩ : Shape).Idx → α) (k : Fin K1) (q : Fin C) (hk : off + k.val < K) :
    extractStridedSlice ⟨2, ![K1, C]⟩ ![off, 0] x h (ix2 k q) = x (ix2 ⟨off + k.val, hk⟩ q) := by
  refine extractStridedSlice_apply ![off, 0] x h (ix2 k q) (ix2 ⟨off + k.val, hk⟩ q) ?_
  intro a
  match a with
  | ⟨0, _⟩ => rfl
  | ⟨1, _⟩ => exact (Nat.zero_add _).symm

/-! ## Matrices laid side by side along the columns -/

/-- Three matrices of R rows side by side: a column of the first block reads the first matrix. -/
theorem concat3_apply_fst {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K1) :
    concatenate ⟨2, ![R, K1 + K2 + K3]⟩ 1 [⟨_, x1⟩, ⟨_, x2⟩, ⟨_, x3⟩] h (ix2 r (Fin.castAdd K3 (Fin.castAdd K2 k)))
      = x1 (ix2 r k) := by
  refine concatenate_apply_piece (t := ⟨2, ![R, K1 + K2 + K3]⟩) (1 : Fin 2) [⟨_, x1⟩, ⟨_, x2⟩, ⟨_, x3⟩] h _
    0 (by show 0 < 3; omega) _ x1 rfl rfl 0 rfl (ix2 r k) ?_ ?_
  · intro b hb
    match b, hb with
    | ⟨0, _⟩, _ => rfl
    | ⟨1, _⟩, hb => exact absurd rfl hb
  · show 0 + k.val = k.val
    omega

/-- Three matrices of R rows side by side: a column of the second block reads the second matrix. -/
theorem concat3_apply_snd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K2) :
    concatenate ⟨2, ![R, K1 + K2 + K3]⟩ 1 [⟨_, x1⟩, ⟨_, x2⟩, ⟨_, x3⟩] h (ix2 r (Fin.castAdd K3 (Fin.natAdd K1 k)))
      = x2 (ix2 r k) := by
  refine concatenate_apply_piece (t := ⟨2, ![R, K1 + K2 + K3]⟩) (1 : Fin 2) [⟨_, x1⟩, ⟨_, x2⟩, ⟨_, x3⟩] h _
    1 (by show 1 < 3; omega) _ x2 rfl rfl K1 rfl (ix2 r k) ?_ ?_
  · intro b hb
    match b, hb with
    | ⟨0, _⟩, _ => rfl
    | ⟨1, _⟩, hb => exact absurd rfl hb
  · show K1 + k.val = K1 + k.val
    rfl

/-- Three matrices of R rows side by side: a column of the third block reads the third matrix. -/
theorem concat3_apply_trd {R K1 K2 K3 : Nat}
    (h : Shape.Concatenates [(⟨2, ![R, K1]⟩ : Shape), ⟨2, ![R, K2]⟩, ⟨2, ![R, K3]⟩] ⟨2, ![R, K1 + K2 + K3]⟩ (1 : Fin 2))
    (x1 : (⟨2, ![R, K1]⟩ : Shape).Idx → α) (x2 : (⟨2, ![R, K2]⟩ : Shape).Idx → α) (x3 : (⟨2, ![R, K3]⟩ : Shape).Idx → α)
    (r : Fin R) (k : Fin K3) :
    concatenate ⟨2, ![R, K1 + K2 + K3]⟩ 1 [⟨_, x1⟩, ⟨_, x2⟩, ⟨_, x3⟩] h (ix2 r (Fin.natAdd (K1 + K2) k))
      = x3 (ix2 r k) := by
  refine concatenate_apply_piece (t := ⟨2, ![R, K1 + K2 + K3]⟩) (1 : Fin 2) [⟨_, x1⟩, ⟨_, x2⟩, ⟨_, x3⟩] h _
    2 (by show 2 < 3; omega) _ x3 rfl rfl (K1 + K2) rfl (ix2 r k) ?_ ?_
  · intro b hb
    match b, hb with
    | ⟨0, _⟩, _ => rfl
    | ⟨1, _⟩, hb => exact absurd rfl hb
  · show K1 + K2 + k.val = K1 + K2 + k.val
    rfl

/-- A property of every entry of each of two matrices of R rows holds of every entry of the two laid side by side:
    an entry whose column is below the first extent is an entry of the first, any other an entry of the second. -/
theorem concat2_forall {R K1 K2 : Nat} (P : α → Prop)
    (h : Shape.Concatenates [(⟨2, ![R, K1]⟩ : Shape), ⟨2, ![R, K2]⟩] ⟨2, ![R, K1 + K2]⟩ (1 : Fin 2))
    (x1 : (⟨2, ![R, K1]⟩ : Shape).Idx → α) (x2 : (⟨2, ![R, K2]⟩ : Shape).Idx → α)
    (h1 : ∀ i, P (x1 i)) (h2 : ∀ i, P (x2 i)) (j : (⟨2, ![R, K1 + K2]⟩ : Shape).Idx) :
    P (concatenate ⟨2, ![R, K1 + K2]⟩ 1 [⟨_, x1⟩, ⟨_, x2⟩] h j) := by
  obtain ⟨r, q, rfl⟩ : ∃ (r : Fin R) (q : Fin (K1 + K2)), j = ix2 r q := ⟨j 0, j 1, eq_ix2 j⟩
  by_cases hq : q.val < K1
  · have e := concatenate_pair_apply_left (t := ⟨2, ![R, K1 + K2]⟩) (1 : Fin 2) x1 x2 h (ix2 r q) rfl (ix2 r ⟨q.val, hq⟩)
      (by
        intro b
        match b with
        | ⟨0, _⟩ => rfl
        | ⟨1, _⟩ => rfl)
    rw [e]
    exact h1 _
  · have hq' : q.val - K1 < K2 := by have := q.isLt; omega
    have e := concatenate_pair_apply_right (t := ⟨2, ![R, K1 + K2]⟩) (1 : Fin 2) x1 x2 h (ix2 r q) rfl rfl
      (ix2 r ⟨q.val - K1, hq'⟩)
      (by
        intro b hb
        match b, hb with
        | ⟨0, _⟩, _ => rfl
        | ⟨1, _⟩, hb => exact absurd rfl hb)
      (by show q.val - K1 + K1 = q.val; omega)
    rw [e]
    exact h2 _

end Cert.HostLayout
-- ==== Proof.ClassifierBand.lean ====
/-
  A band of 128 consecutive rows of a [256, 4] matrix.

  The classifier's weight matrix has 256 rows: the first 128 multiply the features of an edge's first end point, the
  last 128 those of its second. A band starting at row `off` is the matrix read at rows off, off + 1, …, off + 127;
  a unit-stride slice of the matrix with offsets (off, 0) into shape [128, 4] is that band.
-/
import Idealize.ShloMosaic.PureOps.Ideal
import Idealize.ShloMosaic.Lib.ValueIdx
import Idealize.ShloMosaic.Lib.Pipeline.Value
import proofs.«103492_j72215580115747_2_alg».proof.Proof.LibHostLayout

noncomputable section

namespace Cert.Spec

open Idealize.ShloMosaic Idealize.ShloMosaic.ValueIdx

/-- Rows off … off + 127 of a [256, 4] matrix, as a [128, 4] matrix. -/
def band (off : ℕ) (hoff : off + 128 ≤ 256) (w : (⟨2, ![256, 4]⟩ : Shape).Idx → EReal) :
    (⟨2, ![128, 4]⟩ : Shape).Idx → EReal :=
  fun i => w (ix2 (⟨off + (i 0).val, by have := idx2_lt0 i; omega⟩ : Fin 256) (i 1))

/-- The band at an index written by its coordinates. -/
theorem band_ix2 (off : ℕ) (hoff : off + 128 ≤ 256) (w : (⟨2, ![256, 4]⟩ : Shape).Idx → EReal) (k : Fin 128) (j : Fin 4) :
    band off hoff w (ix2 k j) = w (ix2 (⟨off + k.val, by have := k.isLt; omega⟩ : Fin 256) j) := rfl

/-- The slice of a [256, 4] matrix with offsets (off, 0) into shape [128, 4] is the band starting at row off. -/
theorem slice_eq_band (off : ℕ) (hoff : off + 128 ≤ 256)
    (h : (⟨2, ![256, 4]⟩ : Shape).Slices ![off, 0] ⟨2, ![128, 4]⟩) (w : (⟨2, ![256, 4]⟩ : Shape).Idx → EReal) :
    extractStridedSlice ⟨2, ![128, 4]⟩ ![off, 0] w h = band off hoff w := by
  funext i
  obtain ⟨k, j, rfl⟩ : ∃ (k : Fin 128) (j : Fin 4), i = ix2 k j := ⟨i 0, i 1, eq_ix2 i⟩
  exact Cert.HostLayout.slice_rows_apply off h w k j (by have := k.isLt; omega)

end Cert.Spec

end
-- ==== Proof.ChainEdges.lean ====
/-
  The last host stretch before the classifier: the node features gathered at the edges' end points, the two bands
  of the classifier's weight, and its bias.

  Both programs cut the edge list into its two rows, wrap negative node numbers around, and gather the rows of the
  rectified second-layer output at those node numbers; the kernel program first changes the output's format, which
  changes no value here. Both read the classifier's weight and bias straight from the arguments, the kernel program
  through two slices of the weight, rows 0 … 127 and rows 128 … 255. So the five arrays the classifier region reads
  are the five the reference's last stretch reads, provided the rectified second-layer outputs agree.
-/
import proofs.«103492_j72215580115747_2_alg».proof.Proof.ChainBase
import proofs.«103492_j72215580115747_2_alg».proof.Proof.ClassifierBand

set_option maxRecDepth 16384

noncomputable section

namespace Cert.Chain

open Idealize.ShloMosaic Idealize.ShloMosaic.TcCoe Idealize.ShloMosaic.StableHlo Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ}

/-! ## The arguments, carried to the last stretch unchanged -/

set_option maxHeartbeats 1000000 in
/-- No host operation and no grid region before the last stretch writes the edge list. -/
theorem k8_arg1 {c : Dev Cert.KernelIdeal.nD} :
    Cert.KernelIdeal.Gen.W8 m ρ c (Proc.devRef .tc Cert.KernelIdeal.main_arg1) = Cert.KernelIdeal.Gen.W0 m ρ c (Proc.devRef .tc Cert.KernelIdeal.main_arg1) := by
  dsimp only [Cert.KernelIdeal.Gen.W8, Cert.KernelIdeal.Gen.W7]
  fold_simp

set_option maxHeartbeats 1000000 in
/-- … nor the classifier's weight. -/
theorem k8_arg6 {c : Dev Cert.KernelIdeal.nD} :
    Cert.KernelIdeal.Gen.W8 m ρ c (Proc.devRef .tc Cert.KernelIdeal.main_arg6) = Cert.KernelIdeal.Gen.W0 m ρ c (Proc.devRef .tc Cert.KernelIdeal.main_arg6) := by
  dsimp only [Cert.KernelIdeal.Gen.W8, Cert.KernelIdeal.Gen.W7]
  fold_simp

set_option maxHeartbeats 1000000 in
/-- … nor, the last stretch included, its bias. -/
theorem k9_arg7 {c : Dev Cert.KernelIdeal.nD} :
    Cert.KernelIdeal.Gen.W9 m ρ c (Proc.devRef .tc Cert.KernelIdeal.main_arg7) = Cert.KernelIdeal.Gen.W0 m ρ c (Proc.devRef .tc Cert.KernelIdeal.main_arg7) := by
  dsimp only [Cert.KernelIdeal.Gen.W9, Cert.KernelIdeal.Gen.W8, Cert.KernelIdeal.Gen.W7]
  fold_simp

set_option maxHeartbeats 1000000 in
/-- The reference's first four stretches do not write the edge list. -/
theorem rD_arg1 {c : Dev Cert.KernelIdeal.nD} :
    RD m' c (Proc.devRef .tc Cert.ReferenceIdeal.main_arg1) = launchContents m' c (Proc.devRef .tc Cert.ReferenceIdeal.main_arg1) := by
  results_simp

set_option maxHeartbeats 1000000 in
/-- Its first five do not write the classifier's weight … -/
theorem rE_arg6 {c : Dev Cert.KernelIdeal.nD} :
    RE m' c (Proc.devRef .tc Cert.ReferenceIdeal.main_arg6) = launchContents m' c (Proc.devRef .tc Cert.ReferenceIdeal.main_arg6) := by
  results_simp

set_option maxHeartbeats 1000000 in
/-- … nor its bias. -/
theorem rE_arg7 {c : Dev Cert.KernelIdeal.nD} :
    RE m' c (Proc.devRef .tc Cert.ReferenceIdeal.main_arg7) = launchContents m' c (Proc.devRef .tc Cert.ReferenceIdeal.main_arg7) := by
  results_simp

/-! ## The gathered features -/

/-- Row r of the edge list as a vector of node numbers: the kernel program's spelling. -/
def rowK (r : Nat) (hs : Cert.KernelIdeal.S2x600000.Slices ![r, 0] Cert.KernelIdeal.S1x600000) (e : IVec Cert.KernelIdeal.S2x600000 32) : IVec Cert.KernelIdeal.S600000 32 :=
  fun i => shapeCast Cert.KernelIdeal.S600000 (extractStridedSlice Cert.KernelIdeal.S1x600000 ![r, 0] e hs) Cert.KernelIdeal.Gen.shapeCasts_S1x600000_S600000 i

/-- Those node numbers with the negative ones wrapped around by the number of nodes, as a column. -/
def nodesK (r : Nat) (hs : Cert.KernelIdeal.S2x600000.Slices ![r, 0] Cert.KernelIdeal.S1x600000) (e : IVec Cert.KernelIdeal.S2x600000 32) : IVec Cert.KernelIdeal.S600000x1 32 :=
  broadcastInDim Cert.KernelIdeal.S600000x1 ![0] Cert.KernelIdeal.Gen.bcast_S600000_S600000x1_0
    (select
      (cmpi CmpIPredicate.slt (rowK r hs e)
        (broadcastInDim Cert.KernelIdeal.S600000 ![] Cert.KernelIdeal.Gen.bcast_S_S600000 (constantI Cert.KernelIdeal.S_ 32 0#32)))
      (addi (rowK r hs e)
        (broadcastInDim Cert.KernelIdeal.S600000 ![] Cert.KernelIdeal.Gen.bcast_S_S600000 (constantI Cert.KernelIdeal.S_ 32 50000#32)))
      (rowK r hs e))

/-- Row r of the edge list as a vector of node numbers: the reference's spelling. -/
def rowR (r : Nat) (hs : Cert.ReferenceIdeal.S2x600000.Slices ![r, 0] Cert.ReferenceIdeal.S1x600000) (e : IVec Cert.ReferenceIdeal.S2x600000 32) : IVec Cert.ReferenceIdeal.S600000 32 :=
  fun i => shapeCast Cert.ReferenceIdeal.S600000 (extractStridedSlice Cert.ReferenceIdeal.S1x600000 ![r, 0] e hs) Cert.ReferenceIdeal.Gen.shapeCasts_S1x600000_S600000 i

/-- Those node numbers with the negative ones wrapped around by the number of nodes, as a column. -/
def nodesR (r : Nat) (hs : Cert.ReferenceIdeal.S2x600000.Slices ![r, 0] Cert.ReferenceIdeal.S1x600000) (e : IVec Cert.ReferenceIdeal.S2x600000 32) : IVec Cert.ReferenceIdeal.S600000x1 32 :=
  broadcastInDim Cert.ReferenceIdeal.S600000x1 ![0] Cert.ReferenceIdeal.Gen.bcast_S600000_S600000x1_0
    (select
      (cmpi CmpIPredicate.slt (rowR r hs e)
        (broadcastInDim Cert.ReferenceIdeal.S600000 ![] Cert.ReferenceIdeal.Gen.bcast_S_S600000 (constantI Cert.ReferenceIdeal.S_ 32 0#32)))
      (addi (rowR r hs e)
        (broadcastInDim Cert.ReferenceIdeal.S600000 ![] Cert.ReferenceIdeal.Gen.bcast_S_S600000 (constantI Cert.ReferenceIdeal.S_ 32 50000#32)))
      (rowR r hs e))

/-- The two spellings name one column of node numbers. -/
theorem nodes_eq (r : Nat) (hsK : Cert.KernelIdeal.S2x600000.Slices ![r, 0] Cert.KernelIdeal.S1x600000) (hsR : Cert.ReferenceIdeal.S2x600000.Slices ![r, 0] Cert.ReferenceIdeal.S1x600000)
    (e : IVec Cert.KernelIdeal.S2x600000 32) : nodesK r hsK e = nodesR r hsR e := rfl

/-- Rows of a feature array gathered at a column of node numbers: the kernel program first changes the array's
    format, which changes no value, and the two programs' gathers are one operation. -/
theorem edge_eq (a : FVec Ideal Cert.KernelIdeal.S50000x128 .f32) (i : IVec Cert.KernelIdeal.S600000x1 32) (j : IVec Cert.ReferenceIdeal.S600000x1 32) (hij : i = j) :
    (Host.gather Cert.KernelIdeal.gather_S50000x128_S600000x1_S600000x128_1_0_n_n_0_1_1128
        (truncf .bf16 a Cert.KernelIdeal.Gen.bitsLt_bf16_f32 : FVec Ideal Cert.KernelIdeal.S50000x128 .bf16) i : FVec Ideal Cert.KernelIdeal.S600000x128 .bf16)
      = Host.gather Cert.ReferenceIdeal.gather_S50000x128_S600000x1_S600000x128_1_0_n_n_0_1_1128 a j := by
  subst hij
  have hb : (truncf .bf16 a Cert.KernelIdeal.Gen.bitsLt_bf16_f32 : FVec Ideal Cert.KernelIdeal.S50000x128 .bf16) = a := rfl
  rw [hb]
  rfl

set_option maxHeartbeats 1000000 in
/-- The kernel program's last host stretch leaves, for the edges' first end points, the gather of the reformatted
    second-layer output at the wrapped node numbers of the edge list's row 0. -/
theorem kedge0 (X : Valuation Cert.KernelIdeal.τ Cert.KernelIdeal.sig (Elt Ideal)) :
    after (Cert.KernelIdeal.Gen.hostOps2_2 (F := Ideal)) X (Proc.devRef .tc Cert.KernelIdeal.main_v76)
      = Host.gather Cert.KernelIdeal.gather_S50000x128_S600000x1_S600000x128_1_0_n_n_0_1_1128
          (truncf (F := Ideal) .bf16 (X (Proc.devRef .tc Cert.KernelIdeal.main_v64)) Cert.KernelIdeal.Gen.bitsLt_bf16_f32)
          (nodesK 0 Cert.KernelIdeal.Gen.slices_S2x600000_S1x600000_0_0 (X (Proc.devRef .tc Cert.KernelIdeal.main_arg1))) := by
  results_simp
  rfl

set_option maxHeartbeats 1000000 in
/-- … and for their second end points, at those of row 1. -/
theorem kedge1 (X : Valuation Cert.KernelIdeal.τ Cert.KernelIdeal.sig (Elt Ideal)) :
    after (Cert.KernelIdeal.Gen.hostOps2_2 (F := Ideal)) X (Proc.devRef .tc Cert.KernelIdeal.main_v83)
      = Host.gather Cert.KernelIdeal.gather_S50000x128_S600000x1_S600000x128_1_0_n_n_0_1_1128
          (truncf (F := Ideal) .bf16 (X (Proc.devRef .tc Cert.KernelIdeal.main_v64)) Cert.KernelIdeal.Gen.bitsLt_bf16_f32)
          (nodesK 1 Cert.KernelIdeal.Gen.slices_S2x600000_S1x600000_1_0 (X (Proc.devRef .tc Cert.KernelIdeal.main_arg1))) := by
  results_simp
  rfl

set_option maxHeartbeats 1000000 in
/-- The reference's fifth stretch leaves the same gathers of its own second-layer output. -/
theorem redge0 (Y : Valuation Cert.ReferenceIdeal.τ Cert.ReferenceIdeal.sig (Elt Ideal)) :
    after (Cert.ReferenceIdeal.RRun.opsE (F := Ideal)) Y (Proc.devRef .tc Cert.ReferenceIdeal.main_v104)
      = Host.gather Cert.ReferenceIdeal.gather_S50000x128_S600000x1_S600000x128_1_0_n_n_0_1_1128
          (Y (Proc.devRef .tc Cert.ReferenceIdeal.main_v95))
          (nodesR 0 Cert.ReferenceIdeal.Gen.slices_S2x600000_S1x600000_0_0 (Y (Proc.devRef .tc Cert.ReferenceIdeal.main_arg1))) := by
  results_simp
  rfl

set_option maxHeartbeats 1000000 in
theorem redge1 (Y : Valuation Cert.ReferenceIdeal.τ Cert.ReferenceIdeal.sig (Elt Ideal)) :
    after (Cert.ReferenceIdeal.RRun.opsE (F := Ideal)) Y (Proc.devRef .tc Cert.ReferenceIdeal.main_v113)
      = Host.gather Cert.ReferenceIdeal.gather_S50000x128_S600000x1_S600000x128_1_0_n_n_0_1_1128
          (Y (Proc.devRef .tc Cert.ReferenceIdeal.main_v95))
          (nodesR 1 Cert.ReferenceIdeal.Gen.slices_S2x600000_S1x600000_1_0 (Y (Proc.devRef .tc Cert.ReferenceIdeal.main_arg1))) := by
  results_simp
  rfl

set_option maxHeartbeats 1000000 in
/-- The features gathered at the edges' first end points agree, if the rectified second-layer outputs do: the two
    stretches are the same operations over the edge list and that output, up to the kernel program's change of
    format, the identity on the values. -/
theorem hr_of {c : Dev Cert.KernelIdeal.nD} (h : Agree m ρ m' c)
    (e64 : Cert.KernelIdeal.Gen.W8 m ρ c (Proc.devRef .tc Cert.KernelIdeal.main_v64) = RD m' c (Proc.devRef .tc Cert.ReferenceIdeal.main_v95)) :
    Cert.KernelIdeal.Gen.V9 m ρ c Cert.KernelIdeal.main_v76 = RE m' c (Proc.devRef .tc Cert.ReferenceIdeal.main_v104) := by
  have e1 : Cert.KernelIdeal.Gen.W8 m ρ c (Proc.devRef .tc Cert.KernelIdeal.main_arg1) = RD m' c (Proc.devRef .tc Cert.ReferenceIdeal.main_arg1) :=
    k8_arg1.trans (h.a1.symm.trans rD_arg1.symm)
  show after (Cert.KernelIdeal.Gen.hostOps2_2 (F := Ideal)) (Cert.KernelIdeal.Gen.W8 m ρ c) (Proc.devRef .tc Cert.KernelIdeal.main_v76)
      = after (Cert.ReferenceIdeal.RRun.opsE (F := Ideal)) (RD m' c) (Proc.devRef .tc Cert.ReferenceIdeal.main_v104)
  rw [kedge0 (Cert.KernelIdeal.Gen.W8 m ρ c), redge0 (RD m' c), e64, e1]
  generalize RD m' c (Proc.devRef .tc Cert.ReferenceIdeal.main_v95) = a
  generalize RD m' c (Proc.devRef .tc Cert.ReferenceIdeal.main_arg1) = e
  exact edge_eq a _ _ (nodes_eq 0 _ _ e)

set_option maxHeartbeats 1000000 in
/-- The features gathered at the edges' second end points agree likewise. -/
theorem hc_of {c : Dev Cert.KernelIdeal.nD} (h : Agree m ρ m' c)
    (e64 : Cert.KernelIdeal.Gen.W8 m ρ c (Proc.devRef .tc Cert.KernelIdeal.main_v64) = RD m' c (Proc.devRef .tc Cert.ReferenceIdeal.main_v95)) :
    Cert.KernelIdeal.Gen.V9 m ρ c Cert.KernelIdeal.main_v83 = RE m' c (Proc.devRef .tc Cert.ReferenceIdeal.main_v113) := by
  have e1 : Cert.KernelIdeal.Gen.W8 m ρ c (Proc.devRef .tc Cert.KernelIdeal.main_arg1) = RD m' c (Proc.devRef .tc Cert.ReferenceIdeal.main_arg1) :=
    k8_arg1.trans (h.a1.symm.trans rD_arg1.symm)
  show after (Cert.KernelIdeal.Gen.hostOps2_2 (F := Ideal)) (Cert.KernelIdeal.Gen.W8 m ρ c) (Proc.devRef .tc Cert.KernelIdeal.main_v83)
      = after (Cert.ReferenceIdeal.RRun.opsE (F := Ideal)) (RD m' c) (Proc.devRef .tc Cert.ReferenceIdeal.main_v113)
  rw [kedge1 (Cert.KernelIdeal.Gen.W8 m ρ c), redge1 (RD m' c), e64, e1]
  generalize RD m' c (Proc.devRef .tc Cert.ReferenceIdeal.main_v95) = a
  generalize RD m' c (Proc.devRef .tc Cert.ReferenceIdeal.main_arg1) = e
  exact edge_eq a _ _ (nodes_eq 1 _ _ e)

/-! ## The weight's two bands and the bias -/

set_option maxHeartbeats 4000000 in
/-- The kernel program's first weight operand is rows 0 … 127 of the classifier's weight as the reference reads it. -/
theorem w1_eq {c : Dev Cert.KernelIdeal.nD} (h : Agree m ρ m' c) :
    Cert.KernelIdeal.Gen.V9 m ρ c Cert.KernelIdeal.main_v85 = Cert.Spec.band 0 (by decide) (RE m' c (Proc.devRef .tc Cert.ReferenceIdeal.main_arg6)) := by
  have e6 : Cert.KernelIdeal.Gen.W8 m ρ c (Proc.devRef .tc Cert.KernelIdeal.main_arg6) = RE m' c (Proc.devRef .tc Cert.ReferenceIdeal.main_arg6) :=
    k8_arg6.trans (h.a6.symm.trans rE_arg6.symm)
  show after (Cert.KernelIdeal.Gen.hostOps2_2 (F := Ideal)) (Cert.KernelIdeal.Gen.W8 m ρ c) (Proc.devRef .tc Cert.KernelIdeal.main_v85) = _
  generalize RE m' c (Proc.devRef .tc Cert.ReferenceIdeal.main_arg6) = w at e6 ⊢
  generalize Cert.KernelIdeal.Gen.W8 m ρ c = X at e6 ⊢
  results_simp
  rw [e6]
  exact Cert.Spec.slice_eq_band 0 (by decide) Cert.KernelIdeal.Gen.slices_S256x4_S128x4_0_0 w

set_option maxHeartbeats 4000000 in
/-- Its second weight operand is rows 128 … 255. -/
theorem w2_eq {c : Dev Cert.KernelIdeal.nD} (h : Agree m ρ m' c) :
    Cert.KernelIdeal.Gen.V9 m ρ c Cert.KernelIdeal.main_v87 = Cert.Spec.band 128 (by decide) (RE m' c (Proc.devRef .tc Cert.ReferenceIdeal.main_arg6)) := by
  have e6 : Cert.KernelIdeal.Gen.W8 m ρ c (Proc.devRef .tc Cert.KernelIdeal.main_arg6) = RE m' c (Proc.devRef .tc Cert.ReferenceIdeal.main_arg6) :=
    k8_arg6.trans (h.a6.symm.trans rE_arg6.symm)
  show after (Cert.KernelIdeal.Gen.hostOps2_2 (F := Ideal)) (Cert.KernelIdeal.Gen.W8 m ρ c) (Proc.devRef .tc Cert.KernelIdeal.main_v87) = _
  generalize RE m' c (Proc.devRef .tc Cert.ReferenceIdeal.main_arg6) = w at e6 ⊢
  generalize Cert.KernelIdeal.Gen.W8 m ρ c = X at e6 ⊢
  results_simp
  rw [e6]
  exact Cert.Spec.slice_eq_band 128 (by decide) Cert.KernelIdeal.Gen.slices_S256x4_S128x4_128_0 w

/-- The bias the classifier region reads is the bias the reference reads. -/
theorem b_eq {c : Dev Cert.KernelIdeal.nD} (h : Agree m ρ m' c) :
    Cert.KernelIdeal.Gen.V9 m ρ c Cert.KernelIdeal.main_arg7 = RE m' c (Proc.devRef .tc Cert.ReferenceIdeal.main_arg7) := by
  show Cert.KernelIdeal.Gen.W9 m ρ c (Proc.devRef .tc Cert.KernelIdeal.main_arg7) = _
  exact k9_arg7.trans (h.a7.symm.trans rE_arg7.symm)

end Cert.Chain

end
-- ==== Proof.LibMatRows.lean ====
/-
  A plain matrix product read at one entry.

  For operands of shapes [M, K] and [K, N] contracted over the left's columns and the right's rows, entry (p, c)
  of the product is the sum over k of left (p, k) times right (k, c).  At the ideal instance this holds both for a
  kernel's product accumulated into a zero array and for a host product, whatever precision or schedule is named:
  neither rounding nor summation order is left.  Everything is generic in the extents M, K, N.
-/
import Idealize.ShloMosaic.PureOps.Ideal
import Idealize.ShloMosaic.PureOps.Ideal.Laws
import Idealize.ShloMosaic.Lib.ValueIdx

noncomputable section

open scoped BigOperators

namespace Idealize.ShloMosaic.MatRows

open Idealize.ShloMosaic Idealize.ShloMosaic.ValueIdx

variable {M K N : Nat}

/-- The contraction index set of a plain product is its one coordinate, ranging over the shared extent. -/
abbrev contrFin (M K N : Nat) : (DotDims.plain M K N).contr.Idx ≃ Fin K :=
  contrEquiv1 (DotDims.plain M K N) K rfl rfl

/-- At result entry (p, c) and contraction position k the left operand is read at (p, k). -/
theorem plain_lhsIdx (p : Fin M) (c : Fin N) (k : Fin K) :
    (DotDims.plain M K N).lhsIdx (ix2 p c) ((contrFin M K N).symm k) = ix2 p k := by
  funext a
  refine Fin.ext ?_
  match a with
  | ⟨0, _⟩ => rfl
  | ⟨1, _⟩ =>
    exact ((DotDims.plain M K N).lhsIdx_val_of_single (cl := (1 : Fin 2)) rfl (ix2 p c) _).trans
      (contrEquiv1_symm_val (DotDims.plain M K N) K rfl rfl k)

/-- At result entry (p, c) and contraction position k the right operand is read at (k, c). -/
theorem plain_rhsIdx (p : Fin M) (c : Fin N) (k : Fin K) :
    (DotDims.plain M K N).rhsIdx (ix2 p c) ((contrFin M K N).symm k) = ix2 k c := by
  funext a
  refine Fin.ext ?_
  match a with
  | ⟨0, _⟩ =>
    exact ((DotDims.plain M K N).rhsIdx_val_of_single (cr := (0 : Fin 2)) rfl (ix2 p c) _).trans
      (contrEquiv1_symm_val (DotDims.plain M K N) K rfl rfl k)
  | ⟨1, _⟩ => rfl

/-- The contraction sum of a plain product, re-indexed by the shared extent. -/
theorem plain_sum (l : (⟨2, ![M, K]⟩ : Shape).Idx → EReal) (r : (⟨2, ![K, N]⟩ : Shape).Idx → EReal) (p : Fin M) (c : Fin N) :
    ∑ k : (DotDims.plain M K N).contr.Idx,
        l ((DotDims.plain M K N).lhsIdx (ix2 p c) k) * r ((DotDims.plain M K N).rhsIdx (ix2 p c) k)
      = ∑ k : Fin K, l (ix2 p k) * r (ix2 k c) := by
  rw [← Equiv.sum_comp (contrFin M K N).symm]
  exact Finset.sum_congr rfl fun k _ => by rw [plain_lhsIdx, plain_rhsIdx]

/-- A kernel's product into the zero array, at entry (p, c). -/
theorem matmul_plain_apply {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant (F := Ideal) ⟨2, ![M, N]⟩ .f32 0x00000000#32) (ix2 p c)
      = ∑ k : Fin K, l (ix2 p k) * r (ix2 k c) :=
  (Ideal.matmul_constant_zero_apply (DotDims.plain M K N) prec l r (ix2 p c)).trans (plain_sum l r p c)

/-- A host product, at entry (p, c). -/
theorem dotGeneral_plain_apply {φ₁ φ₂ : FTy} (prec : Option ContractPrecision)
    (l : FVec Ideal ⟨2, ![M, K]⟩ φ₁) (r : FVec Ideal ⟨2, ![K, N]⟩ φ₂) (p : Fin M) (c : Fin N) :
    (Host.dotGeneral (F := Ideal) (DotDims.plain M K N) prec l r : FVec Ideal ⟨2, ![M, N]⟩ .f32) (ix2 p c)
      = ∑ k : Fin K, l (ix2 p k) * r (ix2 k c) :=
  (Ideal.dotGeneral_apply (DotDims.plain M K N) prec _ l r (ix2 p c)).trans (plain_sum l r p c)

end Idealize.ShloMosaic.MatRows

end
-- ==== Proof.MatBlock.lean ====
import proofs.«103492_j72215580115747_2_alg».proof.Proof.Gen.KernelIdeal.Frame
import proofs.«103492_j72215580115747_2_alg».proof.Proof.LibMatRows
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

/-!
  The arithmetic of one tile of the two linear layers.

  A tile holds 2000 consecutive rows of a 50000-row matrix with 128 columns; the weight is a full 128 × 128 matrix.
  Entry (p, q) of the tile's product is the sum over k of the tile's (p, k) times the weight's (k, q). Rounding the
  operands to a narrower format does nothing at the ideal instance, and adding into a zero array adds nothing. In
  the second layer the left operand is first replaced by its maximum with zero, entry by entry.
-/

namespace Cert.KernelIdeal.MatBlock

open Cert.KernelIdeal Cert.KernelIdeal.Gen

/-- The offset of a whole-buffer access. -/
theorem hz : (![0, 0] : Fin 2 → Nat) = fun _ => 0 := funext fun a => by fin_cases a <;> rfl

/-- First layer: entry (p, q) of what the body stores is the row-by-column sum. -/
theorem pay0_apply (x0 : Vec Ideal S2000x128 .f32) (x1 : Vec Ideal S128x128 .f32) (p : Fin 2000) (q : Fin 128) :
    Gen.k0_pay1 (F := Ideal) x0 x1 (ix2 p q) = ∑ k : Fin 128, (x0 (ix2 p k) : EReal) * x1 (ix2 k q) := by
  unfold Gen.k0_pay1
  exact MatRows.matmul_plain_apply (M := 2000) (K := 128) (N := 128) none
    (truncf .bf16 x0 bitsLt_bf16_f32 : FVec Ideal S2000x128 .bf16) (truncf .bf16 x1 bitsLt_bf16_f32 : FVec Ideal S128x128 .bf16) p q

/-- Second layer: the same sum with each left entry replaced by its maximum with zero. -/
theorem pay1_apply (x0 : Vec Ideal S2000x128 .f32) (x1 : Vec Ideal S128x128 .f32) (p : Fin 2000) (q : Fin 128) :
    Gen.k1_pay1 (F := Ideal) x0 x1 (ix2 p q)
      = ∑ k : Fin 128, max (x0 (ix2 p k) : EReal) (Ideal.ofBits .f32 0x00000000#32) * x1 (ix2 k q) := by
  unfold Gen.k1_pay1
  rw [shapeCast_self]
  exact MatRows.matmul_plain_apply (M := 2000) (K := 128) (N := 128) none
    (truncf .bf16 (maximumf x0 (broadcast S2000x128 (Scalar.ofBits (F := Ideal) .f32 0x00000000#32))) bitsLt_bf16_f32 : FVec Ideal S2000x128 .bf16)
    (truncf .bf16 x1 bitsLt_bf16_f32 : FVec Ideal S128x128 .bf16) p q

end Cert.KernelIdeal.MatBlock

end
-- ==== Proof.Region0.lean ====
import proofs.«103492_j72215580115747_2_alg».proof.Proof.Gen.KernelIdeal.Frame
import proofs.«103492_j72215580115747_2_alg».proof.Proof.LibMatRows
import proofs.«103492_j72215580115747_2_alg».proof.Proof.MatBlock
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

/-!
  The first linear layer as one whole-array statement.

  The layer multiplies a 50000 × 128 matrix of node features by a 128 × 128 weight. The grid has 25 points; point t
  reads rows 2000·t … 2000·t + 1999 of the features and the whole weight, and writes the same band of rows of the
  result. Entry (p, q) of the band is the sum over k of the band's (p, k) times the weight's (k, q), which is entry
  (2000·t + p, q) of the product of the two whole matrices. The 25 bands are disjoint and exhaust the 50000 rows
  (row r lies in band r / 2000), so after the last point the result array is the whole product.
-/

namespace Cert.KernelIdeal.Region0

open Cert.KernelIdeal Cert.KernelIdeal.Gen

variable (V : (c : Dev nD) → (b : Ref sig .tc) → Buf (Elt Ideal) ((c : Thread nD τ).loc b))

/-- The product of the two whole matrices: what the result array is claimed to hold. -/
abbrev G (c : Dev nD) : S50000x128.Idx → EReal :=
  (Host.dotGeneral (F := Ideal) (φ₁ := .f32) (φ₂ := .f32) (DotDims.plain 50000 128 128) none (V c main_arg0) (V c main_arg2) : FVec Ideal ⟨2, ![50000, 128]⟩ .f32)

/-- Where the three windows sit at grid point t: the left operand's and the result's block is band t of the rows
    and the only block of the columns; the weight's block is the whole weight. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has 25 points. -/
theorem lt_N (t : Fin cfg0.N) : t.val < 25 := lt_of_lt_of_eq t.isLt Gen.N_0

/-- Entry (p, k) of the left operand's block at point t is entry (2000·t + p, k) of the whole matrix. -/
theorem lhs_block (c : Dev nD) (t : Fin cfg0.N) (p : Fin 2000) (k : Fin 128) (r : Fin 50000) (hr : r.val = 2000 * t.val + p.val) :
    (Gen.iblk0 V c 0 t : Vec Ideal S2000x128 .f32) (ix2 p k) = (V c main_arg0 : S50000x128.Idx → EReal) (ix2 r k) := by
  obtain ⟨e0, e1, -⟩ := idx_facts t
  unfold Gen.iblk0
  rw [View.read_apply]
  show V c main_arg0 _ = V c main_arg0 _
  refine congrArg (V c main_arg0) ?_
  funext a
  apply Fin.ext
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weight's block at every point is the whole weight. -/
theorem rhs_block (c : Dev nD) (t : Fin cfg0.N) (k : Fin 128) (q : Fin 128) :
    (Gen.iblk0 V c 1 t : Vec Ideal S128x128 .f32) (ix2 k q) = (V c main_arg2 : S128x128.Idx → EReal) (ix2 k q) := by
  obtain ⟨-, -, e2, e3, -⟩ := idx_facts t
  unfold Gen.iblk0
  rw [View.read_apply]
  show V c main_arg2 _ = V c main_arg2 _
  refine congrArg (V c main_arg2) ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is band t of the whole product: entry (p, q) of the band and entry (2000·t + p, q) of
    the product are the same sum over k, term by term. -/
theorem flushed_eq (c : Dev nD) (t : Fin cfg0.N) :
    (Gen.dat0 (F := Ideal) V c).flushed 2 t = ((cfg0.win 2).blk t).view.read (Elt Ideal) (G V c) := by
  show (cfg0.win 2).cut (grid0.coords t) ((Gen.dat0 V c).after 2 t) = _
  rw [Gen.after0_2]
  unfold Gen.out0_2
  rw [View.canon_unit_zero MatBlock.hz]
  simp only [View.ld_unit_zero (S := S2000x128) MatBlock.hz, View.ld_unit_zero (S := S128x128) MatBlock.hz]
  funext j
  obtain ⟨p, q, rfl⟩ : ∃ (p : Fin 2000) (q : Fin 128), j = ix2 p q := ⟨j 0, j 1, eq_ix2 j⟩
  have ht : t.val < 25 := lt_N t
  obtain ⟨-, -, -, -, e4, e5⟩ := idx_facts t
  have hemb : ((cfg0.win 2).blk t).view.emb (ix2 p q) = ix2 (⟨2000 * t.val + p.val, by omega⟩ : Fin 50000) q := by
    funext a
    apply Fin.ext
    match a with
    | ⟨0, _⟩ => show win0_2.index t (0 : Fin 2) * 2000 + 1 * p.val = 2000 * t.val + p.val; rw [e4]; omega
    | ⟨1, _⟩ => show win0_2.index t (1 : Fin 2) * 128 + 1 * q.val = q.val; rw [e5]; omega
  show Gen.k0_pay1 (Gen.iblk0 V c 0 t) (Gen.iblk0 V c 1 t) (ix2 p q) = G V c (((cfg0.win 2).blk t).view.emb (ix2 p q))
  rw [hemb]
  refine (MatBlock.pay0_apply _ _ p q).trans ?_
  refine Eq.trans ?_ (MatRows.dotGeneral_plain_apply (M := 50000) (K := 128) (N := 128) (φ₁ := .f32) (φ₂ := .f32) none (V c main_arg0) (V c main_arg2) ⟨2000 * t.val + p.val, by omega⟩ q).symm
  refine Finset.sum_congr rfl fun k _ => ?_
  rw [lhs_block V c t p k ⟨2000 * t.val + p.val, by omega⟩ rfl, rhs_block V c t k q]

/-- An entry of the result array lies in point t's block exactly when its row is in band t (and its column anywhere). -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- Every entry is written by some point: row r by point r / 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := Gen.N_0
  obtain ⟨t, ht⟩ : ∃ t : Fin cfg0.N, t.val = (i 0).val / 2000 := ⟨⟨(i 0).val / 2000, by rw [hN]; omega⟩, rfl⟩
  obtain ⟨-, -, -, -, e4, e5⟩ := idx_facts t
  refine ⟨t, Gen.flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- After the last grid point the result array is the product of the whole matrices. -/
theorem value (c : Dev nD) :
    (Gen.dat0 (F := Ideal) V c).arrAt 2 cfg0.N
      = (Host.dotGeneral (F := Ideal) (φ₁ := .f32) (φ₂ := .f32) (DotDims.plain 50000 128 128) none (V c main_arg0) (V c main_arg2) : FVec Ideal ⟨2, ![50000, 128]⟩ .f32) :=
  (Gen.dat0 (F := Ideal) V c).arrAt_eq_of_cover 2 (G V c) (fun t _ => flushed_eq V c t) cover

end Cert.KernelIdeal.Region0

end
-- ==== Proof.ChainLayers.lean ====
/-
  The first layer.

  The first grid region leaves, in its result array, the product of the node features with the first weight: the
  reference's first operation.  Both programs then gather that product's rows at the edges' sources, scale them by
  the degree normalisation, scatter-add them at the edges' targets and add the bias — the same host operations on
  the same values, so the first layer's output is the same array.
-/
import proofs.«103492_j72215580115747_2_alg».proof.Proof.ChainBase
import proofs.«103492_j72215580115747_2_alg».proof.Proof.Region0

set_option maxRecDepth 16384

noncomputable section

namespace Cert.Chain

open Idealize.ShloMosaic Idealize.ShloMosaic.TcCoe Idealize.ShloMosaic.StableHlo Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ}

set_option maxHeartbeats 4000000 in
/-- After the first region its result array is the reference's first product. -/
theorem xw1_eq {c : Dev Cert.KernelIdeal.nD} (h : Agree m ρ m' c) :
    Cert.KernelIdeal.Gen.W4 m ρ c (Proc.devRef .tc Cert.KernelIdeal.main_v30) = RA m' c (Proc.devRef .tc Cert.ReferenceIdeal.main_v0) := by
  refine (Cert.KernelIdeal.Gen.W4_arr m ρ c 2).trans ?_
  rw [Cert.KernelIdeal.Region0.value]
  results_simp
  simp only [h.a0, h.a1, h.a2, h.a3, h.a4, h.a5, h.a6, h.a7]
  rfl

set_option maxHeartbeats 16000000 in
/-- The first layer's output before the rectifier is the same array in both programs. -/
theorem pre1_eq {c : Dev Cert.KernelIdeal.nD} (h : Agree m ρ m' c) :
    Cert.KernelIdeal.Gen.W5 m ρ c (Proc.devRef .tc Cert.KernelIdeal.main_v46) = RA m' c (Proc.devRef .tc Cert.ReferenceIdeal.main_v46) := by
  fold_simp
  simp only [xw1_eq h]
  results_simp
  simp only [h.a0, h.a1, h.a2, h.a3, h.a4, h.a5, h.a6, h.a7]
  rfl

end Cert.Chain

end
-- ==== Proof.Region1.lean ====
import proofs.«103492_j72215580115747_2_alg».proof.Proof.Gen.KernelIdeal.Frame
import proofs.«103492_j72215580115747_2_alg».proof.Proof.LibMatRows
import proofs.«103492_j72215580115747_2_alg».proof.Proof.MatBlock
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

/-!
  The second linear layer as one whole-array statement.

  The layer replaces every entry of a 50000 × 128 matrix by its maximum with zero and multiplies the outcome by a
  128 × 128 weight. The grid has 25 points; point t reads rows 2000·t … 2000·t + 1999 of the matrix and the whole
  weight, and writes the same band of rows of the result. Entry (p, q) of the band is the sum over k of
  max(band (p, k), 0) times the weight's (k, q); taking the maximum entry by entry commutes with cutting out a band,
  so this is entry (2000·t + p, q) of the product of the whole clamped matrix with the weight. The 25 bands are
  disjoint and exhaust the 50000 rows (row r lies in band r / 2000), so after the last point the result array is the
  whole product.
-/

namespace Cert.KernelIdeal.Region1

open Cert.KernelIdeal Cert.KernelIdeal.Gen

variable (V : (c : Dev nD) → (b : Ref sig .tc) → Buf (Elt Ideal) ((c : Thread nD τ).loc b))

/-- The product of the two whole matrices, the left one clamped below at zero: what the result array is claimed to hold. -/
abbrev G (c : Dev nD) : S50000x128.Idx → EReal :=
  (Host.dotGeneral (F := Ideal) (φ₁ := .f32) (φ₂ := .f32) (DotDims.plain 50000 128 128) none (maximumf (V c main_v46) (broadcastInDim S50000x128 ![] bcast_S_S50000x128 (constant (F := Ideal) S_ .f32 0x00000000#32))) (V c main_arg4) : FVec Ideal ⟨2, ![50000, 128]⟩ .f32)

/-- Where the three windows sit at grid point t: the left operand's and the result's block is band t of the rows
    and the only block of the columns; the weight's block is the whole weight. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The grid has 25 points. -/
theorem lt_N (t : Fin cfg1.N) : t.val < 25 := lt_of_lt_of_eq t.isLt Gen.N_1

/-- Entry (p, k) of the left operand's block at point t is entry (2000·t + p, k) of the whole matrix. -/
theorem lhs_block (c : Dev nD) (t : Fin cfg1.N) (p : Fin 2000) (k : Fin 128) (r : Fin 50000) (hr : r.val = 2000 * t.val + p.val) :
    (Gen.iblk1 V c 0 t : Vec Ideal S2000x128 .f32) (ix2 p k) = (V c main_v46 : S50000x128.Idx → EReal) (ix2 r k) := by
  obtain ⟨e0, e1, -⟩ := idx_facts t
  unfold Gen.iblk1
  rw [View.read_apply]
  show V c main_v46 _ = V c main_v46 _
  refine congrArg (V c main_v46) ?_
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The weight's block at every point is the whole weight. -/
theorem rhs_block (c : Dev nD) (t : Fin cfg1.N) (k : Fin 128) (q : Fin 128) :
    (Gen.iblk1 V c 1 t : Vec Ideal S128x128 .f32) (ix2 k q) = (V c main_arg4 : S128x128.Idx → EReal) (ix2 k q) := by
  obtain ⟨-, -, e2, e3, -⟩ := idx_facts t
  unfold Gen.iblk1
  rw [View.read_apply]
  show V c main_arg4 _ = V c main_arg4 _
  refine congrArg (V c main_arg4) ?_
  funext a
  apply Fin.ext
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- What point t writes back is band t of the whole product: entry (p, q) of the band and entry (2000·t + p, q) of
    the product are the same sum over k, term by term. -/
theorem flushed_eq (c : Dev nD) (t : Fin cfg1.N) :
    (Gen.dat1 (F := Ideal) V c).flushed 2 t = ((cfg1.win 2).blk t).view.read (Elt Ideal) (G V c) := by
  show (cfg1.win 2).cut (grid1.coords t) ((Gen.dat1 V c).after 2 t) = _
  rw [Gen.after1_2]
  unfold Gen.out1_2
  rw [View.canon_unit_zero MatBlock.hz]
  simp only [View.ld_unit_zero (S := S2000x128) MatBlock.hz, View.ld_unit_zero (S := S128x128) MatBlock.hz]
  funext j
  obtain ⟨p, q, rfl⟩ : ∃ (p : Fin 2000) (q : Fin 128), j = ix2 p q := ⟨j 0, j 1, eq_ix2 j⟩
  have ht : t.val < 25 := lt_N t
  obtain ⟨-, -, -, -, e4, e5⟩ := idx_facts t
  have hemb : ((cfg1.win 2).blk t).view.emb (ix2 p q) = ix2 (⟨2000 * t.val + p.val, by omega⟩ : Fin 50000) q := by
    funext a
    apply Fin.ext
    match a with
    | ⟨0, _⟩ => show win1_2.index t (0 : Fin 2) * 2000 + 1 * p.val = 2000 * t.val + p.val; rw [e4]; omega
    | ⟨1, _⟩ => show win1_2.index t (1 : Fin 2) * 128 + 1 * q.val = q.val; rw [e5]; omega
  show Gen.k1_pay1 (Gen.iblk1 V c 0 t) (Gen.iblk1 V c 1 t) (ix2 p q) = G V c (((cfg1.win 2).blk t).view.emb (ix2 p q))
  rw [hemb]
  refine (MatBlock.pay1_apply _ _ p q).trans ?_
  refine Eq.trans ?_ (MatRows.dotGeneral_plain_apply (M := 50000) (K := 128) (N := 128) (φ₁ := .f32) (φ₂ := .f32) none (maximumf (V c main_v46) (broadcastInDim S50000x128 ![] bcast_S_S50000x128 (constant (F := Ideal) S_ .f32 0x00000000#32))) (V c main_arg4) ⟨2000 * t.val + p.val, by omega⟩ q).symm
  refine Finset.sum_congr rfl fun k _ => ?_
  rw [lhs_block V c t p k ⟨2000 * t.val + p.val, by omega⟩ rfl, rhs_block V c t k q]
  rfl

/-- An entry of the result array lies in point t's block exactly when its row is in band t (and its column anywhere). -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v47).slice (win1_2.rect t)).set ↔ _
  rw [View.set_slice_whole, Rect.mem_set_unit]
  exact Iff.rfl

/-- Every entry is written by some point: row r by point r / 2000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 25 := Gen.N_1
  obtain ⟨t, ht⟩ : ∃ t : Fin cfg1.N, t.val = (i 0).val / 2000 := ⟨⟨(i 0).val / 2000, by rw [hN]; omega⟩, rfl⟩
  obtain ⟨-, -, -, -, e4, e5⟩ := idx_facts t
  refine ⟨t, Gen.flush1_2 t, ?_⟩
  rw [mem_blk]
  intro a
  match a with
  | ⟨0, _⟩ => show win1_2.index t (0 : Fin 2) * 2000 ≤ (i 0).val ∧ (i 0).val < win1_2.index t (0 : Fin 2) * 2000 + 2000; rw [e4, ht]; omega
  | ⟨1, _⟩ => show win1_2.index t (1 : Fin 2) * 128 ≤ (i 1).val ∧ (i 1).val < win1_2.index t (1 : Fin 2) * 128 + 128; rw [e5]; omega

/-- After the last grid point the result array is the product of the whole matrices. -/
theorem value (c : Dev nD) :
    (Gen.dat1 (F := Ideal) V c).arrAt 2 cfg1.N
      = (Host.dotGeneral (F := Ideal) (φ₁ := .f32) (φ₂ := .f32) (DotDims.plain 50000 128 128) none (maximumf (V c main_v46) (broadcastInDim S50000x128 ![] bcast_S_S50000x128 (constant (F := Ideal) S_ .f32 0x00000000#32))) (V c main_arg4) : FVec Ideal ⟨2, ![50000, 128]⟩ .f32) :=
  (Gen.dat1 (F := Ideal) V c).arrAt_eq_of_cover 2 (G V c) (fun t _ => flushed_eq V c t) cover

end Cert.KernelIdeal.Region1

end
-- ==== Proof.LibTypedRef.lean ====
/-
  Typed references to tensor buffers: storing and reading back.

  An operation of a function the compiler outlined reaches its buffers through typed references: it stores a value by
  transporting it to the buffer's own type and reads one by transporting it back.  Whatever the reference, a value
  stored through it and read back through it is the value: the two transports are along an equation and its inverse.
-/
import Idealize.ShloMosaic.Lib.StableHlo

namespace Idealize.ShloMosaic.StableHlo.TRef

variable {sig : RefSig} {T : BufTy} {Val : EltTy → Type}

/-- A value stored through a typed reference and read back through it is the value. -/
theorem ofBuf_toBuf (x : TRef sig T) (v : T.Contents Val) : x.ofBuf (x.toBuf v) = v := by
  obtain ⟨r, h, h2, h3⟩ := x
  subst h
  rfl

end Idealize.ShloMosaic.StableHlo.TRef
-- ==== Proof.ChainRelu.lean ====
/-
  The rectifier and the second matrix product.

  Between the two grid regions the reference replaces every entry of the first layer's output by its maximum with
  zero and multiplies by the second weight; the operations of the rectifier stand in the place of its call, storing
  and reading back through typed references, which changes nothing.  Read at any buffer contents, this stretch
  leaves the product of the clamped first-layer output with the second weight.  The second grid region leaves the
  same product, by bands of rows, of the first-layer output and the weight it finds at its entry; these are the
  reference's, the first by the layer's own comparison and the weight because no operation before the region
  writes it.
-/
import proofs.«103492_j72215580115747_2_alg».proof.Proof.ChainLayers
import proofs.«103492_j72215580115747_2_alg».proof.Proof.Region1
import proofs.«103492_j72215580115747_2_alg».proof.Proof.LibTypedRef

set_option maxRecDepth 16384

noncomputable section

namespace Cert.Chain

open Idealize.ShloMosaic Idealize.ShloMosaic.TcCoe Idealize.ShloMosaic.StableHlo Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ}

set_option maxHeartbeats 400000 in
/-- The reference's rectifier and second product, over any buffer contents: the product of the first-layer output
    clamped below at zero with the second weight. -/
theorem relu_dot (Y : Valuation Cert.ReferenceIdeal.τ Cert.ReferenceIdeal.sig (Elt Ideal)) :
    after (Cert.ReferenceIdeal.RRun.opsB (F := Ideal)) Y (Proc.devRef .tc Cert.ReferenceIdeal.main_v48)
      = (Host.dotGeneral (F := Ideal) (φ₁ := .f32) (φ₂ := .f32) (DotDims.plain 50000 128 128) none
          (maximumf (Y (Proc.devRef .tc Cert.ReferenceIdeal.main_v46))
            (broadcastInDim Cert.KernelIdeal.S50000x128 ![] Cert.KernelIdeal.Gen.bcast_S_S50000x128 (constant (F := Ideal) Cert.KernelIdeal.S_ .f32 0x00000000#32)))
          (Y (Proc.devRef .tc Cert.ReferenceIdeal.main_arg4)) : FVec Ideal ⟨2, ![50000, 128]⟩ .f32) := by
  results_simp
  simp only [TRef.ofBuf_toBuf]
  rfl

set_option maxHeartbeats 4000000 in
/-- The second weight reaches the second region as it was launched, and the reference reads the same array. -/
theorem weight2_eq {c : Dev Cert.KernelIdeal.nD} (h : Agree m ρ m' c) :
    Cert.KernelIdeal.Gen.V5 m ρ c Cert.KernelIdeal.main_arg4 = RA m' c (Proc.devRef .tc Cert.ReferenceIdeal.main_arg4) := by
  dsimp only [Cert.KernelIdeal.Gen.V5]
  fold_simp
  exact h.a4.symm

set_option maxHeartbeats 4000000 in
/-- After the second region its result array is the reference's second product: the rectified first-layer output
    times the second weight. -/
theorem xw2_eq {c : Dev Cert.KernelIdeal.nD} (h : Agree m ρ m' c) :
    Cert.KernelIdeal.Gen.W6 m ρ c (Proc.devRef .tc Cert.KernelIdeal.main_v47) = RB m' c (Proc.devRef .tc Cert.ReferenceIdeal.main_v48) := by
  refine (Cert.KernelIdeal.Gen.W6_arr m ρ c 2).trans ?_
  rw [Cert.KernelIdeal.Region1.value]
  refine Eq.trans ?_ (relu_dot (RA m' c)).symm
  have e1 : Cert.KernelIdeal.Gen.V5 m ρ c Cert.KernelIdeal.main_v46 = RA m' c (Proc.devRef .tc Cert.ReferenceIdeal.main_v46) := pre1_eq h
  rw [e1, weight2_eq h]

end Cert.Chain

end
-- ==== Proof.ChainLayers2.lean ====
/-
  The second layer.

  After the second region both programs gather the second product's rows at the edges' sources, scale them by the
  degree normalisation (which the reference computes a second time, by the same operations from the same edge
  lists), scatter-add them at the targets and add the second bias; then the rectifier.
-/
import proofs.«103492_j72215580115747_2_alg».proof.Proof.ChainLayers
import proofs.«103492_j72215580115747_2_alg».proof.Proof.ChainRelu

set_option maxRecDepth 16384

noncomputable section

namespace Cert.Chain

open Idealize.ShloMosaic Idealize.ShloMosaic.TcCoe Idealize.ShloMosaic.StableHlo Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ}

set_option maxHeartbeats 16000000 in
/-- The second layer's output before the rectifier is the same array in both programs. -/
theorem pre2_eq {c : Dev Cert.KernelIdeal.nD} (h : Agree m ρ m' c) :
    Cert.KernelIdeal.Gen.W7 m ρ c (Proc.devRef .tc Cert.KernelIdeal.main_v63) = RC m' c (Proc.devRef .tc Cert.ReferenceIdeal.main_v94) := by
  have e48 : RB m' c (Proc.devRef .tc Cert.ReferenceIdeal.main_v48) = Cert.KernelIdeal.Gen.W6 m ρ c (Proc.devRef .tc Cert.KernelIdeal.main_v47) := (xw2_eq h).symm
  have e1 : RB m' c (Proc.devRef .tc Cert.ReferenceIdeal.main_arg1) = Cert.KernelIdeal.Gen.W0 m ρ c (Proc.devRef .tc Cert.KernelIdeal.main_arg1) := by
    results_simp; exact h.a1
  have e5 : RB m' c (Proc.devRef .tc Cert.ReferenceIdeal.main_arg5) = Cert.KernelIdeal.Gen.W0 m ρ c (Proc.devRef .tc Cert.KernelIdeal.main_arg5) := by
    results_simp; exact h.a5
  show Cert.KernelIdeal.Gen.W7 m ρ c (Proc.devRef .tc Cert.KernelIdeal.main_v63) = after (Cert.ReferenceIdeal.RRun.opsC (F := Ideal)) (RB m' c) (Proc.devRef .tc Cert.ReferenceIdeal.main_v94)
  generalize RB m' c = Y at e48 e1 e5 ⊢
  fold_simp
  simp only [e48, e1, e5]
  rfl

set_option maxHeartbeats 4000000 in
/-- The rectified second-layer output — the node features the classifier reads — is the same array. -/
theorem hfin_eq {c : Dev Cert.KernelIdeal.nD} (h : Agree m ρ m' c) :
    Cert.KernelIdeal.Gen.W8 m ρ c (Proc.devRef .tc Cert.KernelIdeal.main_v64) = RD m' c (Proc.devRef .tc Cert.ReferenceIdeal.main_v95) := by
  have e : Cert.KernelIdeal.Gen.W7 m ρ c (Proc.devRef .tc Cert.KernelIdeal.main_v63) = RC m' c (Proc.devRef .tc Cert.ReferenceIdeal.main_v94) := pre2_eq h
  show after (Cert.KernelIdeal.Gen.hostOps2_1 (F := Ideal)) (Cert.KernelIdeal.Gen.W7 m ρ c) (Proc.devRef .tc Cert.KernelIdeal.main_v64) = after (Cert.ReferenceIdeal.RRun.opsD (F := Ideal)) (RC m' c) (Proc.devRef .tc Cert.ReferenceIdeal.main_v95)
  generalize Cert.KernelIdeal.Gen.W7 m ρ c = X at e ⊢
  generalize RC m' c = Y at e ⊢
  results_simp
  simp only [e]

end Cert.Chain

end
-- ==== Proof.ClassifierSpec.lean ====
/-
  The edge classifier as one function, entry by entry.

  For each edge e the two gathered feature rows A(e, ·) and B(e, ·), of 128 entries each, meet two weight
  matrices of shape [128, 4] and a bias of 4 entries: the score of class j is

      s(e, j) = ∑ k, A(e, k) · W1(k, j) + ∑ k, B(e, k) · W2(k, j) + b(j).

  The result is the logarithm of the softmax of the four scores of the edge, computed the stable way: with m
  the largest of the four scores (the fold of max from −∞), entry (e, j) is

      s(e, j) − m − log (∑ l, exp (s(e, l) − m)).

  Everything is over the extended reals: sums, products, exp and log are exact, and no entry is assumed finite.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The four scores of one edge, from its two feature rows `a` and `b`: class j gets the two rows' products with
    column j of the two weight matrices, plus the bias of class j. -/
def score (a b : Fin 128 → EReal) (W1 W2 : (⟨2, ![128, 4]⟩ : Shape).Idx → EReal)
    (bias : (⟨1, ![4]⟩ : Shape).Idx → EReal) (j : Fin 4) : EReal :=
  (∑ k : Fin 128, a k * W1 (ix2 k j)) + (∑ k : Fin 128, b k * W2 (ix2 k j)) + bias (ix1 j)

/-- The largest of four scores: the fold of max from −∞. -/
def top4 (s : Fin 4 → EReal) : EReal := (Finset.univ : Finset (Fin 4)).fold max ⊥ s

/-- The logarithm of the softmax of four scores, at class j, shifted by the largest score. -/
def logSoftmax4 (s : Fin 4 → EReal) (j : Fin 4) : EReal :=
  s j - top4 s - Ideal.log (∑ l : Fin 4, Ideal.exp (s l - top4 s))

/-- The classifier: entry (e, j) is the log-softmax, at class j, of the scores of edge e. -/
def cls (A B : (⟨2, ![600000, 128]⟩ : Shape).Idx → EReal) (W1 W2 : (⟨2, ![128, 4]⟩ : Shape).Idx → EReal)
    (b : (⟨1, ![4]⟩ : Shape).Idx → EReal) : (⟨2, ![600000, 4]⟩ : Shape).Idx → EReal :=
  fun i => logSoftmax4 (score (fun k => A (ix2 (i 0) k)) (fun k => B (ix2 (i 0) k)) W1 W2 b) (i 1)

/-- The classifier at an index written by its coordinates. -/
theorem cls_ix2 (A B : (⟨2, ![600000, 128]⟩ : Shape).Idx → EReal) (W1 W2 : (⟨2, ![128, 4]⟩ : Shape).Idx → EReal)
    (b : (⟨1, ![4]⟩ : Shape).Idx → EReal) (e : Fin 600000) (j : Fin 4) :
    cls A B W1 W2 b (ix2 e j) = logSoftmax4 (score (fun k => A (ix2 e k)) (fun k => B (ix2 e k)) W1 W2 b) j := rfl

end Cert.Spec

end
-- ==== Proof.ClassifierRows.lean ====
/-
  Row-wise reductions of a matrix and their broadcast back along the rows, read at one entry.

  A kernel that normalises each row of an [n, c] matrix reduces the matrix over its columns to a vector of n
  entries, views that vector as a column [n, 1], and repeats the column across the c columns. Read at entry
  (p, j) the result is the reduction of row p, whatever j: the fold of max from −∞ over the row for a maximum,
  the sum over the row for a sum. The bias row of c entries, viewed as [1, c] and repeated down the n rows,
  reads at (p, j) as entry j. All statements are over arbitrary extents; the proofs are coordinate arithmetic.
-/
import Idealize.ShloMosaic.PureOps.Ideal
import Idealize.ShloMosaic.PureOps.Ideal.Laws
import Idealize.ShloMosaic.Lib.ValueIdx
import Idealize.ShloMosaic.Lib.ValueLayout

noncomputable section

open scoped BigOperators

namespace Cert.Rows

open Idealize.ShloMosaic Idealize.ShloMosaic.ValueIdx

variable {α : Type}

/-- A vector of a entries viewed as a column [a, 1]: entry (i, 0) is entry i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] repeated across b columns: entry (p, c) is the column's entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of b entries viewed as a row [1, b] and repeated down a rows: entry (p, c) is entry c. -/
theorem biasRow_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- The entry of an [n, c] matrix that lies over entry p of its column-reduced vector at column l is (p, l). -/
theorem lift_row {n c : ℕ} (h : (⟨2, ![n, c]⟩ : Shape).Reduces [(1 : Fin 2)] ⟨1, ![n]⟩) (p : Fin n) (l : Fin c) :
    h.lift (ix1 p) l = ix2 p l := by
  funext a
  refine Fin.ext ?_
  match a with
  | ⟨0, _⟩ => rfl
  | ⟨1, _⟩ => rfl

/-- The f32 pattern of −∞ denotes the bottom extended real. -/
theorem ofBits_negInf_f32 : Ideal.ofBits .f32 0xFF800000#32 = ⊥ := by simp [Ideal.ofBits, Ideal.ieee]

/-- The row maximum, kept as a column and repeated across the columns, at (p, j): the fold of max from −∞ over
    row p. -/
theorem rowMax_keepdims_apply {n c : ℕ} (src : FVec Ideal ⟨2, ![n, c]⟩ .f32)
    (hr : (⟨2, ![n, c]⟩ : Shape).Reduces [(1 : Fin 2)] ⟨1, ![n]⟩) (hφ : FKind.Formats .f32)
    (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, c]⟩)
    (p : Fin n) (j : Fin c) :
    broadcastTo ⟨2, ![n, c]⟩
        (shapeCast ⟨2, ![n, 1]⟩ (multiReduction (F := Ideal) .maximumf [(1 : Fin 2)] ⟨1, ![n]⟩ src 0xFF800000#32 hr hφ hacc) hc)
        hb (ix2 p j)
      = (Finset.univ : Finset (Fin c)).fold max ⊥ (fun l => src (ix2 p l)) := by
  refine (broadcastTo_a1_ab_apply _ hb p j).trans ?_
  refine (shapeCast_a_a1_apply _ hc p 0).trans ?_
  refine (Ideal.multiReduction_maximumf_single src 0xFF800000#32 hr hφ hacc (ix1 p)).trans ?_
  have e : (src ∘ hr.lift (ix1 p)) = fun l : Fin c => src (ix2 p l) := funext fun l => congrArg src (lift_row hr p l)
  have e0 : (FloatOps.ofBits (F := Ideal) .f32 0xFF800000#32 : EReal) = ⊥ := ofBits_negInf_f32
  rw [e, e0]
  rfl

/-- The row sum, kept as a column, at (p, 0): the sum over row p. -/
theorem rowSum_column_apply {n c : ℕ} (src : FVec Ideal ⟨2, ![n, c]⟩ .f32)
    (hr : (⟨2, ![n, c]⟩ : Shape).Reduces [(1 : Fin 2)] ⟨1, ![n]⟩) (hφ : FKind.Formats .f32)
    (hacc : (0x00000000#32 : BitVec 32) = FKind.add.neutral .f32 hφ)
    (hc : (⟨1, ![n]⟩ : Shape).ShapeCasts ⟨2, ![n, 1]⟩) (p : Fin n) (u : Fin 1) :
    shapeCast ⟨2, ![n, 1]⟩ (multiReduction (F := Ideal) .add [(1 : Fin 2)] ⟨1, ![n]⟩ src 0x00000000#32 hr hφ hacc) hc (ix2 p u)
      = ∑ l : Fin c, src (ix2 p l) := by
  refine (shapeCast_a_a1_apply _ hc p u).trans ?_
  refine (Ideal.multiReduction_add_single src 0x00000000#32 hr hφ hacc (ix1 p)).trans ?_
  exact Finset.sum_congr rfl fun l _ => congrArg src (lift_row hr p l)

/-- Shifted scores minus the logarithm of the row sum of their exponentials, at (p, j), for any shift M. -/
theorem shiftLogSumExp_apply {n c : ℕ} (v M : FVec Ideal ⟨2, ![n, c]⟩ .f32)
    (hr : (⟨2, ![n, c]⟩ : Shape).Reduces [(1 : Fin 2)] ⟨1, ![n]⟩) (hφ : FKind.Formats .f32)
    (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, c]⟩)
    (p : Fin n) (j : Fin c) :
    subf (subf v M)
        (broadcastTo ⟨2, ![n, c]⟩
          (log (shapeCast ⟨2, ![n, 1]⟩
            (multiReduction (F := Ideal) .add [(1 : Fin 2)] ⟨1, ![n]⟩ (exp (subf v M)) 0x00000000#32 hr hφ hacc) hc)) hb)
        (ix2 p j)
      = v (ix2 p j) - M (ix2 p j) - Ideal.log (∑ l : Fin c, Ideal.exp (v (ix2 p l) - M (ix2 p l))) := by
  refine congrArg (fun z : EReal => v (ix2 p j) - M (ix2 p j) - z) ?_
  refine (broadcastTo_a1_ab_apply _ hb p j).trans ?_
  refine congrArg Ideal.log ?_
  exact rowSum_column_apply (exp (subf v M)) hr hφ hacc hc p 0

/-- The logarithm of the softmax of each row of an [n, c] matrix, the stable way: the row maximum is kept as a
    column, repeated across the columns and subtracted; the exponentials of the differences are summed along each
    row; the logarithm of that sum, again repeated across the columns, is subtracted. At (p, j), with m the fold of
    max from −∞ over row p, this is v(p, j) − m − log (∑ l, exp (v(p, l) − m)). -/
theorem logSoftmaxRows_apply {n c : ℕ} (v : FVec Ideal ⟨2, ![n, c]⟩ .f32)
    (hr : (⟨2, ![n, c]⟩ : Shape).Reduces [(1 : Fin 2)] ⟨1, ![n]⟩) (hφ : FKind.Formats .f32)
    (haccM : (0xFF800000#32 : BitVec 32) = FKind.maximumf.neutral .f32 hφ)
    (haccS : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, c]⟩)
    (p : Fin n) (j : Fin c) :
    subf
        (subf v (broadcastTo ⟨2, ![n, c]⟩ (shapeCast ⟨2, ![n, 1]⟩
          (multiReduction (F := Ideal) .maximumf [(1 : Fin 2)] ⟨1, ![n]⟩ v 0xFF800000#32 hr hφ haccM) hc) hb))
        (broadcastTo ⟨2, ![n, c]⟩
          (log (shapeCast ⟨2, ![n, 1]⟩
            (multiReduction (F := Ideal) .add [(1 : Fin 2)] ⟨1, ![n]⟩
              (exp (subf v (broadcastTo ⟨2, ![n, c]⟩ (shapeCast ⟨2, ![n, 1]⟩
                (multiReduction (F := Ideal) .maximumf [(1 : Fin 2)] ⟨1, ![n]⟩ v 0xFF800000#32 hr hφ haccM) hc) hb)))
              0x00000000#32 hr hφ haccS) hc)) hb)
        (ix2 p j)
      = v (ix2 p j) - (Finset.univ : Finset (Fin c)).fold max ⊥ (fun l => v (ix2 p l))
          - Ideal.log (∑ l : Fin c, Ideal.exp (v (ix2 p l) - (Finset.univ : Finset (Fin c)).fold max ⊥ (fun l => v (ix2 p l)))) := by
  refine (shiftLogSumExp_apply v _ hr hφ haccS hc hb p j).trans ?_
  simp only [rowMax_keepdims_apply v hr hφ haccM hc hb p]

end Cert.Rows

end
-- ==== Proof.ClassifierPayload.lean ====
/-
  What the classifier kernel computes on one block of 6000 edges, entry by entry.

  The body receives two [6000, 128] blocks of gathered features, the two [128, 4] weight matrices and the bias of
  4 entries. Its two matrix products, added together and to the bias repeated down the rows, are the scores of the
  block's edges: row p of the score matrix depends on row p of each feature block only. The rest of the body is the
  row-wise logarithm of the softmax. So entry (p, j) of what the body stores is the log-softmax, at class j, of the
  scores computed from row p of the two feature blocks.
-/
import proofs.«103492_j72215580115747_2_alg».proof.Proof.Gen.KernelIdeal.Skeleton
import proofs.«103492_j72215580115747_2_alg».proof.Proof.ClassifierSpec
import proofs.«103492_j72215580115747_2_alg».proof.Proof.ClassifierRows
import proofs.«103492_j72215580115747_2_alg».proof.Proof.LibMatRows
import Idealize.ShloMosaic.Lib.Pipeline.Value

noncomputable section

open scoped BigOperators

namespace Cert.KernelIdeal.Region2

open Cert.KernelIdeal Cert.KernelIdeal.Gen Idealize.ShloMosaic Idealize.ShloMosaic.ValueIdx

/-- The score matrix of a block: the two products, their sum, and the bias repeated down the rows. -/
def logits (x0 x1 : FVec Ideal S6000x128 .bf16) (x2 x3 : FVec Ideal S128x4 .bf16) (x4 : FVec Ideal S4 .f32) :
    FVec Ideal S6000x4 .f32 :=
  addf
    (addf
      (matmul dot_S6000x128_S128x4_S6000x4_1_0_0_1_n_n none (shapeCast S6000x128 x0 shapeCasts_S6000x128_S6000x128)
        (shapeCast S128x4 x2 shapeCasts_S128x4_S128x4) (constant (F := Ideal) S6000x4 .f32 0x00000000#32))
      (matmul dot_S6000x128_S128x4_S6000x4_1_0_0_1_n_n none (shapeCast S6000x128 x1 shapeCasts_S6000x128_S6000x128)
        (shapeCast S128x4 x3 shapeCasts_S128x4_S128x4) (constant (F := Ideal) S6000x4 .f32 0x00000000#32)))
    (broadcastTo S6000x4 (shapeCast S1x4 x4 shapeCasts_S4_S1x4) broadcasts_S1x4_S6000x4)

/-- Row p of the score matrix is the scores of the edge whose features are row p of the two blocks. -/
theorem logits_apply (x0 x1 : FVec Ideal S6000x128 .bf16) (x2 x3 : FVec Ideal S128x4 .bf16) (x4 : FVec Ideal S4 .f32)
    (p : Fin 6000) (l : Fin 4) :
    logits x0 x1 x2 x3 x4 (ix2 p l)
      = Cert.Spec.score (fun k => x0 (ix2 p k)) (fun k => x1 (ix2 p k)) x2 x3 x4 l := by
  unfold logits Cert.Spec.score
  rw [shapeCast_self, shapeCast_self, shapeCast_self, shapeCast_self, addf_apply, addf_apply]
  refine congrArg₂ (· + ·) (congrArg₂ (· + ·) ?_ ?_) ?_
  · exact MatRows.matmul_plain_apply (M := 6000) (K := 128) (N := 4) none x0 x2 p l
  · exact MatRows.matmul_plain_apply (M := 6000) (K := 128) (N := 4) none x1 x3 p l
  · exact Cert.Rows.biasRow_apply x4 shapeCasts_S4_S1x4 broadcasts_S1x4_S6000x4 p l

/-- What the body stores, at (p, j): the log-softmax, at class j, of the scores from row p of the feature blocks. -/
theorem pay_apply (x0 x1 : FVec Ideal S6000x128 .bf16) (x2 x3 : FVec Ideal S128x4 .bf16) (x4 : FVec Ideal S4 .f32)
    (p : Fin 6000) (j : Fin 4) :
    k2_pay1 (F := Ideal) x0 x1 x2 x3 x4 (ix2 p j)
      = Cert.Spec.logSoftmax4 (Cert.Spec.score (fun k => x0 (ix2 p k)) (fun k => x1 (ix2 p k)) x2 x3 x4) j := by
  refine (Cert.Rows.logSoftmaxRows_apply (n := 6000) (c := 4) (logits x0 x1 x2 x3 x4) reduces_S6000x4_S6000 (.inl rfl) rfl rfl
    shapeCasts_S6000_S6000x1 broadcasts_S6000x1_S6000x4 p j).trans ?_
  unfold Cert.Spec.logSoftmax4 Cert.Spec.top4
  simp only [logits_apply]

end Cert.KernelIdeal.Region2

end
-- ==== Proof.ClassifierRegion.lean ====
/-
  The classifier region as a whole: the result array after its hundred grid points.

  Grid point t reads rows 6000·t … 6000·t + 5999 of the two gathered feature arrays, the two weight matrices and the
  bias whole, and writes rows 6000·t … 6000·t + 5999 of the result. Row p of what it writes is the log-softmax of the
  scores of edge 6000·t + p, and depends on that edge's two feature rows only: so the block written at t is block t of
  ONE function of the arrays as the region finds them, the classifier of the specification. The hundred blocks tile
  the 600000 rows (row r lies in block r / 6000), hence the result array ends holding that function.
-/
import proofs.«103492_j72215580115747_2_alg».proof.Proof.Gen.KernelIdeal.Frame
import proofs.«103492_j72215580115747_2_alg».proof.Proof.ClassifierPayload
import Idealize.ShloMosaic.Lib.Pipeline.Value

noncomputable section

open scoped BigOperators

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- One entry of a block, over variables: if row p of the two feature blocks is row e of the two feature arrays and
    the three small operands are the arrays themselves, the body's entry (p, j) is the classifier's entry (e, j). -/
theorem block_entry (A B : (⟨2, ![600000, 128]⟩ : Shape).Idx → EReal) (W1 W2 : (⟨2, ![128, 4]⟩ : Shape).Idx → EReal)
    (b : (⟨1, ![4]⟩ : Shape).Idx → EReal)
    (x0 x1 : FVec Ideal S6000x128 .bf16) (x2 x3 : FVec Ideal S128x4 .bf16) (x4 : FVec Ideal S4 .f32)
    (p : Fin 6000) (j : Fin 4) (e : Fin 600000)
    (h0 : ∀ k : Fin 128, x0 (ix2 p k) = A (ix2 e k)) (h1 : ∀ k : Fin 128, x1 (ix2 p k) = B (ix2 e k))
    (h2 : x2 = W1) (h3 : x3 = W2) (h4 : x4 = b) :
    k2_pay1 (F := Ideal) x0 x1 x2 x3 x4 (ix2 p j) = Cert.Spec.cls A B W1 W2 b (ix2 e j) := by
  subst h2 h3 h4
  rw [pay_apply, Cert.Spec.cls_ix2]
  simp only [h0, h1]

/-- The printed index maps over the grid: the two feature windows and the result window are at block t along the
    rows, the three small windows stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- The row of the feature arrays and of the result array that row p of point t's blocks is: 6000·t + p. -/
def rowOf (t : Fin cfg2.N) (p : Fin 6000) : Fin 600000 :=
  ⟨t.val * 6000 + p.val, by have := lt_of_lt_of_eq t.isLt N_2; have := p.isLt; omega⟩

/-- Row p of the first feature block at point t is row 6000·t + p of the first feature array. -/
theorem read0 (c : Dev nD) (t : Fin cfg2.N) (p : Fin 6000) (k : Fin 128) :
    (iblk2 V c 0 t : FVec Ideal S6000x128 .bf16) (ix2 p k) = V c main_v76 (ix2 (rowOf t p) k) := by
  obtain ⟨e0, e1, -⟩ := idx_facts t
  show V c main_v76 (((cfg2.win 0).blk t).view.emb (ix2 p k)) = V c main_v76 (ix2 (rowOf t p) k)
  refine congrArg (V c main_v76) ?_
  funext a; apply Fin.ext
  match a with
  | ⟨0, _⟩ => show win2_0.index t (0 : Fin 2) * 6000 + 1 * p.val = t.val * 6000 + p.val; rw [e0]; omega
  | ⟨1, _⟩ => show win2_0.index t (1 : Fin 2) * 128 + 1 * k.val = k.val; rw [e1]; omega

/-- Row p of the second feature block at point t is row 6000·t + p of the second feature array. -/
theorem read1 (c : Dev nD) (t : Fin cfg2.N) (p : Fin 6000) (k : Fin 128) :
    (iblk2 V c 1 t : FVec Ideal S6000x128 .bf16) (ix2 p k) = V c main_v83 (ix2 (rowOf t p) k) := by
  obtain ⟨-, -, e2, e3, -⟩ := idx_facts t
  show V c main_v83 (((cfg2.win 1).blk t).view.emb (ix2 p k)) = V c main_v83 (ix2 (rowOf t p) k)
  refine congrArg (V c main_v83) ?_
  funext a; apply Fin.ext
  match a with
  | ⟨0, _⟩ => show win2_1.index t (0 : Fin 2) * 6000 + 1 * p.val = t.val * 6000 + p.val; rw [e2]; omega
  | ⟨1, _⟩ => show win2_1.index t (1 : Fin 2) * 128 + 1 * k.val = k.val; rw [e3]; omega

/-- The first weight block at every point is the first weight array whole. -/
theorem read2 (c : Dev nD) (t : Fin cfg2.N) : (iblk2 V c 2 t : FVec Ideal S128x4 .bf16) = V c main_v85 := by
  obtain ⟨-, -, -, -, e4, e5, -⟩ := idx_facts t
  funext y
  show V c main_v85 (((cfg2.win 2).blk t).view.emb y) = V c main_v85 y
  refine congrArg (V c main_v85) ?_
  funext a; apply Fin.ext
  match a with
  | ⟨0, h⟩ => show win2_2.index t (0 : Fin 2) * 128 + 1 * (y ⟨0, h⟩).val = (y ⟨0, h⟩).val; rw [e4]; omega
  | ⟨1, h⟩ => show win2_2.index t (1 : Fin 2) * 4 + 1 * (y ⟨1, h⟩).val = (y ⟨1, h⟩).val; rw [e5]; omega

/-- The second weight block at every point is the second weight array whole. -/
theorem read3 (c : Dev nD) (t : Fin cfg2.N) : (iblk2 V c 3 t : FVec Ideal S128x4 .bf16) = V c main_v87 := by
  obtain ⟨-, -, -, -, -, -, e6, e7, -⟩ := idx_facts t
  funext y
  show V c main_v87 (((cfg2.win 3).blk t).view.emb y) = V c main_v87 y
  refine congrArg (V c main_v87) ?_
  funext a; apply Fin.ext
  match a with
  | ⟨0, h⟩ => show win2_3.index t (0 : Fin 2) * 128 + 1 * (y ⟨0, h⟩).val = (y ⟨0, h⟩).val; rw [e6]; omega
  | ⟨1, h⟩ => show win2_3.index t (1 : Fin 2) * 4 + 1 * (y ⟨1, h⟩).val = (y ⟨1, h⟩).val; rw [e7]; omega

/-- The bias block at every point is the bias array whole. -/
theorem read4 (c : Dev nD) (t : Fin cfg2.N) : (iblk2 V c 4 t : FVec Ideal S4 .f32) = V c main_arg7 := by
  obtain ⟨-, -, -, -, -, -, -, -, e8, -⟩ := idx_facts t
  funext y
  show V c main_arg7 (((cfg2.win 4).blk t).view.emb y) = V c main_arg7 y
  refine congrArg (V c main_arg7) ?_
  funext a; apply Fin.ext
  match a with
  | ⟨0, h⟩ => show win2_4.index t (0 : Fin 1) * 4 + 1 * (y ⟨0, h⟩).val = (y ⟨0, h⟩).val; rw [e8]; omega

/-- Entry (p, j) of the result block at point t sits at (6000·t + p, j) of the result array. -/
theorem emb5 (t : Fin cfg2.N) (p : Fin 6000) (j : Fin 4) :
    ((cfg2.win 5).blk t).view.emb (ix2 p j) = ix2 (rowOf t p) j := by
  obtain ⟨-, -, -, -, -, -, -, -, -, e9, e10⟩ := idx_facts t
  funext a; apply Fin.ext
  match a with
  | ⟨0, _⟩ => show win2_5.index t (0 : Fin 2) * 6000 + 1 * p.val = t.val * 6000 + p.val; rw [e9]; omega
  | ⟨1, _⟩ => show win2_5.index t (1 : Fin 2) * 4 + 1 * j.val = j.val; rw [e10]; omega

/-- What point t writes back is block t of the classifier of the arrays as the region finds them. -/
theorem flushed_eq (c : Dev nD) (t : Fin cfg2.N) :
    (dat2 (F := Ideal) V c).flushed 5 t
      = ((cfg2.win 5).blk t).view.read (Elt Ideal)
          (Cert.Spec.cls (V c main_v76) (V c main_v83) (V c main_v85) (V c main_v87) (V c main_arg7)) := by
  show (cfg2.win 5).cut (grid2.coords t) ((dat2 (F := Ideal) V c).after 5 t) = _
  rw [after2_5]
  unfold out2_5
  rw [View.canon_unit_zero hz2]
  simp only [View.ld_unit_zero (S := S6000x128) hz2, View.ld_unit_zero (S := S128x4) hz2, View.ld_unit_zero (S := S4) hz1]
  funext y
  obtain ⟨p, j, rfl⟩ : ∃ (p : Fin 6000) (j : Fin 4), y = ix2 p j := ⟨y 0, y 1, eq_ix2 y⟩
  show k2_pay1 (F := Ideal) (iblk2 V c 0 t) (iblk2 V c 1 t) (iblk2 V c 2 t) (iblk2 V c 3 t) (iblk2 V c 4 t) (ix2 p j)
      = Cert.Spec.cls (V c main_v76) (V c main_v83) (V c main_v85) (V c main_v87) (V c main_arg7)
          (((cfg2.win 5).blk t).view.emb (ix2 p j))
  rw [emb5 t p j]
  exact block_entry (V c main_v76) (V c main_v83) (V c main_v85) (V c main_v87) (V c main_arg7)
    (iblk2 V c 0 t) (iblk2 V c 1 t) (iblk2 V c 2 t) (iblk2 V c 3 t) (iblk2 V c 4 t) p j (rowOf t p)
    (read0 V c t p) (read1 V c t p) (read2 V c t) (read3 V c t) (read4 V c t)

/-- An index of the result array is in point t's block iff each coordinate is in the block's range on its axis. -/
theorem mem_blk (t : Fin cfg2.N) (i : S600000x4.Idx) :
    i ∈ ((cfg2.win 5).blk t).view.set
      ↔ ∀ a : Fin 2, win2_5.index t a * S6000x4.size a ≤ (i a).val ∧ (i a).val < win2_5.index t a * S6000x4.size a + S6000x4.size a := by
  show i ∈ ((View.whole main_v88).slice (win2_5.rect t)).set ↔ _
  rw [View.set_slice_whole, Rect.mem_set_unit]
  exact Iff.rfl

/-- Every index of the result array lies in the block of some point: row r in the block of point r / 6000. -/
theorem cover (i : S600000x4.Idx) :
    ∃ t : Fin cfg2.N, (cfg2.win 5).flush t = true ∧ i ∈ ((cfg2.win 5).blk t).view.set := by
  have hi0 : (i 0).val < 600000 := (i 0).isLt
  have hi1 : (i 1).val < 4 := (i 1).isLt
  have hN : cfg2.N = 100 := N_2
  obtain ⟨t, htv⟩ : ∃ t : Fin cfg2.N, t.val = (i 0).val / 6000 := ⟨⟨(i 0).val / 6000, by rw [hN]; omega⟩, rfl⟩
  obtain ⟨-, -, -, -, -, -, -, -, -, e9, e10⟩ := idx_facts t
  refine ⟨t, flush2_5 t, ?_⟩
  rw [mem_blk]
  intro a
  match a with
  | ⟨0, _⟩ =>
    show win2_5.index t (0 : Fin 2) * 6000 ≤ (i 0).val ∧ (i 0).val < win2_5.index t (0 : Fin 2) * 6000 + 6000
    rw [e9, htv]; omega
  | ⟨1, _⟩ =>
    show win2_5.index t (1 : Fin 2) * 4 ≤ (i 1).val ∧ (i 1).val < win2_5.index t (1 : Fin 2) * 4 + 4
    rw [e10]; omega

/-- The result array after the region's hundred points is the classifier of the arrays as the region finds them. -/
theorem value (c : Dev nD) :
    (dat2 (F := Ideal) V c).arrAt 5 cfg2.N
      = Cert.Spec.cls (V c main_v76) (V c main_v83) (V c main_v85) (V c main_v87) (V c main_arg7) :=
  (dat2 (F := Ideal) V c).arrAt_eq_of_cover 5
    (Cert.Spec.cls (V c main_v76) (V c main_v83) (V c main_v85) (V c main_v87) (V c main_arg7))
    (fun t _ => flushed_eq V c t) cover

end Cert.KernelIdeal.Region2

end
-- ==== Proof.ClassifierHostRows.lean ====
/-
  A host program's row-wise reductions of a matrix and their broadcast back, read at one entry.

  The host computes the logarithm of the softmax of each row of an [n, c] matrix as the kernel does, in its own
  operations: a reduction over the columns with max from −∞ (and one more max with −∞, which changes nothing), two
  broadcasts that make the vector of row maxima a column and repeat it across the columns, a subtraction, the
  exponential, a sum over the columns from 0, the logarithm, the same two broadcasts, a subtraction. Read at entry
  (p, j), with m the fold of max from −∞ over row p, the result is v(p, j) − m − log (∑ l, exp (v(p, l) − m)).
-/
import Idealize.ShloMosaic.PureOps.Ideal
import Idealize.ShloMosaic.PureOps.Ideal.Laws
import Idealize.ShloMosaic.Lib.ValueIdx
import Idealize.ShloMosaic.Lib.Pipeline.Value
import proofs.«103492_j72215580115747_2_alg».proof.Proof.LibHostLayout
import proofs.«103492_j72215580115747_2_alg».proof.Proof.ClassifierRows

noncomputable section

open scoped BigOperators

namespace Cert.HostRows

open Idealize.ShloMosaic Idealize.ShloMosaic.ValueIdx

/-- A host reduction with max over the columns, from an initial value that is −∞: at p, the fold of max from −∞
    over row p. -/
theorem reduceMax_apply {n c : ℕ} {u : Shape} (s : FVec Ideal ⟨2, ![n, c]⟩ .f32) (init : u.Idx → EReal)
    (hinit : ∀ i, init i = ⊥)
    (h' : (⟨2, ![n, c]⟩ : Shape).ReducesTo [(1 : Fin 2)] ⟨1, ![n]⟩)
    (h : (⟨2, ![n, c]⟩ : Shape).Reduces [(1 : Fin 2)] ⟨1, ![n]⟩) (hu : 0 < u.numel) (p : Fin n) :
    Host.reduce (FloatOps.maximumf (F := Ideal) (φ := .f32)) s init h' hu (ix1 p)
      = (Finset.univ : Finset (Fin c)).fold max ⊥ (fun l => s (ix2 p l)) := by
  rw [Host.reduce_eq_fold_single _ s init h' h hu (ix1 p), hinit]
  have e : (s ∘ h.lift (ix1 p)) = fun l : Fin c => s (ix2 p l) :=
    funext fun l => congrArg s (Cert.Rows.lift_row h p l)
  rw [e]
  rfl

/-- A host sum over the columns, from an initial value that is 0: at p, the sum over row p. -/
theorem reduceAdd_apply {n c : ℕ} {u : Shape} (x : FVec Ideal ⟨2, ![n, c]⟩ .f32) (init : u.Idx → EReal)
    (hinit : ∀ i, init i = 0)
    (h' : (⟨2, ![n, c]⟩ : Shape).ReducesTo [(1 : Fin 2)] ⟨1, ![n]⟩)
    (h : (⟨2, ![n, c]⟩ : Shape).Reduces [(1 : Fin 2)] ⟨1, ![n]⟩) (hu : 0 < u.numel) (p : Fin n) :
    Host.reduceAdd (F := Ideal) x init h' hu (ix1 p) = ∑ l : Fin c, x (ix2 p l) := by
  show Ideal.hostReduceAdd h' x (init _) (ix1 p) = _
  rw [Ideal.hostReduceAdd_single h' h, hinit, zero_add]
  exact Finset.sum_congr rfl fun l _ => congrArg x (Cert.Rows.lift_row h p l)

/-- A vector of n entries made a column and repeated across c columns: entry (p, j) is entry p. -/
theorem keepdims_apply {α : Type} {n c : ℕ} (v : (⟨1, ![n]⟩ : Shape).Idx → α)
    (hb1 : (⟨1, ![n]⟩ : Shape).BroadcastsInDim ⟨2, ![n, 1]⟩ (![0] : Fin 1 → Fin 2))
    (hb2 : (⟨2, ![n, 1]⟩ : Shape).BroadcastsInDim ⟨2, ![n, c]⟩ (![0, 1] : Fin 2 → Fin 2)) (p : Fin n) (j : Fin c) :
    broadcastInDim ⟨2, ![n, c]⟩ ![0, 1] hb2 (broadcastInDim ⟨2, ![n, 1]⟩ ![0] hb1 v) (ix2 p j) = v (ix1 p) :=
  (Cert.HostLayout.bcast_rows_apply hb2 _ p j).trans (Cert.HostLayout.bcast_col_apply hb1 v p 0)

/-- A vector of c entries made a row and repeated down n rows: entry (p, j) is entry j. -/
theorem biasRow_apply {α : Type} {n c : ℕ} (v : (⟨1, ![c]⟩ : Shape).Idx → α)
    (hb1 : (⟨1, ![c]⟩ : Shape).BroadcastsInDim ⟨2, ![1, c]⟩ (![1] : Fin 1 → Fin 2))
    (hb2 : (⟨2, ![1, c]⟩ : Shape).BroadcastsInDim ⟨2, ![n, c]⟩ (![0, 1] : Fin 2 → Fin 2)) (p : Fin n) (j : Fin c) :
    broadcastInDim ⟨2, ![n, c]⟩ ![0, 1] hb2 (broadcastInDim ⟨2, ![1, c]⟩ ![1] hb1 v) (ix2 p j) = v (ix1 j) :=
  (Cert.HostLayout.bcast_cols_apply hb2 _ p j).trans (Cert.HostLayout.bcast_rowvec_apply hb1 v 0 j)

/-- Shifted scores minus the logarithm of the row sum of their exponentials, at (p, j), for any shift M. -/
theorem shiftLogSumExp_apply {n c : ℕ} {u : Shape} (v M : FVec Ideal ⟨2, ![n, c]⟩ .f32) (init : u.Idx → EReal)
    (hinit : ∀ i, init i = 0)
    (h' : (⟨2, ![n, c]⟩ : Shape).ReducesTo [(1 : Fin 2)] ⟨1, ![n]⟩)
    (h : (⟨2, ![n, c]⟩ : Shape).Reduces [(1 : Fin 2)] ⟨1, ![n]⟩) (hu : 0 < u.numel)
    (hb1 : (⟨1, ![n]⟩ : Shape).BroadcastsInDim ⟨2, ![n, 1]⟩ (![0] : Fin 1 → Fin 2))
    (hb2 : (⟨2, ![n, 1]⟩ : Shape).BroadcastsInDim ⟨2, ![n, c]⟩ (![0, 1] : Fin 2 → Fin 2)) (p : Fin n) (j : Fin c) :
    subf (subf v M)
        (broadcastInDim ⟨2, ![n, c]⟩ ![0, 1] hb2
          (Host.log (broadcastInDim ⟨2, ![n, 1]⟩ ![0] hb1
            (Host.reduceAdd (F := Ideal) (Host.exp (subf v M)) init h' hu))))
        (ix2 p j)
      = v (ix2 p j) - M (ix2 p j) - Ideal.log (∑ l : Fin c, Ideal.exp (v (ix2 p l) - M (ix2 p l))) := by
  refine congrArg (fun z : EReal => v (ix2 p j) - M (ix2 p j) - z) ?_
  refine (Cert.HostLayout.bcast_rows_apply hb2 _ p j).trans ?_
  refine congrArg Ideal.log ?_
  refine (Cert.HostLayout.bcast_col_apply hb1 _ p 0).trans ?_
  exact reduceAdd_apply (Host.exp (subf v M)) init hinit h' h hu p

/-- The host's logarithm of the softmax of each row, at (p, j). -/
theorem logSoftmaxRows_apply {n c : ℕ} {u : Shape} (v : FVec Ideal ⟨2, ![n, c]⟩ .f32)
    (i0 : u.Idx → EReal) (i1 : (⟨0, ![]⟩ : Shape).Idx → EReal) (i2 : u.Idx → EReal)
    (h0 : ∀ i, i0 i = ⊥) (h1 : ∀ i, i1 i = ⊥) (h2 : ∀ i, i2 i = 0)
    (h' : (⟨2, ![n, c]⟩ : Shape).ReducesTo [(1 : Fin 2)] ⟨1, ![n]⟩)
    (h : (⟨2, ![n, c]⟩ : Shape).Reduces [(1 : Fin 2)] ⟨1, ![n]⟩) (hu : 0 < u.numel)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hb2 : (⟨2, ![n, 1]⟩ : Shape).BroadcastsInDim ⟨2, ![n, c]⟩ (![0, 1] : Fin 2 → Fin 2)) (p : Fin n) (j : Fin c) :
    subf
        (subf v (broadcastInDim ⟨2, ![n, c]⟩ ![0, 1] hb2 (broadcastInDim ⟨2, ![n, 1]⟩ ![0] hb1
          (maximumf (broadcastInDim ⟨1, ![n]⟩ ![] hb0 i1)
            (Host.reduce (FloatOps.maximumf (F := Ideal) (φ := .f32)) v i0 h' hu)))))
        (broadcastInDim ⟨2, ![n, c]⟩ ![0, 1] hb2
          (Host.log (broadcastInDim ⟨2, ![n, 1]⟩ ![0] hb1
            (Host.reduceAdd (F := Ideal)
              (Host.exp (subf v (broadcastInDim ⟨2, ![n, c]⟩ ![0, 1] hb2 (broadcastInDim ⟨2, ![n, 1]⟩ ![0] hb1
                (maximumf (broadcastInDim ⟨1, ![n]⟩ ![] hb0 i1)
                  (Host.reduce (FloatOps.maximumf (F := Ideal) (φ := .f32)) v i0 h' hu))))))
              i2 h' hu))))
        (ix2 p j)
      = v (ix2 p j) - (Finset.univ : Finset (Fin c)).fold max ⊥ (fun l => v (ix2 p l))
          - Ideal.log (∑ l : Fin c, Ideal.exp (v (ix2 p l) - (Finset.univ : Finset (Fin c)).fold max ⊥ (fun l => v (ix2 p l)))) := by
  have hM : ∀ l : Fin c,
      broadcastInDim ⟨2, ![n, c]⟩ ![0, 1] hb2 (broadcastInDim ⟨2, ![n, 1]⟩ ![0] hb1
          (maximumf (broadcastInDim ⟨1, ![n]⟩ ![] hb0 i1)
            (Host.reduce (FloatOps.maximumf (F := Ideal) (φ := .f32)) v i0 h' hu))) (ix2 p l)
        = (Finset.univ : Finset (Fin c)).fold max ⊥ (fun l => v (ix2 p l)) := by
    intro l
    refine (keepdims_apply _ hb1 hb2 p l).trans ?_
    show max (broadcastInDim ⟨1, ![n]⟩ ![] hb0 i1 (ix1 p)) (Host.reduce _ v i0 h' hu (ix1 p)) = _
    rw [Cert.HostLayout.bcast_scalar_apply hb0 i1 (ix1 p), h1, reduceMax_apply v i0 h0 h' h hu p]
    exact max_bot_left _
  refine (shiftLogSumExp_apply v _ i2 h2 h' h hu hb1 hb2 p j).trans ?_
  simp only [hM]

end Cert.HostRows

end
-- ==== Proof.ClassifierTail.lean ====
/-
  The reference's classifier, read entry by entry.

  The reference lays the two gathered feature arrays side by side into one [600000, 256] matrix, multiplies it by
  the [256, 4] weight matrix, adds the bias repeated down the rows, and takes the row-wise logarithm of the softmax.
  Row e of the wide matrix is the features of edge e's first end point followed by those of its second, so the
  product's sum over 256 positions is the sum over the first 128, which meet the weight's first 128 rows, plus the sum
  over the last 128, which meet its last 128 rows: the scores of the specification, with the weight's two bands in the
  places of the two weight matrices. Only commutativity and associativity of addition are used; no entry is assumed
  finite. The row-wise logarithm of the softmax is the specification's, once the extra maximum with −∞ and the sum's
  start from 0 are seen to change nothing.
-/
import proofs.«103492_j72215580115747_2_alg».proof.Proof.RRun
import proofs.«103492_j72215580115747_2_alg».proof.Proof.ClassifierSpec
import proofs.«103492_j72215580115747_2_alg».proof.Proof.ClassifierBand
import proofs.«103492_j72215580115747_2_alg».proof.Proof.ClassifierHostRows
import proofs.«103492_j72215580115747_2_alg».proof.Proof.LibMatRows
import proofs.«103492_j72215580115747_2_alg».proof.Proof.LibHostLayout
import proofs.«103492_j72215580115747_2_alg».proof.Proof.LibTypedRef
import Idealize.ShloMosaic.Lib.Pipeline.Value

noncomputable section

open scoped BigOperators

namespace Cert.ReferenceIdeal.Tail

open Cert.ReferenceIdeal Cert.ReferenceIdeal.Gen Idealize.ShloMosaic Idealize.ShloMosaic.TcCoe Idealize.SL.Sem
open Idealize.ShloMosaic.StableHlo Idealize.ShloMosaic.ValueIdx

/-- The reference's score matrix: the wide feature matrix times the weight, plus the bias repeated down the rows. -/
def scores (a b : FVec Ideal S600000x128 .f32) (w : FVec Ideal S256x4 .f32) (bias : FVec Ideal S4 .f32) :
    FVec Ideal S600000x4 .f32 :=
  addf
    (Host.dotGeneral (F := Ideal) dot_S600000x256_S256x4_S600000x4_1_0_0_1_n_n none
      (concatenate S600000x256 1 [⟨S600000x128, a⟩, ⟨S600000x128, b⟩] concatenates_S600000x128_S600000x128_S600000x256_d1) w)
    (broadcastInDim S600000x4 ![0, 1] bcast_S1x4_S600000x4_0_1 (broadcastInDim S1x4 ![1] bcast_S4_S1x4_1 bias))

/-- Scores minus their row maximum, the maximum kept as a column and repeated across the columns. -/
def shifted (s : FVec Ideal S600000x4 .f32) : FVec Ideal S600000x4 .f32 :=
  subf s
    (broadcastInDim S600000x4 ![0, 1] bcast_S600000x1_S600000x4_0_1
      (broadcastInDim S600000x1 ![0] bcast_S600000_S600000x1_0
        (maximumf (broadcastInDim S600000 ![] bcast_S_S600000 (constant (F := Ideal) S_ .f32 0xFF800000#32))
          (Host.reduce FloatOps.maximumf s (constant (F := Ideal) S_ .f32 0xFF800000#32) reducesTo_S600000x4_S600000_d1 h_S_))))

/-- The reference's row-wise logarithm of the softmax. -/
def logSoftmax (s : FVec Ideal S600000x4 .f32) : FVec Ideal S600000x4 .f32 :=
  subf (shifted s)
    (broadcastInDim S600000x4 ![0, 1] bcast_S600000x1_S600000x4_0_1
      (Host.log (broadcastInDim S600000x1 ![0] bcast_S600000_S600000x1_0
        (Host.reduceAdd (F := Ideal) (Host.exp (shifted s)) (constant (F := Ideal) S_ .f32 0x00000000#32)
          reducesTo_S600000x4_S600000_d1 h_S_))))

/-- Row e of the reference's score matrix is the specification's scores of edge e, the weight's two bands in the
    places of the two weight matrices: the sum over 256 positions splits into its two halves. -/
theorem scores_apply (a b : FVec Ideal S600000x128 .f32) (w : FVec Ideal S256x4 .f32) (bias : FVec Ideal S4 .f32)
    (e : Fin 600000) (j : Fin 4) :
    scores a b w bias (ix2 e j)
      = Cert.Spec.score (fun k => a (ix2 e k)) (fun k => b (ix2 e k))
          (Cert.Spec.band 0 (by decide) w) (Cert.Spec.band 128 (by decide) w) bias j := by
  unfold scores Cert.Spec.score
  rw [addf_apply]
  refine congrArg₂ (· + ·) ?_ (Cert.HostRows.biasRow_apply bias bcast_S4_S1x4_1 bcast_S1x4_S600000x4_0_1 e j)
  refine (MatRows.dotGeneral_plain_apply (M := 600000) (K := 256) (N := 4) none _ w e j).trans ?_
  refine (Fin.sum_univ_add (a := 128) (b := 128) _).trans ?_
  refine congrArg₂ (· + ·) (Finset.sum_congr rfl fun k _ => ?_) (Finset.sum_congr rfl fun k _ => ?_)
  · refine congrArg₂ (· * ·) ?_ ?_
    · exact concatenate_pair_apply_left (t := S600000x256) (1 : Fin 2) a b
        concatenates_S600000x128_S600000x128_S600000x256_d1 (ix2 e (Fin.castAdd 128 k)) rfl (ix2 e k)
        (fun c => by
          match c with
          | ⟨0, _⟩ => rfl
          | ⟨1, _⟩ => rfl)
    · rw [Cert.Spec.band_ix2]
      refine congrArg (fun r : Fin 256 => w (ix2 r j)) (Fin.ext ?_)
      show k.val = 0 + k.val
      omega
  · refine congrArg₂ (· * ·) ?_ ?_
    · exact concatenate_pair_apply_right (t := S600000x256) (1 : Fin 2) a b
        concatenates_S600000x128_S600000x128_S600000x256_d1 (ix2 e (Fin.natAdd 128 k)) rfl rfl (ix2 e k)
        (fun c hc => by
          match c, hc with
          | ⟨0, _⟩, _ => rfl
          | ⟨1, _⟩, hc => exact absurd rfl hc)
        (by show k.val + 128 = 128 + k.val; omega)
    · rw [Cert.Spec.band_ix2]
      rfl

/-- The reference's classifier is the specification's, as functions of the four arrays it reads. -/
theorem logSoftmax_scores (a b : FVec Ideal S600000x128 .f32) (w : FVec Ideal S256x4 .f32) (bias : FVec Ideal S4 .f32) :
    logSoftmax (scores a b w bias)
      = Cert.Spec.cls a b (Cert.Spec.band 0 (by decide) w) (Cert.Spec.band 128 (by decide) w) bias := by
  funext i
  obtain ⟨e, j, rfl⟩ : ∃ (e : Fin 600000) (j : Fin 4), i = ix2 e j := ⟨i 0, i 1, eq_ix2 i⟩
  rw [Cert.Spec.cls_ix2]
  unfold logSoftmax shifted
  refine (Cert.HostRows.logSoftmaxRows_apply (n := 600000) (c := 4) (scores a b w bias)
    (constant (F := Ideal) S_ .f32 0xFF800000#32) (constant (F := Ideal) S_ .f32 0xFF800000#32)
    (constant (F := Ideal) S_ .f32 0x00000000#32)
    (fun _ => Cert.Rows.ofBits_negInf_f32) (fun _ => Cert.Rows.ofBits_negInf_f32) (fun _ => Ideal.ofBits_zero_f32)
    reducesTo_S600000x4_S600000_d1 (by decide) h_S_ bcast_S_S600000 bcast_S600000_S600000x1_0
    bcast_S600000x1_S600000x4_0_1 e j).trans ?_
  unfold Cert.Spec.logSoftmax4 Cert.Spec.top4
  simp only [scores_apply]

/-- What the result buffer holds after the reference's last stretch, as the composed operations over the four
    buffers the stretch reads. -/
theorem after_eq (V : Valuation τ sig (Elt Ideal)) :
    after (RRun.opsT (F := Ideal)) V (Proc.devRef .tc main_v119)
      = logSoftmax (scores (V (Proc.devRef .tc main_v104)) (V (Proc.devRef .tc main_v113))
          (V (Proc.devRef .tc main_arg6)) (V (Proc.devRef .tc main_arg7))) := by
  unfold logSoftmax shifted scores
  after_results
  simp only [TRef.ofBuf_toBuf]
  rfl

/-- The reference's result after its last stretch, from any contents V of the buffers before it: the classifier of the
    two gathered feature arrays, the weight's two bands and the bias as V holds them. -/
theorem value (V : Valuation τ sig (Elt Ideal)) :
    after (RRun.opsT (F := Ideal)) V (Proc.devRef .tc main_v119)
      = Cert.Spec.cls (V (Proc.devRef .tc main_v104)) (V (Proc.devRef .tc main_v113))
          (Cert.Spec.band 0 (by decide) (V (Proc.devRef .tc main_arg6)))
          (Cert.Spec.band 128 (by decide) (V (Proc.devRef .tc main_arg6))) (V (Proc.devRef .tc main_arg7)) :=
  (after_eq V).trans (logSoftmax_scores _ _ _ _)

end Cert.ReferenceIdeal.Tail

end
-- ==== Proof.Chain.lean ====
/-
  The kernel program's result is the reference's.

  After its third grid region the kernel program's result array holds the classifier of the five arrays the region
  reads: the features gathered at the edges' two end points, the two bands of the weight, the bias. The reference's
  last stretch leaves in its result buffer the same classifier of the five arrays it reads, and those five agree,
  the rectified second-layer outputs agreeing. Hence the two results are one array.
-/
import proofs.«103492_j72215580115747_2_alg».proof.Proof.ChainEdges
import proofs.«103492_j72215580115747_2_alg».proof.Proof.ChainLayers2
import proofs.«103492_j72215580115747_2_alg».proof.Proof.ClassifierRegion
import proofs.«103492_j72215580115747_2_alg».proof.Proof.ClassifierTail

set_option maxRecDepth 16384

noncomputable section

namespace Cert.Chain

open Idealize.ShloMosaic Idealize.ShloMosaic.TcCoe Idealize.ShloMosaic.StableHlo Idealize.SL.Sem

variable {m : (ℓ : Loc Cert.KernelIdeal.nD Cert.KernelIdeal.τ Cert.KernelIdeal.sig) → Buf (Elt Ideal) ℓ} {ρ : Dev Cert.KernelIdeal.nD → PrngReg}
  {m' : (ℓ : Loc Cert.ReferenceIdeal.nD Cert.ReferenceIdeal.τ Cert.ReferenceIdeal.sig) → Buf (Elt Ideal) ℓ}

/-- The features gathered at the edges' first end points agree. -/
theorem hr_eq {c : Dev Cert.KernelIdeal.nD} (h : Agree m ρ m' c) :
    Cert.KernelIdeal.Gen.V9 m ρ c Cert.KernelIdeal.main_v76 = RE m' c (Proc.devRef .tc Cert.ReferenceIdeal.main_v104) :=
  hr_of h (hfin_eq h)

/-- The features gathered at the edges' second end points agree. -/
theorem hc_eq {c : Dev Cert.KernelIdeal.nD} (h : Agree m ρ m' c) :
    Cert.KernelIdeal.Gen.V9 m ρ c Cert.KernelIdeal.main_v83 = RE m' c (Proc.devRef .tc Cert.ReferenceIdeal.main_v113) :=
  hc_of h (hfin_eq h)

set_option maxHeartbeats 4000000 in
/-- The kernel program's result array after its last region is the reference's result buffer after its last stretch. -/
theorem value_eq {m : (ℓ : Loc Cert.KernelIdeal.nD Cert.KernelIdeal.τ Cert.KernelIdeal.sig) → Buf (Elt Ideal) ℓ} {ρ : Dev Cert.KernelIdeal.nD → PrngReg}
    {m' : (ℓ : Loc Cert.ReferenceIdeal.nD Cert.ReferenceIdeal.τ Cert.ReferenceIdeal.sig) → Buf (Elt Ideal) ℓ} {c : Dev Cert.KernelIdeal.nD} (h : Agree m ρ m' c) :
    Cert.KernelIdeal.Gen.W10 m ρ c (Proc.devRef .tc Cert.KernelIdeal.main_v88)
      = after (Cert.ReferenceIdeal.RRun.opsT (F := Ideal)) (after (Cert.ReferenceIdeal.RRun.opsE (F := Ideal)) (after (Cert.ReferenceIdeal.RRun.opsD (F := Ideal))
          (after (Cert.ReferenceIdeal.RRun.opsC (F := Ideal)) (after (Cert.ReferenceIdeal.RRun.opsB (F := Ideal)) (after (Cert.ReferenceIdeal.RRun.opsA (F := Ideal))
            (launchContents m' c)))))) (Proc.devRef .tc Cert.ReferenceIdeal.main_v119) := by
  refine (Cert.KernelIdeal.Gen.W10_arr m ρ c 5).trans ?_
  rw [Cert.KernelIdeal.Region2.value]
  show _ = after (Cert.ReferenceIdeal.RRun.opsT (F := Ideal)) (RE m' c) (Proc.devRef .tc Cert.ReferenceIdeal.main_v119)
  rw [Cert.ReferenceIdeal.Tail.value, hr_eq h, hc_eq h, w1_eq h, w2_eq h, b_eq h]

end Cert.Chain

end
-- ==== Proof.lean ====
/-
  A two-layer graph convolution with an edge classifier: the tiled program against the whole-array reference.

  The program computes, for a graph of 50000 nodes and 600000 edges, two rounds of "multiply the node features by
  a weight, then add up the normalised neighbours", and then, for every edge, the log-softmax over four classes of
  a linear map of the features of the edge's two end points. Its three grid regions do the two products by bands
  of 2000 rows and the classifier by bands of 6000 edges; everything between the regions is done by whole-array
  host operations, the same ones the reference uses. The reference does the products and the classifier on whole
  arrays, with the two end points' features laid side by side and one 256 × 4 weight.

  Five statements are proved. The program as printed, the program read over the extended reals, and the reference
  read over the extended reals each run to the end without a fault and leave their eight arguments as they were.
  The reading over the extended reals rewrote no operation, so there is nothing to preserve. And over the extended
  reals the two results are equal, entry by entry, when the launch memories agree on the arguments: a band of
  rows of a matrix product is the product of the band; clamping at zero commutes with cutting out a band; the
  product of the side-by-side features with the stacked weight is the sum of the two half products; the
  log-softmax works row by row; and the bands exhaust the rows.
-/
import proofs.«103492_j72215580115747_2_alg».proof.Defs
import proofs.«103492_j72215580115747_2_alg».proof.Proof.Gen.Kernel
import proofs.«103492_j72215580115747_2_alg».proof.Proof.Gen.Kernel.Skeleton
import proofs.«103492_j72215580115747_2_alg».proof.Proof.Gen.Kernel.Launch
import proofs.«103492_j72215580115747_2_alg».proof.Proof.Gen.Kernel.Points
import proofs.«103492_j72215580115747_2_alg».proof.Proof.Gen.Kernel.Frame
import proofs.«103492_j72215580115747_2_alg».proof.Proof.Gen.KernelIdeal
import proofs.«103492_j72215580115747_2_alg».proof.Proof.Gen.KernelIdeal.Skeleton
import proofs.«103492_j72215580115747_2_alg».proof.Proof.Gen.KernelIdeal.Launch
import proofs.«103492_j72215580115747_2_alg».proof.Proof.Gen.KernelIdeal.Points
import proofs.«103492_j72215580115747_2_alg».proof.Proof.Gen.KernelIdeal.Frame
import proofs.«103492_j72215580115747_2_alg».proof.Proof.Gen.ReferenceIdeal
import proofs.«103492_j72215580115747_2_alg».proof.Proof.Gen.Pre_finite_inputs
import proofs.«103492_j72215580115747_2_alg».proof.Proof.KRun
import proofs.«103492_j72215580115747_2_alg».proof.Proof.RRun
import proofs.«103492_j72215580115747_2_alg».proof.Proof.Chain
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations; its run with the result forgotten is its frame. -/
theorem frame_referenceIdeal : Cert.frame_ReferenceIdeal := fun m ρ _ =>
  (θ_run Cert.ReferenceIdeal.defs _ _).mono (fun _ h c => (h c).2) (Cert.ReferenceIdeal.RRun.run (F := Ideal) m ρ)

/-- Over the extended reals both programs end with the same array of log-probabilities: the kernel's is the last
    boundary's contents of its result buffer, the reference's the composed stretches of its host operations over
    the launch contents, and the two are one value when the launch memories agree on the eight arguments. -/
theorem algebraic : Cert.algebraic_KernelIdeal_ReferenceIdeal := by
  intro m ρ m' ρ' _ hagree
  refine ⟨fun c => Cert.KernelIdeal.Gen.W10 m ρ c (Proc.devRef .tc Cert.KernelIdeal.main_v88),
    Cert.KernelIdeal.KRun.run (F := Ideal) m ρ, ?_⟩
  refine (θ_run Cert.ReferenceIdeal.defs _ _).mono (fun _ h c => ⟨(h c).1.trans ?_, (h c).2⟩)
    (Cert.ReferenceIdeal.RRun.run (F := Ideal) m' ρ')
  exact (Cert.Chain.value_eq (m := m) (ρ := ρ) (m' := m') (c := c)
    ⟨(hagree c).1, (hagree c).2.1, (hagree c).2.2.1, (hagree c).2.2.2.1, (hagree c).2.2.2.2.1,
      (hagree c).2.2.2.2.2.1, (hagree c).2.2.2.2.2.2.1, (hagree c).2.2.2.2.2.2.2⟩).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
